-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S98304x256 : Shape := ⟨2, ![98304, 256]⟩
abbrev S64x1024 : Shape := ⟨2, ![64, 1024]⟩
abbrev S512x1024 : Shape := ⟨2, ![512, 1024]⟩
abbrev S98304 : Shape := ⟨1, ![98304]⟩
abbrev S128x512 : Shape := ⟨2, ![128, 512]⟩
abbrev S128 : Shape := ⟨1, ![128]⟩
abbrev S256x384 : Shape := ⟨2, ![256, 384]⟩
abbrev S256 : Shape := ⟨1, ![256]⟩
abbrev S256x256 : Shape := ⟨2, ![256, 256]⟩
abbrev S_ : Shape := ⟨0, ![]⟩

class Facts : Prop where
  bcast_S_S98304x256 : S_.BroadcastsInDim S98304x256 (![] : Fin 0 → Fin S98304x256.rank)
  reducesTo_S98304x256_S_d0_1 : S98304x256.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  reducesTo_S_S_d : S_.ReducesTo [] S_

variable [Facts]

def fn_part3 {F : FTy → Type} [FloatOps F] (main_arg12 : FVec F S_ .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S_ .f32 := Host.absf main_arg12
  let main_cst_20 : FVec F S_ .f32 := constant S_ .f32 0x7F800000#32
  let main_v55 : IVec S_ 1 := cmpf .olt main_v54 main_cst_20
  let main_c_21 : IVec S_ 1 := constantI S_ 1 1#1
  let main_v56 : IVec S_ 1 := (fun x v => Host.reduce IntOp.andi x v reducesTo_S_S_d h_S_) main_v55 main_c_21
  let main_v57 : IVec S_ 1 := andi main_v53 main_v56
  main_v57

def fn_part2 {F : FTy → Type} [FloatOps F] (main_arg8 : FVec F S256 .f32) (main_arg9 : FVec F S256 .f32) (main_arg10 : FVec F S256x256 .f32) (main_arg11 : FVec F S256 .f32) (main_arg12 : FVec F S_ .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_v48 main_v49 main_v50

def fn_part1 {F : FTy → Type} [FloatOps F] (main_arg5 : FVec F S128 .f32) (main_arg6 : FVec F S256x384 .f32) (main_arg7 : FVec F S256 .f32) (main_arg8 : FVec F S256 .f32) (main_arg9 : FVec F S256 .f32) (main_arg10 : FVec F S256x256 .f32) (main_arg11 : FVec F S256 .f32) (main_arg12 : FVec F S_ .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x384 .f32 := Host.absf main_arg6
  let main_cst_8 : FVec F S_ .f32 := constant S_ .f32 0x7F800000#32
  let main_v25 : FVec F S256x384 .f32 := broadcastInDim S256x384 ![] bcast_S_S256x384 main_cst_8
  let main_v26 : IVec S256x384 1 := cmpf .olt main_v24 main_v25
  let main_c_9 : IVec S_ 1 := constantI S_ 1 1#1
  let main_v27 : IVec S_ 1 := (fun x v => Host.reduce IntOp.andi x v reducesTo_S256x384_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S98304x256 .f32) (main_arg1 : FVec F S64x1024 .f32) (main_arg2 : FVec F S512x1024 .f32) (main_arg3 : IVec S98304 1) (main_arg4 : FVec F S128x512 .f32) (main_arg5 : FVec F S128 .f32) (main_arg6 : FVec F S256x384 .f32) (main_arg7 : FVec F S256 .f32) (main_arg8 : FVec F S256 .f32) (main_arg9 : FVec F S256 .f32) (main_arg10 : FVec F S256x256 .f32) (main_arg11 : FVec F S256 .f32) (main_arg12 : FVec F S_ .f32) : IVec S_ 1 :=
  let main_v0 : FVec F S98304x256 .f32 := Host.absf main_arg0
  let main_cst : FVec F S_ .f32 := constant S_ .f32 0x7F800000#32
  let main_v1 : FVec F S98304x256 .f32 := broadcastInDim S98304x256 ![] bcast_S_S98304x256 main_cst
  let main_v2 : IVec S98304x256 1 := cmpf .olt main_v0 main_v1
  let main_c : IVec S_ 1 := constantI S_ 1 1#1
  let main_v3 : IVec S_ 1 := (fun x v => Host.reduce IntOp.andi x v reducesTo_S98304x256_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S128x512 .f32 := Host.absf main_arg4
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg5 main_arg6 main_arg7 main_arg8 main_arg9 main_arg10 main_arg11 main_arg12 main_v13 main_v16
-- ==== Kernel.lean ====
abbrev S98304x256 : Shape := ⟨2, ![98304, 256]⟩
abbrev S64x1024 : Shape := ⟨2, ![64, 1024]⟩
abbrev S512x1024 : Shape := ⟨2, ![512, 1024]⟩
abbrev S98304 : Shape := ⟨1, ![98304]⟩
abbrev S128x512 : Shape := ⟨2, ![128, 512]⟩
abbrev S128 : Shape := ⟨1, ![128]⟩
abbrev S256x384 : Shape := ⟨2, ![256, 384]⟩
abbrev S256 : Shape := ⟨1, ![256]⟩
abbrev S256x256 : Shape := ⟨2, ![256, 256]⟩
abbrev S_ : Shape := ⟨0, ![]⟩
abbrev S98304x1 : Shape := ⟨2, ![98304, 1]⟩
abbrev S1x128 : Shape := ⟨2, ![1, 128]⟩
abbrev S1x256 : Shape := ⟨2, ![1, 256]⟩
abbrev S6144x256 : Shape := ⟨2, ![6144, 256]⟩
abbrev S6144x1 : Shape := ⟨2, ![6144, 1]⟩
abbrev S128x256 : Shape := ⟨2, ![128, 256]⟩
abbrev S64x512 : Shape := ⟨2, ![64, 512]⟩
abbrev S64x128 : Shape := ⟨2, ![64, 128]⟩
abbrev S256x128 : Shape := ⟨2, ![256, 128]⟩
abbrev S64x256 : Shape := ⟨2, ![64, 256]⟩
abbrev S4x256 : Shape := ⟨2, ![4, 256]⟩
abbrev S8x256 : Shape := ⟨2, ![8, 256]⟩
abbrev S1536x256 : Shape := ⟨2, ![1536, 256]⟩
abbrev S6144 : Shape := ⟨1, ![6144]⟩

abbrev nBuf : Space → Nat
  | .hbm => 23
  | .vmem => 19
  | .smem => 0
  | _ => 0

abbrev bufTy : (tb : Table) → Fin (tcTables nBuf tb) → BufTy
  | .hbm, ⟨0, _⟩ => ⟨S98304x256, .f32⟩
  | .hbm, ⟨1, _⟩ => ⟨S64x1024, .f32⟩
  | .hbm, ⟨2, _⟩ => ⟨S512x1024, .f32⟩
  | .hbm, ⟨3, _⟩ => ⟨S98304, .i1⟩
  | .hbm, ⟨4, _⟩ => ⟨S128x512, .f32⟩
  | .hbm, ⟨5, _⟩ => ⟨S128, .f32⟩
  | .hbm, ⟨6, _⟩ => ⟨S256x384, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S_, .f32⟩
  | .hbm, ⟨13, _⟩ => ⟨S98304, .f32⟩
  | .hbm, ⟨14, _⟩ => ⟨S98304x1, .f32⟩
  | .hbm, ⟨15, _⟩ => ⟨S98304x1, .f32⟩
  | .hbm, ⟨16, _⟩ => ⟨S98304x1, .f32⟩
  | .hbm, ⟨17, _⟩ => ⟨S1x128, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S98304x256, .f32⟩
  | .local _ .vmem, ⟨0, _⟩ => ⟨S64x1024, .f32⟩
  | .local _ .vmem, ⟨1, _⟩ => ⟨S512x1024, .f32⟩
  | .local _ .vmem, ⟨2, _⟩ => ⟨S128x512, .f32⟩
  | .local _ .vmem, ⟨3, _⟩ => ⟨S1x128, .f32⟩
  | .local _ .vmem, ⟨4, _⟩ => ⟨S256x384, .f32⟩
  | .local _ .vmem, ⟨5, _⟩ => ⟨S1x256, .f32⟩
  | .local _ .vmem, ⟨6, _⟩ => ⟨S6144x256, .f32⟩
  | .local _ .vmem, ⟨7, _⟩ => ⟨S6144x256, .f32⟩
  | .local _ .vmem, ⟨8, _⟩ => ⟨S6144x1, .f32⟩
  | .local _ .vmem, ⟨9, _⟩ => ⟨S6144x1, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S256x256, .f32⟩
  | .local _ .vmem, ⟨14, _⟩ => ⟨S6144x256, .f32⟩
  | .local _ .vmem, ⟨15, _⟩ => ⟨S6144x256, .f32⟩
  | .local _ .vmem, ⟨16, _⟩ => ⟨S128x256, .f32⟩
  | .local _ .vmem, ⟨17, _⟩ => ⟨S256x256, .f32⟩
  | .local _ .vmem, ⟨18, _⟩ => ⟨S256x256, .f32⟩
  | _, _ => ⟨S98304x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c8_i32 : BitVec 32 := 8#32
  let v6 : BitVec 32 := Scalar.muli arg0 c8_i32
  let v7 : Index := Scalar.indexCast v6
  let c0_4 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6144x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6144x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S6144x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S98304_S98304x1 : S98304.ShapeCasts S98304x1
  bcast_S_S98304x1 : S_.BroadcastsInDim S98304x1 (![] : Fin 0 → Fin S98304x1.rank)
  shapeCasts_S128_S1x128 : S128.ShapeCasts S1x128
  shapeCasts_S256_S1x256 : S256.ShapeCasts S1x256
  inb_S256x384_S256x256_0_0 : ∀ a, (![0, 0] : Fin 2 → Nat) a + S256x256.size a ≤ S256x384.size a
  h_S256x256 : 0 < S256x256.numel
  transposes_S256x256_p1_0_S256x256 : S256x256.Transposes [1, 0] S256x256
  inb_S256x256_S256x256_0_0 : ∀ a, (![0, 0] : Fin 2 → Nat) a + S256x256.size a ≤ S256x256.size a
  shapeCasts_S256x256_S256x256 : S256x256.ShapeCasts S256x256
  inb_S64x1024_S64x1024_0_0 : ∀ a, (![0, 0] : Fin 2 → Nat) a + S64x1024.size a ≤ S64x1024.size a
  h_S64x1024 : 0 < S64x1024.numel
  inb_S512x1024_S512x1024_0_0 : ∀ a, (![0, 0] : Fin 2 → Nat) a + S512x1024.size a ≤ S512x1024.size a
  h_S512x1024 : 0 < S512x1024.numel
  inb_S128x512_S128x512_0_0 : ∀ a, (![0, 0] : Fin 2 → Nat) a + S128x512.size a ≤ S128x512.size a
  h_S128x512 : 0 < S128x512.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S256x384_S256x128_0_256 : ∀ a, (![0, 256] : Fin 2 → Nat) a + S256x128.size a ≤ S256x384.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  slices_S64x256_o0_0_S4x256 : S64x256.Slices ![0, 0] S4x256
  inb_S128x256_S4x256_0_0 : ∀ a, (![0, 0] : Fin 2 → Nat) a + S4x256.size a ≤ S128x256.size a
  h_S4x256 : 0 < S4x256.numel
  shapeCasts_S4x256_S4x256 : S4x256.ShapeCasts S4x256
  slices_S64x256_o4_0_S4x256 : S64x256.Slices ![4, 0] S4x256
  inb_S128x256_S4x256_8_0 : ∀ a, (![8, 0] : Fin 2 → Nat) a + S4x256.size a ≤ S128x256.size a
  slices_S64x256_o8_0_S4x256 : S64x256.Slices ![8, 0] S4x256
  inb_S128x256_S4x256_16_0 : ∀ a, (![16, 0] : Fin 2 → Nat) a + S4x256.size a ≤ S128x256.size a
  slices_S64x256_o12_0_S4x256 : S64x256.Slices ![12, 0] S4x256
  inb_S128x256_S4x256_24_0 : ∀ a, (![24, 0] : Fin 2 → Nat) a + S4x256.size a ≤ S128x256.size a
  slices_S64x256_o16_0_S4x256 : S64x256.Slices ![16, 0] S4x256
  inb_S128x256_S4x256_32_0 : ∀ a, (![32, 0] : Fin 2 → Nat) a + S4x256.size a ≤ S128x256.size a
  slices_S64x256_o20_0_S4x256 : S64x256.Slices ![20, 0] S4x256
  inb_S128x256_S4x256_40_0 : ∀ a, (![40, 0] : Fin 2 → Nat) a + S4x256.size a ≤ S128x256.size a
  slices_S64x256_o24_0_S4x256 : S64x256.Slices ![24, 0] S4x256
  inb_S128x256_S4x256_48_0 : ∀ a, (![48, 0] : Fin 2 → Nat) a + S4x256.size a ≤ S128x256.size a
  slices_S64x256_o28_0_S4x256 : S64x256.Slices ![28, 0] S4x256
  inb_S128x256_S4x256_56_0 : ∀ a, (![56, 0] : Fin 2 → Nat) a + S4x256.size a ≤ S128x256.size a
  slices_S64x256_o32_0_S4x256 : S64x256.Slices ![32, 0] S4x256
  inb_S128x256_S4x256_64_0 : ∀ a, (![64, 0] : Fin 2 → Nat) a + S4x256.size a ≤ S128x256.size a
  slices_S64x256_o36_0_S4x256 : S64x256.Slices ![36, 0] S4x256
  inb_S128x256_S4x256_72_0 : ∀ a, (![72, 0] : Fin 2 → Nat) a + S4x256.size a ≤ S128x256.size a
  slices_S64x256_o40_0_S4x256 : S64x256.Slices ![40, 0] S4x256
  inb_S128x256_S4x256_80_0 : ∀ a, (![80, 0] : Fin 2 → Nat) a + S4x256.size a ≤ S128x256.size a
  slices_S64x256_o44_0_S4x256 : S64x256.Slices ![44, 0] S4x256
  inb_S128x256_S4x256_88_0 : ∀ a, (![88, 0] : Fin 2 → Nat) a + S4x256.size a ≤ S128x256.size a
  slices_S64x256_o48_0_S4x256 : S64x256.Slices ![48, 0] S4x256
  inb_S128x256_S4x256_96_0 : ∀ a, (![96, 0] : Fin 2 → Nat) a + S4x256.size a ≤ S128x256.size a
  slices_S64x256_o52_0_S4x256 : S64x256.Slices ![52, 0] S4x256
  inb_S128x256_S4x256_104_0 : ∀ a, (![104, 0] : Fin 2 → Nat) a + S4x256.size a ≤ S128x256.size a
  slices_S64x256_o56_0_S4x256 : S64x256.Slices ![56, 0] S4x256
  inb_S128x256_S4x256_112_0 : ∀ a, (![112, 0] : Fin 2 → Nat) a + S4x256.size a ≤ S128x256.size a
  slices_S64x256_o60_0_S4x256 : S64x256.Slices ![60, 0] S4x256
  inb_S128x256_S4x256_120_0 : ∀ a, (![120, 0] : Fin 2 → Nat) a + S4x256.size a ≤ S128x256.size a
  inb_S6144x256_S6144x256_0_0 : ∀ a, (![0, 0] : Fin 2 → Nat) a + S6144x256.size a ≤ S6144x256.size a
  h_S6144x256 : 0 < S6144x256.numel
  h_S8x256 : 0 < S8x256.numel
  slices_S8x256_o0_0_S1x256 : S8x256.Slices ![0, 0] S1x256
  broadcasts_S1x256_S1536x256 : S1x256.Broadcasts S1536x256
  slices_S8x256_o1_0_S1x256 : S8x256.Slices ![1, 0] S1x256
  slices_S8x256_o2_0_S1x256 : S8x256.Slices ![2, 0] S1x256
  slices_S8x256_o3_0_S1x256 : S8x256.Slices ![3, 0] S1x256
  concatenates_S1536x256_S1536x256_S1536x256_S1536x256_S6144x256_d0 : Shape.Concatenates [S1536x256, S1536x256, S1536x256, S1536x256] S6144x256 0
  reduces_S6144x256_S6144 : S6144x256.Reduces [1] S6144
  shapeCasts_S6144_S6144x1 : S6144.ShapeCasts S6144x1
  broadcasts_S6144x1_S6144x256 : S6144x1.Broadcasts S6144x256
  broadcasts_S1x256_S6144x256 : S1x256.Broadcasts S6144x256
  inb_S6144x1_S6144x1_0_0 : ∀ a, (![0, 0] : Fin 2 → Nat) a + S6144x1.size a ≤ S6144x1.size a
  h_S6144x1 : 0 < S6144x1.numel
  shapeCasts_S6144x1_S6144x1 : S6144x1.ShapeCasts S6144x1
  dot_S64x1024_S512x1024_S64x512_1_1_0_0_n_n_wf : DotDims.WF S64x1024 S512x1024 S64x512 [1] [1] [0] [0] [] []
  dot_S64x512_S128x512_S64x128_1_1_0_0_n_n_wf : DotDims.WF S64x512 S128x512 S64x128 [1] [1] [0] [0] [] []
  dot_S64x128_S256x128_S64x256_1_1_0_0_n_n_wf : DotDims.WF S64x128 S256x128 S64x256 [1] [1] [0] [0] [] []
  dot_S6144x256_S256x256_S6144x256_1_0_0_1_n_n_wf : DotDims.WF S6144x256 S256x256 S6144x256 [1] [0] [0] [1] [] []
  hrank0 : 0 < grid0.rank
  k0_off1_inb : ∀ i : grid0.Coords, ∀ a, (k0_off1 i) a + S8x256.size a ≤ S128x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .f32 = 32 ∨ (Rect.block (s := S64x1024) S64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x384.size a ≤ S256x384.size a
  hwx0_4 : ∀ i : grid0.Coords, EltTy.bits .f32 = 32 ∨ (Rect.block (s := S256x384) S256x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6144x256.size a ≤ S98304x256.size a
  hwx0_6 : ∀ i : grid0.Coords, EltTy.bits .f32 = 32 ∨ (Rect.block (s := S98304x256) S6144x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6144x1.size a ≤ S98304x1.size a
  hwx0_7 : ∀ i : grid0.Coords, EltTy.bits .f32 = 32 ∨ (Rect.block (s := S98304x1) S6144x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S6144x256.size a ≤ S98304x256.size a
  hwx0_12 : ∀ i : grid0.Coords, EltTy.bits .f32 = 32 ∨ (Rect.block (s := S98304x256) S6144x256.size (cc0_transform_12 i) (hinb0_12 i)).WholeWords (EltTy.packing .f32)

variable [Facts₀]

def dot_S64x1024_S512x1024_S64x512_1_1_0_0_n_n : DotDims S64x1024 S512x1024 S64x512 where
  lhsContracting := [1]
  rhsContracting := [1]
  lhsNonContracting := [0]
  rhsNonContracting := [0]
  lhsBatch := []
  rhsBatch := []
  wf := dot_S64x1024_S512x1024_S64x512_1_1_0_0_n_n_wf
def dot_S64x512_S128x512_S64x128_1_1_0_0_n_n : DotDims S64x512 S128x512 S64x128 where
  lhsContracting := [1]
  rhsContracting := [1]
  lhsNonContracting := [0]
  rhsNonContracting := [0]
  lhsBatch := []
  rhsBatch := []
  wf := dot_S64x512_S128x512_S64x128_1_1_0_0_n_n_wf
def dot_S64x128_S256x128_S64x256_1_1_0_0_n_n : DotDims S64x128 S256x128 S64x256 where
  lhsContracting := [1]
  rhsContracting := [1]
  lhsNonContracting := [0]
  rhsNonContracting := [0]
  lhsBatch := []
  rhsBatch := []
  wf := dot_S64x128_S256x128_S64x256_1_1_0_0_n_n_wf
def dot_S6144x256_S256x256_S6144x256_1_0_0_1_n_n : DotDims S6144x256 S256x256 S6144x256 where
  lhsContracting := [1]
  rhsContracting := [0]
  lhsNonContracting := [0]
  rhsNonContracting := [1]
  lhsBatch := []
  rhsBatch := []
  wf := dot_S6144x256_S256x256_S6144x256_1_0_0_1_n_n_wf

abbrev win0_0 : Pipeline.Window sig grid0 :=
  Pipeline.Window.ofSpec (Memref.whole main_arg1) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S6144x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S6144x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S6144x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S98304x256 : Shape := ⟨2, ![98304, 256]⟩
abbrev S64x1024 : Shape := ⟨2, ![64, 1024]⟩
abbrev S512x1024 : Shape := ⟨2, ![512, 1024]⟩
abbrev S98304 : Shape := ⟨1, ![98304]⟩
abbrev S128x512 : Shape := ⟨2, ![128, 512]⟩
abbrev S128 : Shape := ⟨1, ![128]⟩
abbrev S256x384 : Shape := ⟨2, ![256, 384]⟩
abbrev S256 : Shape := ⟨1, ![256]⟩
abbrev S256x256 : Shape := ⟨2, ![256, 256]⟩
abbrev S_ : Shape := ⟨0, ![]⟩
abbrev S1024x512 : Shape := ⟨2, ![1024, 512]⟩
abbrev S64x512 : Shape := ⟨2, ![64, 512]⟩
abbrev S512x128 : Shape := ⟨2, ![512, 128]⟩
abbrev S64x128 : Shape := ⟨2, ![64, 128]⟩
abbrev S1x128 : Shape := ⟨2, ![1, 128]⟩
abbrev S64x1x128 : Shape := ⟨3, ![64, 1, 128]⟩
abbrev S64x1536x128 : Shape := ⟨3, ![64, 1536, 128]⟩
abbrev S98304x128 : Shape := ⟨2, ![98304, 128]⟩
abbrev S98304x384 : Shape := ⟨2, ![98304, 384]⟩
abbrev S384x256 : Shape := ⟨2, ![384, 256]⟩
abbrev S1x256 : Shape := ⟨2, ![1, 256]⟩
abbrev S98304x1 : Shape := ⟨2, ![98304, 1]⟩

abbrev nBuf : Space → Nat
  | .hbm => 109
  | .vmem => 0
  | .smem => 0
  | _ => 0

abbrev bufTy : (tb : Table) → Fin (tcTables nBuf tb) → BufTy
  | .hbm, ⟨0, _⟩ => ⟨S98304x256, .f32⟩
  | .hbm, ⟨1, _⟩ => ⟨S64x1024, .f32⟩
  | .hbm, ⟨2, _⟩ => ⟨S512x1024, .f32⟩
  | .hbm, ⟨3, _⟩ => ⟨S98304, .i1⟩
  | .hbm, ⟨4, _⟩ => ⟨S128x512, .f32⟩
  | .hbm, ⟨5, _⟩ => ⟨S128, .f32⟩
  | .hbm, ⟨6, _⟩ => ⟨S256x384, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S_, .f32⟩
  | .hbm, ⟨13, _⟩ => ⟨S_, .f32⟩
  | .hbm, ⟨14, _⟩ => ⟨S64x1024, .f32⟩
  | .hbm, ⟨15, _⟩ => ⟨S64x1024, .f32⟩
  | .hbm, ⟨16, _⟩ => ⟨S_, .f32⟩
  | .hbm, ⟨17, _⟩ => ⟨S64x1024, .f32⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S64x1024, .f32⟩
  | .hbm, ⟨23, _⟩ => ⟨S64x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64x1024, .f32⟩
  | .hbm, ⟨28, _⟩ => ⟨S64x1024, .f32⟩
  | .hbm, ⟨29, _⟩ => ⟨S_, .f32⟩
  | .hbm, ⟨30, _⟩ => ⟨S64x1024, .f32⟩
  | .hbm, ⟨31, _⟩ => ⟨S64x1024, .f32⟩
  | .hbm, ⟨32, _⟩ => ⟨S_, .f32⟩
  | .hbm, ⟨33, _⟩ => ⟨S64x1024, .f32⟩
  | .hbm, ⟨34, _⟩ => ⟨S64x1024, .f32⟩
  | .hbm, ⟨35, _⟩ => ⟨S64x1024, .f32⟩
  | .hbm, ⟨36, _⟩ => ⟨S1024x512, .f32⟩
  | .hbm, ⟨37, _⟩ => ⟨S64x512, .f32⟩
  | .hbm, ⟨38, _⟩ => ⟨S_, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S_, .f32⟩
  | .hbm, ⟨46, _⟩ => ⟨S64x512, .f32⟩
  | .hbm, ⟨47, _⟩ => ⟨S64x512, .f32⟩
  | .hbm, ⟨48, _⟩ => ⟨S512x128, .f32⟩
  | .hbm, ⟨49, _⟩ => ⟨S64x128, .f32⟩
  | .hbm, ⟨50, _⟩ => ⟨S1x128, .f32⟩
  | .hbm, ⟨51, _⟩ => ⟨S64x128, .f32⟩
  | .hbm, ⟨52, _⟩ => ⟨S64x128, .f32⟩
  | .hbm, ⟨53, _⟩ => ⟨S64x1x128, .f32⟩
  | .hbm, ⟨54, _⟩ => ⟨S64x1536x128, .f32⟩
  | .hbm, ⟨55, _⟩ => ⟨S98304x128, .f32⟩
  | .hbm, ⟨56, _⟩ => ⟨S98304x384, .f32⟩
  | .hbm, ⟨57, _⟩ => ⟨S384x256, .f32⟩
  | .hbm, ⟨58, _⟩ => ⟨S98304x256, .f32⟩
  | .hbm, ⟨59, _⟩ => ⟨S1x256, .f32⟩
  | .hbm, ⟨60, _⟩ => ⟨S98304x256, .f32⟩
  | .hbm, ⟨61, _⟩ => ⟨S98304x256, .f32⟩
  | .hbm, ⟨62, _⟩ => ⟨S_, .f32⟩
  | .hbm, ⟨63, _⟩ => ⟨S98304, .f32⟩
  | .hbm, ⟨64, _⟩ => ⟨S98304x1, .f32⟩
  | .hbm, ⟨65, _⟩ => ⟨S_, .f32⟩
  | .hbm, ⟨66, _⟩ => ⟨S98304x1, .f32⟩
  | .hbm, ⟨67, _⟩ => ⟨S98304x1, .f32⟩
  | .hbm, ⟨68, _⟩ => ⟨S98304x256, .f32⟩
  | .hbm, ⟨69, _⟩ => ⟨S98304x256, .f32⟩
  | .hbm, ⟨70, _⟩ => ⟨S98304x256, .f32⟩
  | .hbm, ⟨71, _⟩ => ⟨S_, .f32⟩
  | .hbm, ⟨72, _⟩ => ⟨S98304, .f32⟩
  | .hbm, ⟨73, _⟩ => ⟨S98304x1, .f32⟩
  | .hbm, ⟨74, _⟩ => ⟨S_, .f32⟩
  | .hbm, ⟨75, _⟩ => ⟨S98304x1, .f32⟩
  | .hbm, ⟨76, _⟩ => ⟨S98304x1, .f32⟩
  | .hbm, ⟨77, _⟩ => ⟨S98304x256, .f32⟩
  | .hbm, ⟨78, _⟩ => ⟨S98304x256, .f32⟩
  | .hbm, ⟨79, _⟩ => ⟨S_, .f32⟩
  | .hbm, ⟨80, _⟩ => ⟨S98304x1, .f32⟩
  | .hbm, ⟨81, _⟩ => ⟨S98304x1, .f32⟩
  | .hbm, ⟨82, _⟩ => ⟨S98304x1, .f32⟩
  | .hbm, ⟨83, _⟩ => ⟨S98304x256, .f32⟩
  | .hbm, ⟨84, _⟩ => ⟨S98304x256, .f32⟩
  | .hbm, ⟨85, _⟩ => ⟨S1x256, .f32⟩
  | .hbm, ⟨86, _⟩ => ⟨S98304x256, .f32⟩
  | .hbm, ⟨87, _⟩ => ⟨S98304x256, .f32⟩
  | .hbm, ⟨88, _⟩ => ⟨S1x256, .f32⟩
  | .hbm, ⟨89, _⟩ => ⟨S98304x256, .f32⟩
  | .hbm, ⟨90, _⟩ => ⟨S98304x256, .f32⟩
  | .hbm, ⟨91, _⟩ => ⟨S_, .f32⟩
  | .hbm, ⟨92, _⟩ => ⟨S98304x256, .f32⟩
  | .hbm, ⟨93, _⟩ => ⟨S98304x256, .f32⟩
  | .hbm, ⟨94, _⟩ => ⟨S256x256, .f32⟩
  | .hbm, ⟨95, _⟩ => ⟨S98304x256, .f32⟩
  | .hbm, ⟨96, _⟩ => ⟨S1x256, .f32⟩
  | .hbm, ⟨97, _⟩ => ⟨S98304x256, .f32⟩
  | .hbm, ⟨98, _⟩ => ⟨S98304x256, .f32⟩
  | .hbm, ⟨99, _⟩ => ⟨S_, .f32⟩
  | .hbm, ⟨100, _⟩ => ⟨S_, .f32⟩
  | .hbm, ⟨101, _⟩ => ⟨S98304x256, .f32⟩
  | .hbm, ⟨102, _⟩ => ⟨S98304x256, .f32⟩
  | .hbm, ⟨103, _⟩ => ⟨S98304x256, .f32⟩
  | .hbm, ⟨104, _⟩ => ⟨S98304x256, .f32⟩
  | .hbm, ⟨105, _⟩ => ⟨S98304x256, .f32⟩
  | .hbm, ⟨106, _⟩ => ⟨S98304x1, .i1⟩
  | .hbm, ⟨107, _⟩ => ⟨S98304x256, .i1⟩
  | .hbm, ⟨108, _⟩ => ⟨S98304x256, .f32⟩
  | _, _ => ⟨S98304x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v8 : Ref sig .tc := ⟨.hbm, 31, rfl⟩
abbrev main_cst_4 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_5 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_6 : Ref sig .tc := ⟨.hbm, 42, rfl⟩
abbrev main_v17 : Ref sig .tc := ⟨.hbm, 43, rfl⟩
abbrev main_v18 : Ref sig .tc := ⟨.hbm, 44, rfl⟩
abbrev main_cst_7 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_v36 : Ref sig .tc := ⟨.hbm, 64, rfl⟩
abbrev main_cst_9 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_cst_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_12 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_call1_cst : Ref sig .tc := ⟨.hbm, 91, rfl⟩
abbrev main_call1_v0 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_call2_v0 : Ref sig .tc := ⟨.hbm, 107, rfl⟩
abbrev main_v72 : Ref sig .tc := ⟨.hbm, 108, rfl⟩

abbrev nD : Nat := 1
abbrev τ : Topo := Topo.v7x

variable {F : FTy → Type} [FloatOps F]

class Facts₀ : Prop where
  bcast_S_S64x1024 : S_.BroadcastsInDim S64x1024 (![] : Fin 0 → Fin S64x1024.rank)
  transposes_S512x1024_S1024x512_1_0 : S512x1024.Transposes [1, 0] S1024x512
  bcast_S_S64x512 : S_.BroadcastsInDim S64x512 (![] : Fin 0 → Fin S64x512.rank)
  transposes_S128x512_S512x128_1_0 : S128x512.Transposes [1, 0] S512x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S64x128_S64x1x128_0_2 : S64x128.BroadcastsInDim S64x1x128 (![0, 2] : Fin 2 → Fin S64x1x128.rank)
  bcast_S64x1x128_S64x1536x128_0_1_2 : S64x1x128.BroadcastsInDim S64x1536x128 (![0, 1, 2] : Fin 3 → Fin S64x1536x128.rank)
  shapeCasts_S64x1536x128_S98304x128 : S64x1536x128.ShapeCasts S98304x128
  concatenates_S98304x256_S98304x128_S98304x384_d1 : Shape.Concatenates [S98304x256, S98304x128] S98304x384 1
  transposes_S256x384_S384x256_1_0 : S256x384.Transposes [1, 0] S384x256
  bcast_S256_S1x256_1 : S256.BroadcastsInDim S1x256 (![1] : Fin 1 → Fin S1x256.rank)
  bcast_S1x256_S98304x256_0_1 : S1x256.BroadcastsInDim S98304x256 (![0, 1] : Fin 2 → Fin S98304x256.rank)
  reducesTo_S98304x256_S98304_d1 : S98304x256.ReducesTo [1] S98304
  h_S_ : 0 < S_.numel
  bcast_S98304_S98304x1_0 : S98304.BroadcastsInDim S98304x1 (![0] : Fin 1 → Fin S98304x1.rank)
  bcast_S_S98304x1 : S_.BroadcastsInDim S98304x1 (![] : Fin 0 → Fin S98304x1.rank)
  bcast_S98304x1_S98304x256_0_1 : S98304x1.BroadcastsInDim S98304x256 (![0, 1] : Fin 2 → Fin S98304x256.rank)
  bcast_S_S98304x256 : S_.BroadcastsInDim S98304x256 (![] : Fin 0 → Fin S98304x256.rank)
  transposes_S256x256_S256x256_1_0 : S256x256.Transposes [1, 0] S256x256
  dot_S64x1024_S1024x512_S64x512_1_0_0_1_n_n_wf : DotDims.WF S64x1024 S1024x512 S64x512 [1] [0] [0] [1] [] []
  dot_S64x512_S512x128_S64x128_1_0_0_1_n_n_wf : DotDims.WF S64x512 S512x128 S64x128 [1] [0] [0] [1] [] []
  dot_S98304x384_S384x256_S98304x256_1_0_0_1_n_n_wf : DotDims.WF S98304x384 S384x256 S98304x256 [1] [0] [0] [1] [] []
  dot_S98304x256_S256x256_S98304x256_1_0_0_1_n_n_wf : DotDims.WF S98304x256 S256x256 S98304x256 [1] [0] [0] [1] [] []

variable [Facts₀]

def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S98304x384_S384x256_S98304x256_1_0_0_1_n_n : DotDims S98304x384 S384x256 S98304x256 where
  lhsContracting := [1]
  rhsContracting := [0]
  lhsNonContracting := [0]
  rhsNonContracting := [1]
  lhsBatch := []
  rhsBatch := []
  wf := dot_S98304x384_S384x256_S98304x256_1_0_0_1_n_n_wf
def dot_S98304x256_S256x256_S98304x256_1_0_0_1_n_n : DotDims S98304x256 S256x256 S98304x256 where
  lhsContracting := [1]
  rhsContracting := [0]
  lhsNonContracting := [0]
  rhsNonContracting := [1]
  lhsBatch := []
  rhsBatch := []
  wf := dot_S98304x256_S256x256_S98304x256_1_0_0_1_n_n_wf

class Facts : Prop extends Facts₀ where

variable [Facts]
-- ==== Proof.KFrameFirst.lean ====
/-
  The kernel body as a step between memory states, at the first grid point and at every later one.

  The body begins with a branch taken only at grid point 0. There it fills three buffers that outlive
  the point: the transpose of the first 256 columns of W1, the transpose of W2, and, for each of the
  16 grid points s, rows 8s .. 8s+3 of a 128-row table with the graph share of the first layer for
  graphs 4s .. 4s+3 (rows 8s+4 .. 8s+7 are never written). After the branch every point reads its
  6144 node rows, the two transposes and the 8 table rows starting at 8·(point), and stores one
  6144 x 256 block of the result.

  Stated here, for any float instance: at point 0 the body leaves the result block and the three
  buffers overwritten by lists of stored pieces (found by running the body symbolically); at a later
  point, given what the three buffers hold, it leaves them as they were and the result block
  overwritten by its list of pieces.
-/
import proofs.«141340_g42709154792033_cont_8to1c4_21_43_alg».proof.Proof.Gen.Kernel.Frame
import proofs.«141340_g42709154792033_cont_8to1c4_21_43_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition and the memory the body is handed -/

/-- "This is grid point 0", as the body computes it from the grid coordinate. -/
abbrev isFirst (i : grid0.Coords) : Prop := (Scalar.cmpi .ne (Scalar.extui (Scalar.cmpi .eq (BitVec.ofNat 32 (i 0).val) 0#32)) 0#32) = 1#1

/-- Over the 16 grid points the computed condition holds exactly at point 0. -/
theorem isFirst_iff : ∀ t : Fin cfg0.N, isFirst (grid0.coords t) ↔ t.val = 0 :=
  (by decide +kernel : ∀ t : Fin grid0.N, isFirst (grid0.coords t) ↔ t.val = 0)

/-- The three buffers that outlive a grid point: the table and the two transposes. -/
abbrev tableM : Memref sig .tc .vmem S128x256 .f32 := Memref.whole cc0_scratch0
abbrev w1tM : Memref sig .tc .vmem S256x256 .f32 := Memref.whole cc0_scratch1
abbrev w2tM : Memref sig .tc .vmem S256x256 .f32 := Memref.whole cc0_scratch2

/-- What the launch lends the body besides the windows: the three buffers at any contents, and the generator register. -/
theorem lent_eq (c : Dev nD) :
    (Pipeline.ΦA spec0 c : sProp 𝕄)
      = iprop(iprop((∃ d, owns (c : Thread nD τ) tableM fullShare d) ∗ (∃ d, owns (c : Thread nD τ) w1tM fullShare d) ∗ (∃ d, owns (c : Thread nD τ) w2tM fullShare d)) ∗ (∃ r, prngReg c r)) := by
  unfold Pipeline.ΦA; rw [scopedRest0_eq]; simp only [tableM, w1tM, w2tM, owns_whole]; try rfl

/-! ## The body at grid point 0 -/

set_option maxHeartbeats 1000000 in
/-- At point 0: from the twelve inputs at their contents, the table at given contents `xt0` (the body reads eight
    of its rows after storing only four of them, so what it held before matters to the text of what is stored, though
    not to its value), and the result block and the two transposes at anything, the body ends with the inputs as they
    were and each of the four overwritten by a list of stored pieces. -/
noncomputable def runFirst (c : Dev nD) (i : grid0.Coords) (arg1 : Memref sig .tc .vmem S64x1024 .f32) (harg1 : arg1.IsWhole) (arg2 : Memref sig .tc .vmem S512x1024 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S256x384 .f32) (harg5 : arg5.IsWhole) (arg6 : Memref sig .tc .vmem S1x256 .f32) (harg6 : arg6.IsWhole) (arg7 : Memref sig .tc .vmem S6144x256 .f32) (harg7 : arg7.IsWhole) (arg8 : Memref sig .tc .vmem S6144x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S6144x256 .f32) (harg13 : arg13.IsWhole) (arg14 : Memref sig .tc .vmem S128x256 .f32) (harg14 : arg14.IsWhole) (arg15 : Memref sig .tc .vmem S256x256 .f32) (harg15 : arg15.IsWhole) (arg16 : Memref sig .tc .vmem S256x256 .f32) (harg16 : arg16.IsWhole) (hc0 : isFirst i)
    (x0 : Vec F S64x1024 .f32) (x1 : Vec F S512x1024 .f32) (x2 : Vec F S128x512 .f32) (x3 : Vec F S1x128 .f32) (x4 : Vec F S256x384 .f32) (x5 : Vec F S1x256 .f32) (x6 : Vec F S6144x256 .f32) (x7 : Vec F S6144x1 .f32) (x8 : Vec F S1x256 .f32) (x9 : Vec F S1x256 .f32) (x10 : Vec F S1x256 .f32) (x11 : Vec F S256x256 .f32) (xt0 : Vec F S128x256 .f32) :
    Σ' (LO : List (View.Piece (Elt F) S6144x256 .f32)) (LT : List (View.Piece (Elt F) S128x256 .f32)) (L1 : List (View.Piece (Elt F) S256x256 .f32)), { L2 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xt0 ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f LO) ∗ (∃ f, arg14.view.loc (c : Thread nD τ) ↦[arg14.view.set]{fullShare} arg14.view.writes (Elt F) f LT) ∗ (∃ f, arg15.view.loc (c : Thread nD τ) ↦[arg15.view.set]{fullShare} arg15.view.writes (Elt F) f L1) ∗ (∃ f, arg16.view.loc (c : Thread nD τ) ↦[arg16.view.set]{fullShare} arg16.view.writes (Elt F) f L2)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0__kernel_eq_skeleton]; unfold cc0__kernel_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%ds1, %fs1, -, HS1⟩, ⟨%ds2, %fs2, -, HS2⟩, Hk⟩
    obtain rfl := harg14.eq_unread hfs0
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [HS0]; · iexists _; iexact HS0
    isplitl [HS1]; · iexists _; iexact HS1
    iexists _; iexact HS2

end Cert.Kernel.Hand

end
-- ==== Proof.KFrameRest.lean ====
/-
  The word-level kernel body at a grid point other than 0. The branch (taken only when the grid coordinate
  is 0) is skipped, so nothing is stored into the table or the two transposes: the body reads them and the
  point's twelve input blocks, and stores the result block. The condition is spelt as the body computes it
  from the grid coordinate.
-/
import proofs.«141340_g42709154792033_cont_8to1c4_21_43_alg».proof.Proof.Gen.Kernel.Frame
import proofs.«141340_g42709154792033_cont_8to1c4_21_43_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a later point: from the twelve inputs and the three buffers at their contents and the result block at anything,
    the body ends with inputs and buffers as they were and the result block overwritten by a list of stored pieces. -/
noncomputable def runRest (c : Dev nD) (i : grid0.Coords) (arg1 : Memref sig .tc .vmem S64x1024 .f32) (harg1 : arg1.IsWhole) (arg2 : Memref sig .tc .vmem S512x1024 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S256x384 .f32) (harg5 : arg5.IsWhole) (arg6 : Memref sig .tc .vmem S1x256 .f32) (harg6 : arg6.IsWhole) (arg7 : Memref sig .tc .vmem S6144x256 .f32) (harg7 : arg7.IsWhole) (arg8 : Memref sig .tc .vmem S6144x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S6144x256 .f32) (harg13 : arg13.IsWhole) (arg14 : Memref sig .tc .vmem S128x256 .f32) (harg14 : arg14.IsWhole) (arg15 : Memref sig .tc .vmem S256x256 .f32) (harg15 : arg15.IsWhole) (arg16 : Memref sig .tc .vmem S256x256 .f32) (harg16 : arg16.IsWhole) (hc0 : ¬ ((Scalar.cmpi .ne (Scalar.extui (Scalar.cmpi .eq (BitVec.ofNat 32 (i 0).val) 0#32)) 0#32) = 1#1))
    (x0 : Vec F S64x1024 .f32) (x1 : Vec F S512x1024 .f32) (x2 : Vec F S128x512 .f32) (x3 : Vec F S1x128 .f32) (x4 : Vec F S256x384 .f32) (x5 : Vec F S1x256 .f32) (x6 : Vec F S6144x256 .f32) (x7 : Vec F S6144x1 .f32) (x8 : Vec F S1x256 .f32) (x9 : Vec F S1x256 .f32) (x10 : Vec F S1x256 .f32) (x11 : Vec F S256x256 .f32) (xt : Vec F S128x256 .f32) (xw1 : Vec F S256x256 .f32) (xw2 : Vec F S256x256 .f32) :
    { LO : List (View.Piece (Elt F) S6144x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xt ∗ owns (c : Thread nD τ) arg15 fullShare xw1 ∗ owns (c : Thread nD τ) arg16 fullShare xw2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f LO) ∗ owns (c : Thread nD τ) arg14 fullShare xt ∗ owns (c : Thread nD τ) arg15 fullShare xw1 ∗ owns (c : Thread nD τ) arg16 fullShare xw2) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0__kernel_eq_skeleton]; unfold cc0__kernel_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    obtain rfl := harg14.eq_unread hfs0; obtain rfl := harg15.eq_unread hfs1; obtain rfl := harg16.eq_unread hfs2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [HS0]
    · iexists _; isplitr; · ipureintro; exact harg14.read_unread _
      iexact HS0
    isplitl [HS1]
    · iexists _; isplitr; · ipureintro; exact harg15.read_unread _
      iexact HS1
    iexists _; isplitr; · ipureintro; exact harg16.read_unread _
    iexact HS2

end Cert.Kernel.Hand

end
-- ==== Proof.KFrame.lean ====
/-
  The frame of the word-level program: whatever the float instance, every weakly fair execution terminates and
  leaves the thirteen argument arrays as they were.

  What the kernel body touches. At every grid point it reads its twelve input blocks and never stores into them;
  it stores the result block; and it reads and stores three buffers of its own that outlive the point (a table
  and two transposes), filled at grid point 0 only. At a point the body reads eight rows of the table of which
  grid point 0 stored only four, so what it computes depends on contents nobody states. For the frame that does
  not matter: nothing is claimed of the result array, so its window is forgotten (the body is handed its block at
  anything and gives it back at anything), and the three buffers are held between points at anything. The input
  arrays are only ever read through their windows, so each ends as the region found it; the arrays no window
  stages bypass the region; and no host operation before the region writes an argument.
-/
import proofs.«141340_g42709154792033_cont_8to1c4_21_43_alg».proof.Proof.KFrameFirst
import proofs.«141340_g42709154792033_cont_8to1c4_21_43_alg».proof.Proof.KFrameRest

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a grid point -/

/-- Each window's current staging buffer at point `t`, spelled as the pipeline passes it to the body, and that it is a whole buffer. -/
abbrev ms0 (t : Fin cfg0.N) : Memref sig .tc .vmem S64x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x384 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S6144x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S6144x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x256 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S6144x256 .f32 := win0_12.stage (cfg0.slots t 12)
abbrev hs12 (t : Fin cfg0.N) : (ms12 t).IsWhole := hstage0_12 ((cfg0.slots t 12).cast nbuf0_12)

/-! ## The proof data -/

/-- The result window (12) is forgotten: nothing is claimed of what the body leaves there. -/
def forgets : Fin 13 → Bool := fun w => w.val == 12

/-- On core `c`: the arrays as the region finds them; after the body each input window's buffer at its block, the
    result window's unnamed; between points the three kept buffers at anything and the generator register at some
    state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]

/-- Each input window's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d

/-! ## The body obligation at a grid point -/

/-- What the body is called with at point `t`: the invariant, nothing owed, each input window's buffer at what it
    then holds, the result window's at anything, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ X, owns (c : Thread nD τ) (ms12 t) fullShare X))

/-- and what it returns: the same, each input window's buffer at its block, the result window's at anything. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ (∃ X, owns (c : Thread nD τ) (ms12 t) fullShare X))

set_option maxHeartbeats 3200000 in
/-- At point 0 the three kept buffers go to the first run (the table at whatever it holds), at a later point to the
    other run at whatever they hold; either run gives the twelve input blocks back as they were, and the result
    block and the three buffers at some contents, which is all the invariant and the forgotten window ask. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).owesAt () t.succ = (dats m 0 c).owesAt () t.castSucc from rfl,
    after0, after1, after2, after3, after4, after5, after6, after7, after8, after9, after10, after11]
  rw [show (dats m 0 c).Φ t.succ = Pipeline.ΦA spec0 c from rfl,
    show (dats m 0 c).Φ t.castSucc = Pipeline.ΦA spec0 c from rfl, lent_eq]
  by_cases h0 : t.val = 0
  · iintro ⟨⟨⟨⟨%dT, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) tableM (Memref.isWhole_whole _) w1tM (Memref.isWhole_whole _) w2tM (Memref.isWhole_whole _)
      ((isFirst_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) dT).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, ⟨%f12, H12⟩, ⟨%fT, HS0⟩, ⟨%f1, HS1⟩, ⟨%f2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; unfold owns; iexists _; isplitr
    swap; · iexact H12
    ipureintro; rfl
  · iintro ⟨⟨⟨⟨%dT, HS0⟩, ⟨%dW1, HS1⟩, ⟨%dW2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runRest c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) tableM (Memref.isWhole_whole _) w1tM (Memref.isWhole_whole _) w2tM (Memref.isWhole_whole _)
      (fun h => h0 ((isFirst_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) dT dW1 dW2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, ⟨%f12, H12⟩, HS0, HS1, HS2⟩
    isplitl [HS0 HS1 HS2 Hg]
    · isplitl [HS0 HS1 HS2]
      · isplitl [HS0]; · iexists _; iexact HS0
        isplitl [HS1]; · iexists _; iexact HS1
        iexists _; iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; unfold owns; iexists _; isplitr
    swap; · iexact H12
    ipureintro; rfl

/-- The library's body obligation, at every point, the result window forgotten. -/
theorem body_obligation (c : Dev nD) : BodyObligation (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of the program on the TensorCores terminates, and every final state has every input
    array of the pipeline as the region found it (nothing is said of the forgotten result array) and every other
    unscoped buffer as the region found it. -/
theorem run_main : θ_run defs (onTc (τ := τ) (main (F := F))) (s₀ m ρ) (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- An input window's array ends as the region found it: it is never written. -/
theorem arr_in (c : Dev nD) (w : Fin cfg0.W) (hw : (cfg0.win w).isOut = false) (r : PUnit × MemSt nD τ sig (Elt F))
    (h : Pipeline.RDat.FramePost (cfgs 0) (fun c => (dats m 0 c).toRForget forgets) (V m) r) :
    r.2.mem ((cfg0.spec w).arr.view.loc (c.tc : Thread nD τ)) = V m c (Pipeline.arrRef spec0 w) :=
  (Eq.mp (congrFun (((dats m 0 c).toRForget forgets).ArrAt_in w hw _) _) ((h c).1 w)).trans (A_eq m c w)

/-- THE FRAME, at any float instance: every weakly fair execution terminates with the thirteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(arr_in m c 6 rfl r h).trans (V_main_arg0 m c),
      (arr_in m c 0 rfl r h).trans (V_main_arg1 m c),
      (arr_in m c 1 rfl r h).trans (V_main_arg2 m c),
      ((h c).2 main_arg3 (Pipeline.mem_restRefs_of main_arg3 (by decide) (by decide))).trans (V_main_arg3 m c),
      (arr_in m c 2 rfl r h).trans (V_main_arg4 m c),
      ((h c).2 main_arg5 (Pipeline.mem_restRefs_of main_arg5 (by decide) (by decide))).trans (V_main_arg5 m c),
      (arr_in m c 4 rfl r h).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      (arr_in m c 11 rfl r h).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_main m ρ)

end Cert.Kernel.Hand

end
-- ==== Proof.KRunFirst.lean ====
/-
  The kernel body as a step between memory states, at the first grid point and at every later one.

  The body begins with a branch taken only at grid point 0. There it fills three buffers that outlive
  the point: the transpose of the first 256 columns of W1, the transpose of W2, and, for each of the
  16 grid points s, rows 8s .. 8s+3 of a 128-row table with the graph share of the first layer for
  graphs 4s .. 4s+3 (rows 8s+4 .. 8s+7 are never written). After the branch every point reads its
  6144 node rows, the two transposes and the 8 table rows starting at 8·(point), and stores one
  6144 x 256 block of the result.

  Stated here, for any float instance: at point 0 the body leaves the result block and the three
  buffers overwritten by lists of stored pieces (found by running the body symbolically); at a later
  point, given what the three buffers hold, it leaves them as they were and the result block
  overwritten by its list of pieces.
-/
import proofs.«141340_g42709154792033_cont_8to1c4_21_43_alg».proof.Proof.Gen.KernelIdeal.Frame
import proofs.«141340_g42709154792033_cont_8to1c4_21_43_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition and the memory the body is handed -/

/-- "This is grid point 0", as the body computes it from the grid coordinate. -/
abbrev isFirst (i : grid0.Coords) : Prop := (Scalar.cmpi .ne (Scalar.extui (Scalar.cmpi .eq (BitVec.ofNat 32 (i 0).val) 0#32)) 0#32) = 1#1

/-- Over the 16 grid points the computed condition holds exactly at point 0. -/
theorem isFirst_iff : ∀ t : Fin cfg0.N, isFirst (grid0.coords t) ↔ t.val = 0 :=
  (by decide +kernel : ∀ t : Fin grid0.N, isFirst (grid0.coords t) ↔ t.val = 0)

/-- The three buffers that outlive a grid point: the table and the two transposes. -/
abbrev tableM : Memref sig .tc .vmem S128x256 .f32 := Memref.whole cc0_scratch0
abbrev w1tM : Memref sig .tc .vmem S256x256 .f32 := Memref.whole cc0_scratch1
abbrev w2tM : Memref sig .tc .vmem S256x256 .f32 := Memref.whole cc0_scratch2

/-- What the launch lends the body besides the windows: the three buffers at any contents, and the generator register. -/
theorem lent_eq (c : Dev nD) :
    (Pipeline.ΦA spec0 c : sProp 𝕄)
      = iprop(iprop((∃ d, owns (c : Thread nD τ) tableM fullShare d) ∗ (∃ d, owns (c : Thread nD τ) w1tM fullShare d) ∗ (∃ d, owns (c : Thread nD τ) w2tM fullShare d)) ∗ (∃ r, prngReg c r)) := by
  unfold Pipeline.ΦA; rw [scopedRest0_eq]; simp only [tableM, w1tM, w2tM, owns_whole]; try rfl

/-! ## The body at grid point 0 -/

set_option maxHeartbeats 1000000 in
/-- At point 0: from the twelve inputs at their contents, the table at given contents `xt0` (the body reads eight
    of its rows after storing only four of them, so what it held before matters to the text of what is stored, though
    not to its value), and the result block and the two transposes at anything, the body ends with the inputs as they
    were and each of the four overwritten by a list of stored pieces. -/
noncomputable def runFirst (c : Dev nD) (i : grid0.Coords) (arg1 : Memref sig .tc .vmem S64x1024 .f32) (harg1 : arg1.IsWhole) (arg2 : Memref sig .tc .vmem S512x1024 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S256x384 .f32) (harg5 : arg5.IsWhole) (arg6 : Memref sig .tc .vmem S1x256 .f32) (harg6 : arg6.IsWhole) (arg7 : Memref sig .tc .vmem S6144x256 .f32) (harg7 : arg7.IsWhole) (arg8 : Memref sig .tc .vmem S6144x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S6144x256 .f32) (harg13 : arg13.IsWhole) (arg14 : Memref sig .tc .vmem S128x256 .f32) (harg14 : arg14.IsWhole) (arg15 : Memref sig .tc .vmem S256x256 .f32) (harg15 : arg15.IsWhole) (arg16 : Memref sig .tc .vmem S256x256 .f32) (harg16 : arg16.IsWhole) (hc0 : isFirst i)
    (x0 : Vec F S64x1024 .f32) (x1 : Vec F S512x1024 .f32) (x2 : Vec F S128x512 .f32) (x3 : Vec F S1x128 .f32) (x4 : Vec F S256x384 .f32) (x5 : Vec F S1x256 .f32) (x6 : Vec F S6144x256 .f32) (x7 : Vec F S6144x1 .f32) (x8 : Vec F S1x256 .f32) (x9 : Vec F S1x256 .f32) (x10 : Vec F S1x256 .f32) (x11 : Vec F S256x256 .f32) (xt0 : Vec F S128x256 .f32) :
    Σ' (LO : List (View.Piece (Elt F) S6144x256 .f32)) (LT : List (View.Piece (Elt F) S128x256 .f32)) (L1 : List (View.Piece (Elt F) S256x256 .f32)), { L2 : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xt0 ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f LO) ∗ (∃ f, arg14.view.loc (c : Thread nD τ) ↦[arg14.view.set]{fullShare} arg14.view.writes (Elt F) f LT) ∗ (∃ f, arg15.view.loc (c : Thread nD τ) ↦[arg15.view.set]{fullShare} arg15.view.writes (Elt F) f L1) ∗ (∃ f, arg16.view.loc (c : Thread nD τ) ↦[arg16.view.set]{fullShare} arg16.view.writes (Elt F) f L2)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0__kernel_eq_skeleton]; unfold cc0__kernel_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%ds1, %fs1, -, HS1⟩, ⟨%ds2, %fs2, -, HS2⟩, Hk⟩
    obtain rfl := harg14.eq_unread hfs0
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [HS0]; · iexists _; iexact HS0
    isplitl [HS1]; · iexists _; iexact HS1
    iexists _; iexact HS2

end Cert.KernelIdeal.Hand

end
-- ==== Proof.KRunRest.lean ====
/-
  The kernel body at a grid point other than 0: the branch is skipped, so nothing is stored into the
  table or the two transposes; the body reads them and the point's inputs and stores the result block.
-/
import proofs.«141340_g42709154792033_cont_8to1c4_21_43_alg».proof.Proof.KRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a later point: from the twelve inputs and the three buffers at their contents and the result block at anything,
    the body ends with inputs and buffers as they were and the result block overwritten by a list of stored pieces. -/
noncomputable def runRest (c : Dev nD) (i : grid0.Coords) (arg1 : Memref sig .tc .vmem S64x1024 .f32) (harg1 : arg1.IsWhole) (arg2 : Memref sig .tc .vmem S512x1024 .f32) (harg2 : arg2.IsWhole) (arg3 : Memref sig .tc .vmem S128x512 .f32) (harg3 : arg3.IsWhole) (arg4 : Memref sig .tc .vmem S1x128 .f32) (harg4 : arg4.IsWhole) (arg5 : Memref sig .tc .vmem S256x384 .f32) (harg5 : arg5.IsWhole) (arg6 : Memref sig .tc .vmem S1x256 .f32) (harg6 : arg6.IsWhole) (arg7 : Memref sig .tc .vmem S6144x256 .f32) (harg7 : arg7.IsWhole) (arg8 : Memref sig .tc .vmem S6144x1 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S6144x256 .f32) (harg13 : arg13.IsWhole) (arg14 : Memref sig .tc .vmem S128x256 .f32) (harg14 : arg14.IsWhole) (arg15 : Memref sig .tc .vmem S256x256 .f32) (harg15 : arg15.IsWhole) (arg16 : Memref sig .tc .vmem S256x256 .f32) (harg16 : arg16.IsWhole) (hc0 : ¬isFirst i)
    (x0 : Vec F S64x1024 .f32) (x1 : Vec F S512x1024 .f32) (x2 : Vec F S128x512 .f32) (x3 : Vec F S1x128 .f32) (x4 : Vec F S256x384 .f32) (x5 : Vec F S1x256 .f32) (x6 : Vec F S6144x256 .f32) (x7 : Vec F S6144x1 .f32) (x8 : Vec F S1x256 .f32) (x9 : Vec F S1x256 .f32) (x10 : Vec F S1x256 .f32) (x11 : Vec F S256x256 .f32) (xt : Vec F S128x256 .f32) (xw1 : Vec F S256x256 .f32) (xw2 : Vec F S256x256 .f32) :
    { LO : List (View.Piece (Elt F) S6144x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xt ∗ owns (c : Thread nD τ) arg15 fullShare xw1 ∗ owns (c : Thread nD τ) arg16 fullShare xw2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f LO) ∗ owns (c : Thread nD τ) arg14 fullShare xt ∗ owns (c : Thread nD τ) arg15 fullShare xw1 ∗ owns (c : Thread nD τ) arg16 fullShare xw2) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0__kernel_eq_skeleton]; unfold cc0__kernel_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    obtain rfl := harg14.eq_unread hfs0; obtain rfl := harg15.eq_unread hfs1; obtain rfl := harg16.eq_unread hfs2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [HS0]
    · iexists _; isplitr; · ipureintro; exact harg14.read_unread _
      iexact HS0
    isplitl [HS1]
    · iexists _; isplitr; · ipureintro; exact harg15.read_unread _
      iexact HS1
    iexists _; isplitr; · ipureintro; exact harg16.read_unread _
    iexact HS2

end Cert.KernelIdeal.Hand

end
-- ==== Proof.Spec.lean ====
/-
  The function both programs compute, written index by index over the extended reals.

  Every graph b (64 of them) gets a syndrome feature vector: from the bit probabilities p, the
  log-likelihood ratio log((p + t) / ((1 - p) + t)) clipped to [-10, 10], its half-angle tanh, the
  parity sums against H, a second half-angle tanh turned into a probability, and an affine map by Wp, bp.
  Every node row r (98304 of them, 1536 per graph, so row r belongs to graph r / 1536) is then sent
  through one affine layer on the concatenation [x_r, feature(graph r)], a layer normalisation over its
  256 entries, a ramp, a second affine layer, and is finally mixed with x_r by the weight s on the rows
  the mask selects.

  Two spellings of the row part are given. The first adds the graph's share of the first layer
  (the last 128 columns of W1 applied to the feature, plus b1) to the node's share (the first 256
  columns applied to x_r), multiplies by the reciprocal square root of the variance, and mixes as
  x + (mask * s) * (e - x). The second contracts all 384 columns at once, divides by the square root, and
  mixes as (1 - s) * x + s * e on selected rows. That the two agree is Bridge.lean.
-/
import Idealize.ShloMosaic.PureOps.Ideal
import Idealize.ShloMosaic.Lib.ValueIdx

noncomputable section

open scoped BigOperators

namespace Cert.Syndrome

open Idealize.ShloMosaic Idealize.ShloMosaic.ValueIdx

abbrev Arr1 (a : Nat) : Type := (⟨1, ![a]⟩ : Shape).Idx → EReal
abbrev Arr2 (a b : Nat) : Type := (⟨2, ![a, b]⟩ : Shape).Idx → EReal

/-- The single-precision number nearest 1e-8. -/
abbrev tiny : EReal := Ideal.ofBits .f32 0x322BCC77#32
abbrev one : EReal := Ideal.ofBits .f32 0x3F800000#32
/-- -10 and 10, the clipping bounds. -/
abbrev lo : EReal := Ideal.ofBits .f32 0xC1200000#32
abbrev hi : EReal := Ideal.ofBits .f32 0x41200000#32
abbrev half : EReal := Ideal.ofBits .f32 0x3F000000#32
abbrev c256 : EReal := Ideal.ofBits .f32 0x43800000#32
/-- The single-precision number nearest 1e-5, added to the variance. -/
abbrev eps : EReal := Ideal.ofBits .f32 0x3727C5AC#32
abbrev zero : EReal := Ideal.ofBits .f32 0x00000000#32

/-- The graph a node row belongs to: 1536 consecutive rows per graph. -/
def graphOf (r : Fin 98304) : Fin 64 := ⟨r.val / 1536, by have := r.isLt; omega⟩

/-- A mask bit as the number 0 or 1. -/
def bit (b : BitVec 1) : EReal := ((b.toNat : ℝ) : EReal)

/-! ## The per-graph syndrome feature (the same text in both programs) -/

section feature
variable (p : Arr2 64 1024) (H : Arr2 512 1024) (Wp : Arr2 128 512) (bp : Arr1 128)

/-- tanh of half the clipped log-likelihood ratio of bit n of graph b. -/
def th (b : Fin 64) (n : Fin 1024) : EReal :=
  Ideal.tanh (half * min hi (max lo (Ideal.log (Ideal.div (p (ix2 b n) + tiny) ((one - p (ix2 b n)) + tiny)))))

/-- The soft probability that check c of graph b is violated. -/
def prob (b : Fin 64) (c : Fin 512) : EReal :=
  half * (one - Ideal.tanh (half * ∑ n : Fin 1024, th p b n * H (ix2 c n)))

/-- Entry k of graph b's syndrome feature. -/
def feat (b : Fin 64) (k : Fin 128) : EReal :=
  (∑ c : Fin 512, prob p H b c * Wp (ix2 k c)) + bp (ix1 k)

end feature

/-! ## Layer normalisation, ramp and second layer of one row

  `S` is the way a row of 256 numbers is summed and `nrm d v` the way a deviation `d` is scaled by the
  shifted variance `v`; the two programs differ in both. -/

section row
variable (S : (Fin 256 → EReal) → EReal) (nrm : EReal → EReal → EReal)
variable (gamma beta b2 : Arr1 256) (W2 : Arr2 256 256)

def mean (h : Fin 256 → EReal) : EReal := Ideal.div (S h) c256
def dev (h : Fin 256 → EReal) (k : Fin 256) : EReal := h k - mean S h
def var (h : Fin 256 → EReal) : EReal := Ideal.div (S fun k => dev S h k * dev S h k) c256
def act (h : Fin 256 → EReal) (k : Fin 256) : EReal :=
  max (nrm (dev S h k) (var S h + eps) * gamma (ix1 k) + beta (ix1 k)) zero
def enh (h : Fin 256 → EReal) (j : Fin 256) : EReal :=
  (∑ k : Fin 256, act S nrm gamma beta h k * W2 (ix2 j k)) + b2 (ix1 j)

end row

/-! ## The two spellings of the whole function -/

section whole
variable (x : Arr2 98304 256) (p : Arr2 64 1024) (H : Arr2 512 1024) (mask : (⟨1, ![98304]⟩ : Shape).Idx → BitVec 1)
variable (Wp : Arr2 128 512) (bp : Arr1 128) (W1 : Arr2 256 384) (b1 gamma beta : Arr1 256)
variable (W2 : Arr2 256 256) (b2 : Arr1 256) (s : EReal)

/-- The graph's share of the first layer: the last 128 columns of W1 on the feature, plus b1. -/
def synK (b : Fin 64) (j : Fin 256) : EReal :=
  (∑ k : Fin 128, feat p H Wp bp b k * W1 (ix2 j (⟨256 + k.val, by have := k.isLt; omega⟩ : Fin 384))) + b1 (ix1 j)

/-- First spelling of the pre-activation: node share plus graph share. -/
def hK (r : Fin 98304) (j : Fin 256) : EReal :=
  (∑ k : Fin 256, x (ix2 r k) * W1 (ix2 j (⟨k.val, by have := k.isLt; omega⟩ : Fin 384))) + synK p H Wp bp W1 b1 (graphOf r) j

def sumK (f : Fin 256 → EReal) : EReal := ∑ k : Fin 256, f k
def nrmK (d v : EReal) : EReal := d * Ideal.rsqrt v

def outK (r : Fin 98304) (j : Fin 256) : EReal :=
  x (ix2 r j) + (bit (mask (ix1 r)) * s)
    * (enh sumK nrmK gamma beta b2 W2 (hK x p H Wp bp W1 b1 r) j - x (ix2 r j))

/-- Entry k of the concatenated row [x_r, feature(graph r)]. -/
def fused (r : Fin 98304) (k : Fin 384) : EReal :=
  if h : k.val < 256 then x (ix2 r (⟨k.val, h⟩ : Fin 256))
  else feat p H Wp bp (graphOf r) (⟨k.val - 256, by have := k.isLt; omega⟩ : Fin 128)

/-- Second spelling of the pre-activation: all 384 columns at once. -/
def hR (r : Fin 98304) (j : Fin 256) : EReal :=
  (∑ k : Fin 384, fused x p H Wp bp r k * W1 (ix2 j k)) + b1 (ix1 j)

def sumR (f : Fin 256 → EReal) : EReal := zero + ∑ k : Fin 256, f k
def nrmR (d v : EReal) : EReal := Ideal.div d (Ideal.sqrt v)

def outR (r : Fin 98304) (j : Fin 256) : EReal :=
  if mask (ix1 r) = 1#1 then
    (one - s) * x (ix2 r j) + s * enh sumR nrmR gamma beta b2 W2 (hR x p H Wp bp W1 b1 r) j
  else x (ix2 r j)

/-- The whole result array, first spelling. -/
def GK : Arr2 98304 256 := fun i => outK x p H mask Wp bp W1 b1 gamma beta W2 b2 s (i 0) (i 1)
/-- The whole result array, second spelling. -/
def GR : Arr2 98304 256 := fun i => outR x p H mask Wp bp W1 b1 gamma beta W2 b2 s (i 0) (i 1)

end whole

end Cert.Syndrome

end
-- ==== Proof.HostSide.lean ====
/-
  What the region finds in its windows.

  The program runs nine host operations before its one region: the mask is turned into numbers, laid out as a
  column and scaled by the weight, and five vectors are laid out as one-row matrices. The region then stages
  thirteen windows over a grid of sixteen points. Ten of them are whole arrays (their index map is constantly 0),
  so the block at every point is the array itself. Three are cut by rows, 6144 rows to a block: at point t the
  block is rows 6144 t ... 6144 t + 6143, so entry (q, k) of the block is entry (6144 t + q, k) of the array.
  The result window is one of the three: its sixteen blocks tile the 98304 rows, row r lying in block r / 6144.
-/
import proofs.«141340_g42709154792033_cont_8to1c4_21_43_alg».proof.Proof.Gen.KernelIdeal.Frame
import proofs.«141340_g42709154792033_cont_8to1c4_21_43_alg».proof.Proof.Spec
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.Syndrome.Host

open Cert.KernelIdeal Cert.KernelIdeal.Gen Idealize.ShloMosaic Idealize.ShloMosaic.ValueIdx
open Idealize.ShloMosaic.TcCoe Idealize.SL.Sem Idealize.ShloMosaic.StableHlo

variable (m : (ℓ : Loc nD τ sig) → Buf (Elt Ideal) ℓ) (c : Dev nD)

/-! ## The host stages, read at an index

Before the region the program turns the mask into numbers and scales it by the weight (one column, a row per node),
and lays each of the five vectors out as a one-row matrix. -/

/-- Row r of the scaled mask column: the mask bit of node r, as 0 or 1, times the scalar weight. -/
theorem v3_apply (r : Fin 98304) :
    (V m c main_v3 : S98304x1.Idx → EReal) (ix2 r 0)
      = Cert.Syndrome.bit ((m ((c.tc : Thread nD τ).loc main_arg3) : S98304.Idx → BitVec 1) (ix1 r))
        * (m ((c.tc : Thread nD τ).loc main_arg12) : S_.Idx → EReal) ix0 := by
  have e : (V m c main_v3 : S98304x1.Idx → EReal)
      = mulf (F := Ideal)
          (shapeCast S98304x1 (uitofp (F := Ideal) .f32 (m ((c.tc : Thread nD τ).loc main_arg3) : IVec S98304 1))
            shapeCasts_S98304_S98304x1)
          (broadcastInDim S98304x1 ![] bcast_S_S98304x1 (m ((c.tc : Thread nD τ).loc main_arg12) : FVec Ideal S_ .f32)) := by
    dsimp only [Gen.V, Gen.hostOps0]; after_results; rfl
  rw [e, mulf_apply,
    shapeCast_apply _ _ (ix2 r 0) (ix1 r)
      (by rw [Shape.rowMajor_val_one, Shape.rowMajor_val_two]; show r.val = r.val * 1 + 0; omega),
    broadcastInDim_apply _ _ _ (ix2 r 0) ix0 (fun a => a.elim0)]
  rfl

/-- Entry k of the one-row matrix laid out from the feature bias is entry k of that vector. -/
theorem v4_apply (k : Fin 128) :
    (V m c main_v4 : S1x128.Idx → EReal) (ix2 0 k) = (m ((c.tc : Thread nD τ).loc main_arg5) : S128.Idx → EReal) (ix1 k) := by
  have e : (V m c main_v4 : S1x128.Idx → EReal)
      = shapeCast S1x128 (m ((c.tc : Thread nD τ).loc main_arg5) : FVec Ideal S128 .f32) shapeCasts_S128_S1x128 := by
    dsimp only [Gen.V, Gen.hostOps0]; after_results; rfl
  rw [e, shapeCast_apply _ _ (ix2 0 k) (ix1 k)
    (by rw [Shape.rowMajor_val_one, Shape.rowMajor_val_two]; show k.val = 0 * 128 + k.val; omega)]

/-- Entry k of the one-row matrix laid out from the first layer's bias is entry k of that vector. -/
theorem v5_apply (k : Fin 256) :
    (V m c main_v5 : S1x256.Idx → EReal) (ix2 0 k) = (m ((c.tc : Thread nD τ).loc main_arg7) : S256.Idx → EReal) (ix1 k) := by
  have e : (V m c main_v5 : S1x256.Idx → EReal)
      = shapeCast S1x256 (m ((c.tc : Thread nD τ).loc main_arg7) : FVec Ideal S256 .f32) shapeCasts_S256_S1x256 := by
    dsimp only [Gen.V, Gen.hostOps0]; after_results; rfl
  rw [e, shapeCast_apply _ _ (ix2 0 k) (ix1 k)
    (by rw [Shape.rowMajor_val_one, Shape.rowMajor_val_two]; show k.val = 0 * 256 + k.val; omega)]

/-- Entry k of the one-row matrix laid out from the normalisation's scale is entry k of that vector. -/
theorem v6_apply (k : Fin 256) :
    (V m c main_v6 : S1x256.Idx → EReal) (ix2 0 k) = (m ((c.tc : Thread nD τ).loc main_arg8) : S256.Idx → EReal) (ix1 k) := by
  have e : (V m c main_v6 : S1x256.Idx → EReal)
      = shapeCast S1x256 (m ((c.tc : Thread nD τ).loc main_arg8) : FVec Ideal S256 .f32) shapeCasts_S256_S1x256 := by
    dsimp only [Gen.V, Gen.hostOps0]; after_results; rfl
  rw [e, shapeCast_apply _ _ (ix2 0 k) (ix1 k)
    (by rw [Shape.rowMajor_val_one, Shape.rowMajor_val_two]; show k.val = 0 * 256 + k.val; omega)]

/-- Entry k of the one-row matrix laid out from the normalisation's shift is entry k of that vector. -/
theorem v7_apply (k : Fin 256) :
    (V m c main_v7 : S1x256.Idx → EReal) (ix2 0 k) = (m ((c.tc : Thread nD τ).loc main_arg9) : S256.Idx → EReal) (ix1 k) := by
  have e : (V m c main_v7 : S1x256.Idx → EReal)
      = shapeCast S1x256 (m ((c.tc : Thread nD τ).loc main_arg9) : FVec Ideal S256 .f32) shapeCasts_S256_S1x256 := by
    dsimp only [Gen.V, Gen.hostOps0]; after_results; rfl
  rw [e, shapeCast_apply _ _ (ix2 0 k) (ix1 k)
    (by rw [Shape.rowMajor_val_one, Shape.rowMajor_val_two]; show k.val = 0 * 256 + k.val; omega)]

/-- Entry k of the one-row matrix laid out from the second layer's bias is entry k of that vector. -/
theorem v8_apply (k : Fin 256) :
    (V m c main_v8 : S1x256.Idx → EReal) (ix2 0 k) = (m ((c.tc : Thread nD τ).loc main_arg11) : S256.Idx → EReal) (ix1 k) := by
  have e : (V m c main_v8 : S1x256.Idx → EReal)
      = shapeCast S1x256 (m ((c.tc : Thread nD τ).loc main_arg11) : FVec Ideal S256 .f32) shapeCasts_S256_S1x256 := by
    dsimp only [Gen.V, Gen.hostOps0]; after_results; rfl
  rw [e, shapeCast_apply _ _ (ix2 0 k) (ix1 k)
    (by rw [Shape.rowMajor_val_one, Shape.rowMajor_val_two]; show k.val = 0 * 256 + k.val; omega)]

/-! ## The windows' blocks, read at an index -/

/-- The printed index maps, decided once over the sixteen grid points: the three row-blocked windows sit at block
    row t, every other window at block (0, 0). -/
theorem idx_facts : ∀ t : Fin cfg0.N,
    (win0_0.index t (0 : Fin 2) = 0 ∧ win0_0.index t (1 : Fin 2) = 0) ∧
    (win0_1.index t (0 : Fin 2) = 0 ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) ∧
    (win0_8.index t (0 : Fin 2) = 0 ∧ win0_8.index t (1 : Fin 2) = 0) ∧
    (win0_9.index t (0 : Fin 2) = 0 ∧ win0_9.index t (1 : Fin 2) = 0) ∧
    (win0_10.index t (0 : Fin 2) = 0 ∧ win0_10.index t (1 : Fin 2) = 0) ∧
    (win0_11.index t (0 : Fin 2) = 0 ∧ win0_11.index t (1 : Fin 2) = 0) ∧
    (win0_6.index t (0 : Fin 2) = t.val ∧ win0_6.index t (1 : Fin 2) = 0) ∧
    (win0_7.index t (0 : Fin 2) = t.val ∧ win0_7.index t (1 : Fin 2) = 0) ∧
    (win0_12.index t (0 : Fin 2) = t.val ∧ win0_12.index t (1 : Fin 2) = 0) :=
  (by decide +kernel : ∀ t : Fin grid0.N, _)

/-- A grid point is one of sixteen. -/
theorem t_lt (t : Fin cfg0.N) : t.val < 16 := lt_of_lt_of_eq t.isLt N_0

/-- Row q of block t is a row of the array. -/
theorem row_lt (t : Fin cfg0.N) (q : Fin 6144) : 6144 * t.val + q.val < 98304 := by
  have := t_lt t; have := q.isLt; omega

/-- Row q of block t, as a row of the array: row 6144 t + q. -/
abbrev row (t : Fin cfg0.N) (q : Fin 6144) : Fin 98304 := ⟨6144 * t.val + q.val, row_lt t q⟩

/-- Window 0 (the bit probabilities) holds its whole array at every point. -/
theorem iblk0_eq (t : Fin cfg0.N) :
    (iblk m c 0 t : S64x1024.Idx → EReal) = (m ((c.tc : Thread nD τ).loc main_arg1) : S64x1024.Idx → EReal) := by
  obtain ⟨hw, -, -, -, -, -, -, -, -, -, -, -, -⟩ := idx_facts t
  funext y
  unfold iblk
  rw [View.read_apply]
  show V m c main_arg1 _ = _
  rw [V_main_arg1]
  refine congrArg (m ((c.tc : Thread nD τ).loc main_arg1)) ?_
  funext a
  apply Fin.ext
  match a with
  | ⟨0, _⟩ => show win0_0.index t (0 : Fin 2) * 64 + 1 * (y 0).val = (y 0).val; rw [hw.1]; omega
  | ⟨1, _⟩ => show win0_0.index t (1 : Fin 2) * 1024 + 1 * (y 1).val = (y 1).val; rw [hw.2]; omega

/-- Window 1 (the parity matrix) holds its whole array at every point. -/
theorem iblk1_eq (t : Fin cfg0.N) :
    (iblk m c 1 t : S512x1024.Idx → EReal) = (m ((c.tc : Thread nD τ).loc main_arg2) : S512x1024.Idx → EReal) := by
  obtain ⟨-, hw, -, -, -, -, -, -, -, -, -, -, -⟩ := idx_facts t
  funext y
  unfold iblk
  rw [View.read_apply]
  show V m c main_arg2 _ = _
  rw [V_main_arg2]
  refine congrArg (m ((c.tc : Thread nD τ).loc main_arg2)) ?_
  funext a
  apply Fin.ext
  match a with
  | ⟨0, _⟩ => show win0_1.index t (0 : Fin 2) * 512 + 1 * (y 0).val = (y 0).val; rw [hw.1]; omega
  | ⟨1, _⟩ => show win0_1.index t (1 : Fin 2) * 1024 + 1 * (y 1).val = (y 1).val; rw [hw.2]; omega

/-- Window 2 (the feature map's matrix) holds its whole array at every point. -/
theorem iblk2_eq (t : Fin cfg0.N) :
    (iblk m c 2 t : S128x512.Idx → EReal) = (m ((c.tc : Thread nD τ).loc main_arg4) : S128x512.Idx → EReal) := by
  obtain ⟨-, -, hw, -, -, -, -, -, -, -, -, -, -⟩ := idx_facts t
  funext y
  unfold iblk
  rw [View.read_apply]
  show V m c main_arg4 _ = _
  rw [V_main_arg4]
  refine congrArg (m ((c.tc : Thread nD τ).loc main_arg4)) ?_
  funext a
  apply Fin.ext
  match a with
  | ⟨0, _⟩ => show win0_2.index t (0 : Fin 2) * 128 + 1 * (y 0).val = (y 0).val; rw [hw.1]; omega
  | ⟨1, _⟩ => show win0_2.index t (1 : Fin 2) * 512 + 1 * (y 1).val = (y 1).val; rw [hw.2]; omega

/-- Window 3 (the feature bias as a one-row matrix) holds its whole array at every point. -/
theorem iblk3_eq (t : Fin cfg0.N) :
    (iblk m c 3 t : S1x128.Idx → EReal) = (V m c main_v4 : S1x128.Idx → EReal) := by
  obtain ⟨-, -, -, hw, -, -, -, -, -, -, -, -, -⟩ := idx_facts t
  funext y
  unfold iblk
  rw [View.read_apply]
  show V m c main_v4 _ = _
  refine congrArg (V m c main_v4) ?_
  funext a
  apply Fin.ext
  match a with
  | ⟨0, _⟩ => show win0_3.index t (0 : Fin 2) * 1 + 1 * (y 0).val = (y 0).val; rw [hw.1]; omega
  | ⟨1, _⟩ => show win0_3.index t (1 : Fin 2) * 128 + 1 * (y 1).val = (y 1).val; rw [hw.2]; omega

/-- Window 4 (the first layer's matrix) holds its whole array at every point. -/
theorem iblk4_eq (t : Fin cfg0.N) :
    (iblk m c 4 t : S256x384.Idx → EReal) = (m ((c.tc : Thread nD τ).loc main_arg6) : S256x384.Idx → EReal) := by
  obtain ⟨-, -, -, -, hw, -, -, -, -, -, -, -, -⟩ := idx_facts t
  funext y
  unfold iblk
  rw [View.read_apply]
  show V m c main_arg6 _ = _
  rw [V_main_arg6]
  refine congrArg (m ((c.tc : Thread nD τ).loc main_arg6)) ?_
  funext a
  apply Fin.ext
  match a with
  | ⟨0, _⟩ => show win0_4.index t (0 : Fin 2) * 256 + 1 * (y 0).val = (y 0).val; rw [hw.1]; omega
  | ⟨1, _⟩ => show win0_4.index t (1 : Fin 2) * 384 + 1 * (y 1).val = (y 1).val; rw [hw.2]; omega

/-- Window 5 (the first layer's bias as a one-row matrix) holds its whole array at every point. -/
theorem iblk5_eq (t : Fin cfg0.N) :
    (iblk m c 5 t : S1x256.Idx → EReal) = (V m c main_v5 : S1x256.Idx → EReal) := by
  obtain ⟨-, -, -, -, -, hw, -, -, -, -, -, -, -⟩ := idx_facts t
  funext y
  unfold iblk
  rw [View.read_apply]
  show V m c main_v5 _ = _
  refine congrArg (V m c main_v5) ?_
  funext a
  apply Fin.ext
  match a with
  | ⟨0, _⟩ => show win0_5.index t (0 : Fin 2) * 1 + 1 * (y 0).val = (y 0).val; rw [hw.1]; omega
  | ⟨1, _⟩ => show win0_5.index t (1 : Fin 2) * 256 + 1 * (y 1).val = (y 1).val; rw [hw.2]; omega

/-- Window 8 (the normalisation's scale as a one-row matrix) holds its whole array at every point. -/
theorem iblk8_eq (t : Fin cfg0.N) :
    (iblk m c 8 t : S1x256.Idx → EReal) = (V m c main_v6 : S1x256.Idx → EReal) := by
  obtain ⟨-, -, -, -, -, -, hw, -, -, -, -, -, -⟩ := idx_facts t
  funext y
  unfold iblk
  rw [View.read_apply]
  show V m c main_v6 _ = _
  refine congrArg (V m c main_v6) ?_
  funext a
  apply Fin.ext
  match a with
  | ⟨0, _⟩ => show win0_8.index t (0 : Fin 2) * 1 + 1 * (y 0).val = (y 0).val; rw [hw.1]; omega
  | ⟨1, _⟩ => show win0_8.index t (1 : Fin 2) * 256 + 1 * (y 1).val = (y 1).val; rw [hw.2]; omega

/-- Window 9 (the normalisation's shift as a one-row matrix) holds its whole array at every point. -/
theorem iblk9_eq (t : Fin cfg0.N) :
    (iblk m c 9 t : S1x256.Idx → EReal) = (V m c main_v7 : S1x256.Idx → EReal) := by
  obtain ⟨-, -, -, -, -, -, -, hw, -, -, -, -, -⟩ := idx_facts t
  funext y
  unfold iblk
  rw [View.read_apply]
  show V m c main_v7 _ = _
  refine congrArg (V m c main_v7) ?_
  funext a
  apply Fin.ext
  match a with
  | ⟨0, _⟩ => show win0_9.index t (0 : Fin 2) * 1 + 1 * (y 0).val = (y 0).val; rw [hw.1]; omega
  | ⟨1, _⟩ => show win0_9.index t (1 : Fin 2) * 256 + 1 * (y 1).val = (y 1).val; rw [hw.2]; omega

/-- Window 10 (the second layer's bias as a one-row matrix) holds its whole array at every point. -/
theorem iblk10_eq (t : Fin cfg0.N) :
    (iblk m c 10 t : S1x256.Idx → EReal) = (V m c main_v8 : S1x256.Idx → EReal) := by
  obtain ⟨-, -, -, -, -, -, -, -, hw, -, -, -, -⟩ := idx_facts t
  funext y
  unfold iblk
  rw [View.read_apply]
  show V m c main_v8 _ = _
  refine congrArg (V m c main_v8) ?_
  funext a
  apply Fin.ext
  match a with
  | ⟨0, _⟩ => show win0_10.index t (0 : Fin 2) * 1 + 1 * (y 0).val = (y 0).val; rw [hw.1]; omega
  | ⟨1, _⟩ => show win0_10.index t (1 : Fin 2) * 256 + 1 * (y 1).val = (y 1).val; rw [hw.2]; omega

/-- Window 11 (the second layer's matrix) holds its whole array at every point. -/
theorem iblk11_eq (t : Fin cfg0.N) :
    (iblk m c 11 t : S256x256.Idx → EReal) = (m ((c.tc : Thread nD τ).loc main_arg10) : S256x256.Idx → EReal) := by
  obtain ⟨-, -, -, -, -, -, -, -, -, hw, -, -, -⟩ := idx_facts t
  funext y
  unfold iblk
  rw [View.read_apply]
  show V m c main_arg10 _ = _
  rw [V_main_arg10]
  refine congrArg (m ((c.tc : Thread nD τ).loc main_arg10)) ?_
  funext a
  apply Fin.ext
  match a with
  | ⟨0, _⟩ => show win0_11.index t (0 : Fin 2) * 256 + 1 * (y 0).val = (y 0).val; rw [hw.1]; omega
  | ⟨1, _⟩ => show win0_11.index t (1 : Fin 2) * 256 + 1 * (y 1).val = (y 1).val; rw [hw.2]; omega

/-- Window 6 at point t holds rows 6144 t ... 6144 t + 6143 of the node features. -/
theorem iblk6_apply (t : Fin cfg0.N) (q : Fin 6144) (k : Fin 256) :
    (iblk m c 6 t : S6144x256.Idx → EReal) (ix2 q k)
      = (m ((c.tc : Thread nD τ).loc main_arg0) : S98304x256.Idx → EReal) (ix2 (row t q) k) := by
  obtain ⟨-, -, -, -, -, -, -, -, -, -, hw, -, -⟩ := idx_facts t
  unfold iblk
  rw [View.read_apply]
  show V m c main_arg0 _ = _
  rw [V_main_arg0]
  refine congrArg (m ((c.tc : Thread nD τ).loc main_arg0)) ?_
  funext a
  apply Fin.ext
  match a with
  | ⟨0, _⟩ => show win0_6.index t (0 : Fin 2) * 6144 + 1 * q.val = 6144 * t.val + q.val; rw [hw.1]; omega
  | ⟨1, _⟩ => show win0_6.index t (1 : Fin 2) * 256 + 1 * k.val = k.val; rw [hw.2]; omega

/-- Window 7 at point t holds rows 6144 t ... 6144 t + 6143 of the scaled mask column. -/
theorem iblk7_apply (t : Fin cfg0.N) (q : Fin 6144) :
    (iblk m c 7 t : S6144x1.Idx → EReal) (ix2 q 0) = (V m c main_v3 : S98304x1.Idx → EReal) (ix2 (row t q) 0) := by
  obtain ⟨-, -, -, -, -, -, -, -, -, -, -, hw, -⟩ := idx_facts t
  unfold iblk
  rw [View.read_apply]
  show V m c main_v3 _ = _
  refine congrArg (V m c main_v3) ?_
  funext a
  apply Fin.ext
  match a with
  | ⟨0, _⟩ => show win0_7.index t (0 : Fin 2) * 6144 + 1 * q.val = 6144 * t.val + q.val; rw [hw.1]; omega
  | ⟨1, _⟩ => show win0_7.index t (1 : Fin 2) * 1 + 1 * (0 : Fin 1).val = (0 : Fin 1).val; rw [hw.2]; simp

/-! ## The result window: its sixteen row blocks tile the array -/

/-- An index of the result array is in point t's block exactly when each coordinate is in the block's range on
    its axis. -/
theorem mem_blk12 (t : Fin cfg0.N) (i : S98304x256.Idx) :
    i ∈ ((cfg0.win 12).blk t).view.set ↔ ∀ a : Fin 2, win0_12.index t a * S6144x256.size a ≤ (i a).val
      ∧ (i a).val < win0_12.index t a * S6144x256.size a + S6144x256.size a := by
  show i ∈ ((View.whole main_v9).slice (win0_12.rect t)).set ↔ _
  rw [View.set_slice_whole, Rect.mem_set_unit]
  exact Iff.rfl

/-- In coordinates: rows 6144 t ... 6144 t + 6143, every column. -/
theorem mem_blk12_iff (t : Fin cfg0.N) (i : S98304x256.Idx) :
    i ∈ ((cfg0.win 12).blk t).view.set ↔ 6144 * t.val ≤ (i 0).val ∧ (i 0).val < 6144 * t.val + 6144 := by
  obtain ⟨-, -, -, -, -, -, -, -, -, -, -, -, hw⟩ := idx_facts t
  have hi1 : (i 1).val < 256 := (i 1).isLt
  rw [mem_blk12]
  constructor
  · intro h
    have b0 : win0_12.index t (0 : Fin 2) * 6144 ≤ (i 0).val
        ∧ (i 0).val < win0_12.index t (0 : Fin 2) * 6144 + 6144 := h 0
    rw [hw.1] at b0
    omega
  · intro h a
    match a with
    | ⟨0, _⟩ =>
      show win0_12.index t (0 : Fin 2) * 6144 ≤ (i 0).val ∧ (i 0).val < win0_12.index t (0 : Fin 2) * 6144 + 6144
      rw [hw.1]; omega
    | ⟨1, _⟩ =>
      show win0_12.index t (1 : Fin 2) * 256 ≤ (i 1).val ∧ (i 1).val < win0_12.index t (1 : Fin 2) * 256 + 256
      rw [hw.2]; omega

/-- Every index of the result array lies in the block of some point that writes back: row r in block r / 6144. -/
theorem cover12 (i : S98304x256.Idx) :
    ∃ t : Fin cfg0.N, (cfg0.win 12).flush t = true ∧ i ∈ ((cfg0.win 12).blk t).view.set := by
  have hi0 : (i 0).val < 98304 := (i 0).isLt
  have hN : cfg0.N = 16 := N_0
  obtain ⟨t, ht⟩ : ∃ t : Fin cfg0.N, t.val = (i 0).val / 6144 := ⟨⟨(i 0).val / 6144, by rw [hN]; omega⟩, rfl⟩
  refine ⟨t, flush0_12 t, ?_⟩
  rw [mem_blk12_iff, ht]
  omega

/-- The whole result array from its sixteen row blocks: for any proof data whose write-back at every point is that
    point's block of one function G of the array's index, the array ends holding G. -/
theorem final_of (dat : Pipeline.Dat τ (Elt Ideal) Unit ℕ (UR sig nD τ) ℕ cfg0 c) (G : S98304x256.Idx → EReal)
    (hG : ∀ t : Fin cfg0.N, dat.flushed 12 t = ((cfg0.win 12).blk t).view.read (Elt Ideal) G) :
    dat.arrAt 12 cfg0.N = G :=
  dat.arrAt_eq_of_cover 12 G (fun t _ => hG t) cover12

end Cert.Syndrome.Host

end
-- ==== Proof.KTargets.lean ====
/-
  What the kernel's memory should hold, in the specification's terms.

  From a memory `m` and a core `c`: the thirteen argument arrays as the specification's inputs, the whole
  result array (the first spelling of the specification applied to them), the two transposes the body keeps
  (entry (k, j) of each is entry (j, k) of the first 256 columns of W1, resp. of W2), what is required of the
  table (row 8s + a, for a < 4, is the graph share of the first layer for graph 4s + a; the other rows are free),
  and the result block of a grid point (rows 6144·t … 6144·t + 6143 of the result array).
-/
import proofs.«141340_g42709154792033_cont_8to1c4_21_43_alg».proof.Proof.HostSide

set_option maxRecDepth 16384

noncomputable section

namespace Cert.Syndrome.K

open Cert.KernelIdeal Cert.KernelIdeal.Gen Idealize.ShloMosaic Idealize.ShloMosaic.ValueIdx Idealize.ShloMosaic.TcCoe Idealize.SL.Sem
open Cert.Syndrome

variable (m : (ℓ : Loc nD τ sig) → Buf (Elt Ideal) ℓ) (c : Dev nD)

/-! ## The argument arrays of core `c` -/

abbrev aX : Arr2 98304 256 := (m ((c.tc : Thread nD τ).loc main_arg0) : S98304x256.Idx → EReal)
abbrev aP : Arr2 64 1024 := (m ((c.tc : Thread nD τ).loc main_arg1) : S64x1024.Idx → EReal)
abbrev aH : Arr2 512 1024 := (m ((c.tc : Thread nD τ).loc main_arg2) : S512x1024.Idx → EReal)
abbrev aMask : (⟨1, ![98304]⟩ : Shape).Idx → BitVec 1 := (m ((c.tc : Thread nD τ).loc main_arg3) : S98304.Idx → BitVec 1)
abbrev aWp : Arr2 128 512 := (m ((c.tc : Thread nD τ).loc main_arg4) : S128x512.Idx → EReal)
abbrev aBp : Arr1 128 := (m ((c.tc : Thread nD τ).loc main_arg5) : S128.Idx → EReal)
abbrev aW1 : Arr2 256 384 := (m ((c.tc : Thread nD τ).loc main_arg6) : S256x384.Idx → EReal)
abbrev aB1 : Arr1 256 := (m ((c.tc : Thread nD τ).loc main_arg7) : S256.Idx → EReal)
abbrev aGamma : Arr1 256 := (m ((c.tc : Thread nD τ).loc main_arg8) : S256.Idx → EReal)
abbrev aBeta : Arr1 256 := (m ((c.tc : Thread nD τ).loc main_arg9) : S256.Idx → EReal)
abbrev aW2 : Arr2 256 256 := (m ((c.tc : Thread nD τ).loc main_arg10) : S256x256.Idx → EReal)
abbrev aB2 : Arr1 256 := (m ((c.tc : Thread nD τ).loc main_arg11) : S256.Idx → EReal)
abbrev aS : EReal := (m ((c.tc : Thread nD τ).loc main_arg12) : S_.Idx → EReal) ix0

/-! ## The targets -/

/-- The whole result array. -/
def result : S98304x256.Idx → EReal :=
  GK (aX m c) (aP m c) (aH m c) (aMask m c) (aWp m c) (aBp m c) (aW1 m c) (aB1 m c) (aGamma m c) (aBeta m c) (aW2 m c) (aB2 m c) (aS m c)

/-- The transpose of the first 256 columns of W1. -/
def w1t : S256x256.Idx → EReal := fun i => aW1 m c (ix2 (i 1) (⟨(i 0).val, by have := idx2_lt0 i; omega⟩ : Fin 384))

/-- The transpose of W2. -/
def w2t : S256x256.Idx → EReal := fun i => aW2 m c (ix2 (i 1) (i 0))

/-- The graph share of the first layer, graph `b`, column `j`. -/
def share (b : Fin 64) (j : Fin 256) : EReal := synK (aP m c) (aH m c) (aWp m c) (aBp m c) (aW1 m c) (aB1 m c) b j

/-- What the table must hold: for each grid point `s`, rows `8s … 8s+3` are the shares of graphs `4s … 4s+3`. -/
def TableOK (T : S128x256.Idx → EReal) : Prop :=
  ∀ (s : Fin 16) (a : Fin 4) (j : Fin 256),
    T (ix2 (⟨8 * s.val + a.val, by have := s.isLt; have := a.isLt; omega⟩ : Fin 128) j)
      = share m c (⟨4 * s.val + a.val, by have := s.isLt; have := a.isLt; omega⟩ : Fin 64) j

/-- The result block of grid point `t`. -/
def outBlock (t : Fin cfg0.N) : S6144x256.Idx → EReal := ((cfg0.win 12).blk t).view.read (Elt Ideal) (result m c)

end Cert.Syndrome.K

end
-- ==== Proof.KAt.lean ====
/-
  The body's two runs placed at a grid point of the actual pipeline: on the staging buffers the pipeline
  passes at point `t`, the three kept buffers, and the blocks the windows hold there.
-/
import proofs.«141340_g42709154792033_cont_8to1c4_21_43_alg».proof.Proof.KRunRest
import proofs.«141340_g42709154792033_cont_8to1c4_21_43_alg».proof.Proof.KTargets

set_option maxRecDepth 16384

noncomputable section

namespace Cert.KernelIdeal.Hand

open Cert.KernelIdeal Cert.KernelIdeal.Gen
open Idealize.ShloMosaic Idealize.ShloMosaic.TcCoe Idealize.SL.Sem
open Cert.Syndrome.K

/-- Each window's current staging buffer at point `t`, spelled as the pipeline passes it to the body, and that it is a whole buffer. -/
abbrev ms0 (t : Fin cfg0.N) : Memref sig .tc .vmem S64x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x384 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S6144x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S6144x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x256 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x256 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S6144x256 .f32 := win0_12.stage (cfg0.slots t 12)
abbrev hs12 (t : Fin cfg0.N) : (ms12 t).IsWhole := hstage0_12 ((cfg0.slots t 12).cast nbuf0_12)

variable (m : (ℓ : Loc nD τ sig) → Buf (Elt Ideal) ℓ) (c : Dev nD)

/-- The run at point 0, on the actual buffers and blocks, the table initially at `d`. -/
abbrev firstRun (t : Fin cfg0.N) (h0 : t.val = 0) (d : Vec Ideal S128x256 .f32) :=
  runFirst (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) tableM (Memref.isWhole_whole _) w1tM (Memref.isWhole_whole _) w2tM (Memref.isWhole_whole _)
    ((isFirst_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d

/-- The run at a later point, on the actual buffers and blocks, the table at `T` and the transposes at their targets. -/
abbrev restRun (t : Fin cfg0.N) (h0 : ¬t.val = 0) (T : Vec Ideal S128x256 .f32) :=
  runRest (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) tableM (Memref.isWhole_whole _) w1tM (Memref.isWhole_whole _) w2tM (Memref.isWhole_whole _)
    (fun h => h0 ((isFirst_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) T (w1t m c) (w2t m c)

/-- What is to be shown of the stored pieces, as values: at point 0 the result block's pieces read back as the
    specification's block whatever lay beneath, the table's pieces leave the required rows, the transposes' pieces
    read back as the transposes; at a later point, from a table with the required rows, the result block's pieces
    read back as the specification's block. -/
structure ValueFacts : Prop where
  first_out : ∀ (t : Fin cfg0.N) (h0 : t.val = 0) (d : Vec Ideal S128x256 .f32) (f),
    (ms12 t).view.read (Elt Ideal) ((ms12 t).view.writes (Elt Ideal) f (firstRun m c t h0 d).1) = outBlock m c t
  first_table : ∀ (t : Fin cfg0.N) (h0 : t.val = 0) (d : Vec Ideal S128x256 .f32) (f),
    TableOK m c (tableM.view.read (Elt Ideal) (tableM.view.writes (Elt Ideal) f (firstRun m c t h0 d).2.1))
  first_w1t : ∀ (t : Fin cfg0.N) (h0 : t.val = 0) (d : Vec Ideal S128x256 .f32) (f),
    w1tM.view.read (Elt Ideal) (w1tM.view.writes (Elt Ideal) f (firstRun m c t h0 d).2.2.1) = w1t m c
  first_w2t : ∀ (t : Fin cfg0.N) (h0 : t.val = 0) (d : Vec Ideal S128x256 .f32) (f),
    w2tM.view.read (Elt Ideal) (w2tM.view.writes (Elt Ideal) f (firstRun m c t h0 d).2.2.2.1) = w2t m c
  rest_out : ∀ (t : Fin cfg0.N) (h0 : ¬t.val = 0) (T : Vec Ideal S128x256 .f32), TableOK m c T → ∀ f,
    (ms12 t).view.read (Elt Ideal) ((ms12 t).view.writes (Elt Ideal) f (restRun m c t h0 T).1) = outBlock m c t

end Cert.KernelIdeal.Hand

end
-- ==== Proof.KData.lean ====
/-
  The idealized kernel's run with every array's final contents named.

  The invariant between grid points: before point 0 the three kept buffers hold anything; after any point the
  table has its required rows (rows 8s + a, a < 4, hold the graph share of graph 4s + a; nothing is said of the
  others) and the two other buffers hold the transposes of the first 256 columns of W1 and of W2. The proof
  data say that every input window's buffer holds its block, and that after the body at point t the result
  window's buffer holds rows 6144·t … 6144·t + 6143 of the specification's result. Given that the stored
  pieces have these values (ValueFacts), the body meets its obligation at every point, so the launch runs, and
  the result array ends equal to the specification's, the arguments unchanged.
-/
import proofs.«141340_g42709154792033_cont_8to1c4_21_43_alg».proof.Proof.KAt

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Syndrome.K

local notation "𝕄" => MT nD τ sig Unit (Elt Ideal) ℕ (UR sig nD τ) ℕ

variable (m : (ℓ : Loc nD τ sig) → Buf (Elt Ideal) ℓ) (ρ : Dev nD → PrngReg)

/-! ## The invariant between grid points -/

/-- Before point `n`: what the launch lends at `n = 0`; afterwards the table with its required rows, the two
    transposes exactly, and the generator register at some state. -/
def PhiS (c : Dev nD) : ℕ → sProp 𝕄
  | 0 => Pipeline.ΦA spec0 c
  | _ + 1 => iprop(iprop((∃ T, ⌜TableOK m c T⌝ ∗ owns (c : Thread nD τ) tableM fullShare T) ∗ owns (c : Thread nD τ) w1tM fullShare (w1t m c) ∗ owns (c : Thread nD τ) w2tM fullShare (w2t m c)) ∗ (∃ r, prngReg c r))

theorem PhiS_succ (c : Dev nD) (n : ℕ) :
    PhiS m c (n + 1) = iprop(iprop((∃ T, ⌜TableOK m c T⌝ ∗ owns (c : Thread nD τ) tableM fullShare T) ∗ owns (c : Thread nD τ) w1tM fullShare (w1t m c) ∗ owns (c : Thread nD τ) w2tM fullShare (w2t m c)) ∗ (∃ r, prngReg c r)) := rfl

theorem PhiS_pos (c : Dev nD) (n : ℕ) (hz : n ≠ 0) :
    PhiS m c n = iprop(iprop((∃ T, ⌜TableOK m c T⌝ ∗ owns (c : Thread nD τ) tableM fullShare T) ∗ owns (c : Thread nD τ) w1tM fullShare (w1t m c) ∗ owns (c : Thread nD τ) w2tM fullShare (w2t m c)) ∗ (∃ r, prngReg c r)) := by
  cases n with
  | zero => exact absurd rfl hz
  | succ n => rfl

/-! ## The proof data -/

/-- On core `c`: the arrays as the region finds them; after the body each input window's buffer at its block and
    the result window's at the specification's block; the invariant above; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outBlock m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = outBlock m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d

/-! ## The body obligation at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t))

set_option maxHeartbeats 3200000 in
/-- At point 0 the lent buffers go to the first run, whose pieces have the values the invariant and the proof data
    name; at a later point the invariant's buffers go to the other run and come back as they were. -/
theorem sound_body (c : Dev nD) (hv : ValueFacts m c) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6, before7, before8, before9, before10, before11]
  rw [show (dats m 0 c).owesAt () t.succ = (dats m 0 c).owesAt () t.castSucc from rfl,
    after0, after1, after2, after3, after4, after5, after6, after7, after8, after9, after10, after11, after12]
  rw [show (dats m 0 c).Φ t.succ = PhiS m c (t.val + 1) from rfl, PhiS_succ, Phi_castSucc]
  by_cases h0 : t.val = 0
  · rw [show PhiS m c t.val = Pipeline.ΦA spec0 c from by rw [h0]; rfl, lent_eq]
    iintro ⟨⟨⟨⟨%dT, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((firstRun m c t h0 dT).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, ⟨%f12, H12⟩, ⟨%fT, HS0⟩, ⟨%f1, HS1⟩, ⟨%f2, HS2⟩⟩
    isplitl [HS0 HS1 HS2 Hg]
    · isplitl [HS0 HS1 HS2]
      · isplitl [HS0]
        · unfold owns; iexists _; isplitr
          swap
          · iexists _; isplitr
            swap; · iexact HS0
            ipureintro; rfl
          ipureintro; exact hv.first_table t h0 dT fT
        isplitl [HS1]
        · unfold owns; iexists _; isplitr
          swap; · iexact HS1
          ipureintro; exact hv.first_w1t t h0 dT f1
        unfold owns; iexists _; isplitr
        swap; · iexact HS2
        ipureintro; exact hv.first_w2t t h0 dT f2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact hv.first_out t h0 dT f12
  · rw [PhiS_pos m c _ h0]
    iintro ⟨⟨⟨⟨%T, %hT, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((restRun m c t h0 T).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, ⟨%f12, H12⟩, HS0, HS1, HS2⟩
    isplitl [HS0 HS1 HS2 Hg]
    · isplitl [HS0 HS1 HS2]
      · isplitl [HS0]
        · iexists T; isplitr
          · ipureintro; exact hT
          iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact hv.rest_out t h0 T hT f12

/-- The library's body obligation, at every point. -/
theorem body_obligation (c : Dev nD) (hv : ValueFacts m c) : BodyObligation (dats m 0 c) (defs₀ (F := Ideal)) Variants.none () Set.univ := fun t => by
  rw [bigSep_W0, bigSep_W0]
  exact sound_body m c hv t

/-- What the launch lends is the invariant before point 0. -/
theorem hin (c : Dev nD) : Pipeline.ΦA spec0 c ⊢ (dats m 0 c).Φ 0 := by
  rw [show (dats m 0 c).Φ 0 = Pipeline.ΦA spec0 c from rfl]

/-- After the last point the invariant gives back what was lent: what the three buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 16 := N_0; omega), lent_eq]
  iintro ⟨⟨⟨%T, %hT, HS0⟩, HS1, HS2⟩, Hg⟩
  isplitl [HS0 HS1 HS2]
  · isplitl [HS0]; · iexists _; iexact HS0
    isplitl [HS1]; · iexists _; iexact HS1
    iexists _; iexact HS2
  iexact Hg

/-! ## The run -/

set_option backward.isDefEq.respectTransparency.types false in
/-- Every weakly fair execution of the program terminates with every array of the pipeline at what the library computes from
    the proof data and every other unscoped buffer as the region found it. -/
theorem run_main (hv : ∀ c, ValueFacts m c) : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m c (hv c)).loose) (hshare := fun c => (dats m 0 c).share_full fun _ => rfl)
    (howed := fun _ _ => rfl) (V := V m) (hmain := hmain m Variants.none) (hA := A_eq m) (hin := hin m) (hout := hout m)

end Cert.KernelIdeal.Hand

end
-- ==== Proof.Payloads.lean ====
/-
  The kernel body's pure payload terms, read at an index, at the extended reals.

  Each payload of the body is a chain of vector operations over the vectors the body loads. Read at one index,
  a pointwise operation is the operation on the entries; a product of matrices into a zero accumulator is the
  sum over the contracted coordinate of the products of the entries; a sum along the lanes is the sum over the
  lane coordinate; and a layout operation (a slice, a transpose, a cast to the same shape, a row or a column
  repeated, pieces laid end to end along the rows) reads one entry of its operand, which is named here by its
  two coordinates.
-/
import proofs.«141340_g42709154792033_cont_8to1c4_21_43_alg».proof.Proof.Gen.KernelIdeal.Skeleton
import proofs.«141340_g42709154792033_cont_8to1c4_21_43_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Syndrome.Pay

open Cert.KernelIdeal Cert.KernelIdeal.Gen Idealize.ShloMosaic Idealize.ShloMosaic.ValueIdx

/-! ## Products of matrices read at an entry

  Each contraction of the body has one contracted axis, so the contraction's index set is the range of
  that one coordinate, and the sum over it is re-indexed by that coordinate. First the row part's product,
  which contracts the first factor's columns with the second factor's rows. -/

/-- The row part's two products: [6144,256] by [256,256], the first factor's columns against the second's rows. -/
abbrev Dnn : DotDims S6144x256 S256x256 S6144x256 := dot_S6144x256_S256x256_S6144x256_1_0_0_1_n_n

theorem Dnn_l0 (i : S6144x256.Idx) (c : Dnn.contr.Idx) : (Dnn.lhsIdx i c 0).val = (i 0).val := by
  unfold DotDims.lhsIdx
  rw [dif_neg (show ¬(0 : Fin S6144x256.rank) ∈ Dnn.lhsBatch by decide),
    dif_pos (show (0 : Fin S6144x256.rank) ∈ Dnn.lhsNonContracting by decide)]
  rfl
theorem Dnn_l1 (i : S6144x256.Idx) (c : Dnn.contr.Idx) : (Dnn.lhsIdx i c 1).val = (c ⟨0, by decide⟩).val :=
  Dnn.lhsIdx_val_of_single rfl i c
theorem Dnn_r0 (i : S6144x256.Idx) (c : Dnn.contr.Idx) : (Dnn.rhsIdx i c 0).val = (c ⟨0, by decide⟩).val :=
  Dnn.rhsIdx_val_of_single rfl i c
theorem Dnn_r1 (i : S6144x256.Idx) (c : Dnn.contr.Idx) : (Dnn.rhsIdx i c 1).val = (i 1).val := by
  unfold DotDims.rhsIdx
  rw [dif_neg (show ¬(1 : Fin S256x256.rank) ∈ Dnn.rhsBatch by decide),
    dif_pos (show (1 : Fin S256x256.rank) ∈ Dnn.rhsNonContracting by decide)]
  rfl

/-- Entry (q, j) of the product is the sum over k of l(q, k) · r(k, j). -/
theorem mm_nn (l : FVec Ideal S6144x256 .f32) (r : FVec Ideal S256x256 .f32) (q : Fin 6144) (j : Fin 256) :
    matmul dot_S6144x256_S256x256_S6144x256_1_0_0_1_n_n none l r (constant S6144x256 .f32 0x00000000#32) (ix2 q j)
      = ∑ k : Fin 256, l (ix2 q k) * r (ix2 k j) := by
  refine (Ideal.matmul_constant_zero_apply Dnn none l r (ix2 q j)).trans ?_
  rw [← Equiv.sum_comp (contrEquiv1 Dnn 256 rfl rfl).symm]
  refine Finset.sum_congr rfl fun k _ => ?_
  have hk := contrEquiv1_symm_val Dnn 256 rfl rfl k
  have el : Dnn.lhsIdx (ix2 q j) ((contrEquiv1 Dnn 256 rfl rfl).symm k) = ix2 q k := funext fun a => Fin.ext (by
    match a with
    | ⟨0, _⟩ => exact Dnn_l0 _ _
    | ⟨1, _⟩ => exact (Dnn_l1 _ _).trans hk)
  have er : Dnn.rhsIdx (ix2 q j) ((contrEquiv1 Dnn 256 rfl rfl).symm k) = ix2 k j := funext fun a => Fin.ext (by
    match a with
    | ⟨0, _⟩ => exact (Dnn_r0 _ _).trans hk
    | ⟨1, _⟩ => exact Dnn_r1 _ _)
  rw [el, er]

/-! ## A product contracting both factors' second axes, at any extents

  For dimension numbers with no batch axis, the first axis of each factor kept and the second contracted,
  entry (b, c) of the product of l : [M,K] and r : [N,K] is the sum over n of l(b, n) · r(c, n). -/

section SecondAxes
variable {M K N : ℕ} (D : DotDims ⟨2, ![M, K]⟩ ⟨2, ![N, K]⟩ ⟨2, ![M, N]⟩)
variable (hlb : D.lhsBatch = []) (hrb : D.rhsBatch = []) (hln : D.lhsNonContracting = [0]) (hrn : D.rhsNonContracting = [0])
variable (hlc : D.lhsContracting = [1]) (hrc : D.rhsContracting = [1])

include hlc in
theorem nt_rank : D.contr.rank = 1 := by rw [D.rank_contr, hlc]; rfl

include hlc in
theorem nt_size : D.contr.size ⟨0, by rw [nt_rank D hlc]; exact Nat.one_pos⟩ = K := by
  have aux : ∀ (l : List (Fin 2)) (hl : l = [1]) (hp : 0 < l.length),
      (⟨2, ![M, K]⟩ : Shape).size (l[0]'hp) = K := by
    intro l hl hp; subst hl; rfl
  exact (D.size_contr 0 (by rw [hlc]; exact Nat.one_pos)).trans (aux _ hlc _)

include hlb hln in
theorem nt_l0 (i : (⟨2, ![M, N]⟩ : Shape).Idx) (c : D.contr.Idx) : (D.lhsIdx i c 0).val = (i 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r → (i ⟨p, hp⟩).val = (i ⟨r, hr⟩).val :=
    fun p r hp hr h => by subst h; rfl
  exact key _ _ _ _ (by simp [hlb, hln])

include hlb hln hrb hrn in
theorem nt_r0 (i : (⟨2, ![M, N]⟩ : Shape).Idx) (c : D.contr.Idx) : (D.rhsIdx i c 0).val = (i 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r → (i ⟨p, hp⟩).val = (i ⟨r, hr⟩).val :=
    fun p r hp hr h => by subst h; rfl
  exact key _ _ _ _ (by simp [hlb, hln, hrn])

include hlb hrb hln hrn hlc hrc in
theorem mm_nt (l : FVec Ideal ⟨2, ![M, K]⟩ .f32) (r : FVec Ideal ⟨2, ![N, K]⟩ .f32) (b : Fin M) (c : Fin N) :
    matmul D none l r (constant ⟨2, ![M, N]⟩ .f32 0x00000000#32) (ix2 b c) = ∑ n : Fin K, l (ix2 b n) * r (ix2 c n) := by
  refine (Ideal.matmul_constant_zero_apply D none l r (ix2 b c)).trans ?_
  rw [← Equiv.sum_comp (contrEquiv1 D K (nt_rank D hlc) (nt_size D hlc)).symm]
  refine Finset.sum_congr rfl fun n _ => ?_
  have hn := contrEquiv1_symm_val D K (nt_rank D hlc) (nt_size D hlc) n
  have el : D.lhsIdx (ix2 b c) ((contrEquiv1 D K (nt_rank D hlc) (nt_size D hlc)).symm n) = ix2 b n :=
    funext fun a => Fin.ext (by
      match a with
      | ⟨0, _⟩ => exact nt_l0 D hlb hln _ _
      | ⟨1, _⟩ => exact (D.lhsIdx_val_of_single hlc _ _).trans hn)
  have er : D.rhsIdx (ix2 b c) ((contrEquiv1 D K (nt_rank D hlc) (nt_size D hlc)).symm n) = ix2 c n :=
    funext fun a => Fin.ext (by
      match a with
      | ⟨0, _⟩ => exact nt_r0 D hlb hrb hln hrn _ _
      | ⟨1, _⟩ => exact (D.rhsIdx_val_of_single hrc _ _).trans hn)
  rw [el, er]

end SecondAxes

/-- The parity sums: entry (b, c) is the sum over the 1024 bits n of l(b, n) · r(c, n). -/
theorem mm_par (l : FVec Ideal S64x1024 .f32) (r : FVec Ideal S512x1024 .f32) (b : Fin 64) (c : Fin 512) :
    matmul dot_S64x1024_S512x1024_S64x512_1_1_0_0_n_n none l r (constant S64x512 .f32 0x00000000#32) (ix2 b c)
      = ∑ n : Fin 1024, l (ix2 b n) * r (ix2 c n) :=
  mm_nt dot_S64x1024_S512x1024_S64x512_1_1_0_0_n_n rfl rfl rfl rfl rfl rfl l r b c

/-- The feature map: entry (b, k) is the sum over the 512 checks c of l(b, c) · r(k, c). -/
theorem mm_feat (l : FVec Ideal S64x512 .f32) (r : FVec Ideal S128x512 .f32) (b : Fin 64) (k : Fin 128) :
    matmul dot_S64x512_S128x512_S64x128_1_1_0_0_n_n none l r (constant S64x128 .f32 0x00000000#32) (ix2 b k)
      = ∑ c : Fin 512, l (ix2 b c) * r (ix2 k c) :=
  mm_nt dot_S64x512_S128x512_S64x128_1_1_0_0_n_n rfl rfl rfl rfl rfl rfl l r b k

/-- The graph's share of the first layer: entry (b, j) is the sum over the 128 features k of l(b, k) · r(j, k). -/
theorem mm_syn (l : FVec Ideal S64x128 .f32) (r : FVec Ideal S256x128 .f32) (b : Fin 64) (j : Fin 256) :
    matmul dot_S64x128_S256x128_S64x256_1_1_0_0_n_n none l r (constant S64x256 .f32 0x00000000#32) (ix2 b j)
      = ∑ k : Fin 128, l (ix2 b k) * r (ix2 j k) :=
  mm_nt dot_S64x128_S256x128_S64x256_1_1_0_0_n_n rfl rfl rfl rfl rfl rfl l r b j

/-! ## Layout operations read at an entry -/

/-- A column [a,1] repeated along the lanes to [a,b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a,1] reads, at (p, 0), the vector's entry p. -/
theorem shapeCast_a_a1_apply {α : Type} {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  shapeCast_apply v h _ _ (by
    have hz : z.val = 0 := by omega
    rw [Shape.rowMajor_val_one, Shape.rowMajor_val_two]
    show p.val = p.val * 1 + z.val
    rw [hz, Nat.mul_one, Nat.add_zero])

/-! ## The mixing step (the value the body stores to the output block) -/

/-- Entry (q, j) of the stored block: x + (mask · s) · (e − x), where e is the second layer applied to the
    ramp of the scaled, shifted normalised row. -/
theorem pay1_apply (v3 : Vec Ideal S6144x256 .f32) (v40 : FVec Ideal S6144x256 .f32) (v41 v45 : Vec Ideal S1x256 .f32)
    (v51 : Vec Ideal S256x256 .f32) (v53 : Vec Ideal S1x256 .f32) (v57 : Vec Ideal S6144x1 .f32)
    (q : Fin 6144) (j : Fin 256) :
    k0_pay1 (F := Ideal) v3 v40 v41 v45 v51 v53 v57 (ix2 q j)
      = v3 (ix2 q j) + v57 (ix2 q (0 : Fin 1))
          * (((∑ k : Fin 256, max (v40 (ix2 q k) * v41 (ix2 (0 : Fin 1) k) + v45 (ix2 (0 : Fin 1) k)) Cert.Syndrome.zero
                * v51 (ix2 k j)) + v53 (ix2 (0 : Fin 1) j)) - v3 (ix2 q j)) := by
  unfold k0_pay1
  simp only [shapeCast_self]
  show v3 (ix2 q j) + broadcastTo S6144x256 v57 broadcasts_S6144x1_S6144x256 (ix2 q j)
      * ((matmul (F := Ideal) dot_S6144x256_S256x256_S6144x256_1_0_0_1_n_n none _ v51 (constant (F := Ideal) S6144x256 .f32 0x00000000#32) (ix2 q j)
          + broadcastTo S6144x256 v53 broadcasts_S1x256_S6144x256 (ix2 q j)) - v3 (ix2 q j)) = _
  rw [mm_nn, broadcastTo_a1_ab_apply, broadcastTo_1b_ab_apply]
  refine congrArg (fun t => v3 (ix2 q j) + v57 (ix2 q (0 : Fin 1)) * ((t + v53 (ix2 (0 : Fin 1) j)) - v3 (ix2 q j))) ?_
  refine Finset.sum_congr rfl fun k _ => ?_
  show max (v40 (ix2 q k) * broadcastTo S6144x256 v41 broadcasts_S1x256_S6144x256 (ix2 q k)
      + broadcastTo S6144x256 v45 broadcasts_S1x256_S6144x256 (ix2 q k)) (Ideal.ofBits .f32 0x00000000#32) * v51 (ix2 k j) = _
  rw [broadcastTo_1b_ab_apply, broadcastTo_1b_ab_apply]

/-! ## The two transposed weight copies -/

/-- The first layer's node columns, transposed: entry (k, j) of the stored copy is entry (j, k) of what was loaded. -/
theorem pay2_apply (v64 : Vec Ideal S256x256 .f32) (k j : Fin 256) :
    k0_pay2 (F := Ideal) v64 (ix2 k j) = v64 (ix2 j k) := by
  unfold k0_pay2
  simp only [shapeCast_self]
  exact transpose_ix2_apply v64 _ k j

/-- The second layer's weights, transposed likewise. -/
theorem pay3_apply (v69 : Vec Ideal S256x256 .f32) (k j : Fin 256) :
    k0_pay3 (F := Ideal) v69 (ix2 k j) = v69 (ix2 j k) := by
  unfold k0_pay3
  simp only [shapeCast_self]
  exact transpose_ix2_apply v69 _ k j

/-! ## A sum along the lanes, and the per-graph rows laid end to end -/

/-- The sum of a [6144,256] block along its lanes, read at row q, is the sum over k of the entries (q, k). -/
theorem laneSum_apply (v : FVec Ideal S6144x256 .f32) (h : S6144x256.Reduces [1] S6144) (hφ : FKind.Formats .f32)
    (hacc : (0x00000000#32 : BitVec 32) = FKind.add.neutral .f32 hφ) (q : Fin 6144) :
    multiReduction (F := Ideal) .add [1] S6144 v 0x00000000#32 h hφ hacc (ix1 q) = ∑ k : Fin 256, v (ix2 q k) := by
  refine (Ideal.multiReduction_add_single v 0x00000000#32 h hφ hacc (ix1 q)).trans ?_
  exact Finset.sum_congr rfl fun k _ => congrArg v (funext fun a => Fin.ext (by
    match a with
    | ⟨0, _⟩ => rfl
    | ⟨1, _⟩ => rfl))

/-- Row p of the [8,256] table, cut out and repeated over 1536 rows, reads that row at every row. -/
theorem piece_apply (v8 : Vec Ideal S8x256 .f32) (p : Nat) (hp : p < 8) (hs : S8x256.Slices ![p, 0] S1x256)
    (hc : S1x256.ShapeCasts S1x256) (hb : S1x256.Broadcasts S1536x256) (r : Fin 1536) (k : Fin 256) :
    broadcastTo S1536x256 (shapeCast S1x256 (extractStridedSlice S1x256 ![p, 0] v8 hs) hc) hb (ix2 r k)
      = v8 (ix2 (⟨p, hp⟩ : Fin 8) k) := by
  rw [shapeCast_self, broadcastTo_1b_ab_apply]
  exact slice2_axis0_apply p v8 hs (0 : Fin 1) k ⟨p, hp⟩ rfl

/-- Four [1536,256] pieces laid end to end along the rows: row q lies in piece p when 1536·p ≤ q < 1536·p + 1536,
    and is that piece's row q − 1536·p. -/
theorem concat_piece {α : Type} (xs : List ((s : Shape) × (s.Idx → α)))
    (hcat : Shape.Concatenates (xs.map (·.1)) S6144x256 0)
    (p : Nat) (hp : p < xs.length) (x : S1536x256.Idx → α) (hx : xs[p] = ⟨S1536x256, x⟩)
    (hpre : (((xs.take p).map (·.1)).map fun s => if h : s.rank = S6144x256.rank then s.size ((0 : Fin S6144x256.rank).cast h.symm) else 0).sum
      = 1536 * p)
    (q : Fin 6144) (k : Fin 256) (hlo : 1536 * p ≤ q.val) (hhi : q.val < 1536 * p + 1536) :
    concatenate S6144x256 0 xs hcat (ix2 q k) = x (ix2 (⟨q.val - 1536 * p, by omega⟩ : Fin 1536) k) :=
  concatenate_apply_piece (0 : Fin S6144x256.rank) xs hcat (ix2 q k) p hp S1536x256 x hx rfl (1536 * p) hpre
    (ix2 (⟨q.val - 1536 * p, by omega⟩ : Fin 1536) k)
    (fun b hb => by
      match b, hb with
      | ⟨0, _⟩, hb => exact absurd rfl hb
      | ⟨1, _⟩, _ => rfl)
    (by show 1536 * p + (q.val - 1536 * p) = q.val; omega)

/-- The graph a row of the block belongs to, among the block's four. -/
abbrev rowGraph (q : Fin 6144) : Fin 8 := ⟨q.val / 1536, by have := q.isLt; omega⟩

/-- The block's graph rows: rows 0..3 of the table, each over its graph's 1536 node rows. -/
theorem bias_apply (v8 : Vec Ideal S8x256 .f32)
    (hs0 : S8x256.Slices ![0, 0] S1x256) (hs1 : S8x256.Slices ![1, 0] S1x256)
    (hs2 : S8x256.Slices ![2, 0] S1x256) (hs3 : S8x256.Slices ![3, 0] S1x256)
    (hc : S1x256.ShapeCasts S1x256) (hb : S1x256.Broadcasts S1536x256)
    (hcat : Shape.Concatenates [S1536x256, S1536x256, S1536x256, S1536x256] S6144x256 0)
    (q : Fin 6144) (k : Fin 256) :
    concatenate S6144x256 0
        [⟨S1536x256, broadcastTo S1536x256 (shapeCast S1x256 (extractStridedSlice S1x256 ![0, 0] v8 hs0) hc) hb⟩,
         ⟨S1536x256, broadcastTo S1536x256 (shapeCast S1x256 (extractStridedSlice S1x256 ![1, 0] v8 hs1) hc) hb⟩,
         ⟨S1536x256, broadcastTo S1536x256 (shapeCast S1x256 (extractStridedSlice S1x256 ![2, 0] v8 hs2) hc) hb⟩,
         ⟨S1536x256, broadcastTo S1536x256 (shapeCast S1x256 (extractStridedSlice S1x256 ![3, 0] v8 hs3) hc) hb⟩]
        hcat (ix2 q k)
      = v8 (ix2 (rowGraph q) k) := by
  have hq := q.isLt
  rcases Nat.lt_or_ge q.val 1536 with h0 | h0
  · refine Eq.trans (concat_piece _ _ 0 (by show (0 : ℕ) < 4; omega) _ rfl rfl q k (by omega) (by omega)) ?_
    refine (piece_apply v8 0 (by omega) hs0 hc hb _ k).trans ?_
    exact congrArg (fun a : Fin 8 => v8 (ix2 a k)) (Fin.ext (by show 0 = q.val / 1536; omega))
  rcases Nat.lt_or_ge q.val 3072 with h1 | h1
  · refine Eq.trans (concat_piece _ _ 1 (by show (1 : ℕ) < 4; omega) _ rfl rfl q k (by omega) (by omega)) ?_
    refine (piece_apply v8 1 (by omega) hs1 hc hb _ k).trans ?_
    exact congrArg (fun a : Fin 8 => v8 (ix2 a k)) (Fin.ext (by show 1 = q.val / 1536; omega))
  rcases Nat.lt_or_ge q.val 4608 with h2 | h2
  · refine Eq.trans (concat_piece _ _ 2 (by show (2 : ℕ) < 4; omega) _ rfl rfl q k (by omega) (by omega)) ?_
    refine (piece_apply v8 2 (by omega) hs2 hc hb _ k).trans ?_
    exact congrArg (fun a : Fin 8 => v8 (ix2 a k)) (Fin.ext (by show 2 = q.val / 1536; omega))
  · refine Eq.trans (concat_piece _ _ 3 (by show (3 : ℕ) < 4; omega) _ rfl rfl q k (by omega) (by omega)) ?_
    refine (piece_apply v8 3 (by omega) hs3 hc hb _ k).trans ?_
    exact congrArg (fun a : Fin 8 => v8 (ix2 a k)) (Fin.ext (by show 3 = q.val / 1536; omega))

/-! ## The normalised row (the value the body carries to the mixing step) -/

/-- A reciprocal square root, a hyperbolic tangent and a logarithm of a vector, read at an entry. -/
theorem rsqrt_apply {s : Shape} {φ : FTy} (a : FVec Ideal s φ) (i : s.Idx) : rsqrt a i = Ideal.rsqrt (a i) := rfl
theorem tanh_apply {s : Shape} {φ : FTy} (a : FVec Ideal s φ) (i : s.Idx) : tanh a i = Ideal.tanh (a i) := rfl
theorem log_apply {s : Shape} {φ : FTy} (a : FVec Ideal s φ) (i : s.Idx) : log a i = Ideal.log (a i) := rfl

/-- The pre-activation of row q of the block: the node's share (x_q against the transposed node columns of the
    first layer) plus the graph's share (the row of the table that belongs to the row's graph). -/
abbrev preAct (v3 : Vec Ideal S6144x256 .f32) (v4 : Vec Ideal S256x256 .f32) (v8 : Vec Ideal S8x256 .f32)
    (q : Fin 6144) : Fin 256 → EReal :=
  fun k => (∑ k' : Fin 256, v3 (ix2 q k') * v4 (ix2 k' k)) + v8 (ix2 (rowGraph q) k)

/-- Entry (q, j) of the normalised block: the deviation of the pre-activation from its row mean, times the
    reciprocal square root of the row's variance shifted by the small constant. -/
theorem pay24_apply (v3 : Vec Ideal S6144x256 .f32) (v4 : Vec Ideal S256x256 .f32) (v8 : Vec Ideal S8x256 .f32)
    (q : Fin 6144) (j : Fin 256) :
    k0_pay24 (F := Ideal) v3 v4 v8 (ix2 q j)
      = Cert.Syndrome.nrmK (Cert.Syndrome.dev Cert.Syndrome.sumK (preAct v3 v4 v8 q) j)
          (Cert.Syndrome.var Cert.Syndrome.sumK (preAct v3 v4 v8 q) + Cert.Syndrome.eps) := by
  have hB := fun k : Fin 256 => bias_apply v8 slices_S8x256_o0_0_S1x256 slices_S8x256_o1_0_S1x256
    slices_S8x256_o2_0_S1x256 slices_S8x256_o3_0_S1x256 shapeCasts_S1x256_S1x256 broadcasts_S1x256_S1536x256
    concatenates_S1536x256_S1536x256_S1536x256_S1536x256_S6144x256_d0 q k
  have hL := fun w : FVec Ideal S6144x256 .f32 =>
    laneSum_apply w reduces_S6144x256_S6144 (Or.inl rfl) rfl q
  unfold k0_pay24
  simp only [mulf_apply, subf_apply, addf_apply, divf_apply, rsqrt_apply, broadcast_apply,
    broadcastTo_a1_ab_apply, shapeCast_a_a1_apply, hL, mm_nn, hB]
  rfl

/-! ## The graph's share of the first layer, and its 4-row slices -/

/-- Entry (b, j): the feature of graph b (the soft check probabilities against the feature weights, plus its bias)
    against the last 128 columns of the first layer, plus the first layer's bias. -/
theorem pay5_apply (v98 : FVec Ideal S64x512 .f32) (v99 : Vec Ideal S128x512 .f32) (v101 : Vec Ideal S1x128 .f32)
    (v105 : Vec Ideal S256x128 .f32) (v107 : Vec Ideal S1x256 .f32) (b : Fin 64) (j : Fin 256) :
    k0_pay5 (F := Ideal) v98 v99 v101 v105 v107 (ix2 b j)
      = (∑ k : Fin 128, ((∑ c : Fin 512, v98 (ix2 b c) * v99 (ix2 k c)) + v101 (ix2 (0 : Fin 1) k)) * v105 (ix2 j k))
          + v107 (ix2 (0 : Fin 1) j) := by
  unfold k0_pay5
  simp only [shapeCast_self, addf_apply, mm_syn, mm_feat, broadcastTo_1b_ab_apply]

/-- The soft probability that check c of graph b is violated. -/
theorem pay4_apply (p : Vec Ideal S64x1024 .f32) (H : Vec Ideal S512x1024 .f32) (b : Fin 64) (c : Fin 512) :
    k0_pay4 (F := Ideal) p H (ix2 b c) = Cert.Syndrome.prob p H b c := by
  unfold k0_pay4
  simp only [mulf_apply, subf_apply, addf_apply, divf_apply, maximumf_apply, minimumf_apply, tanh_apply, log_apply,
    broadcast_apply, mm_par]
  rfl

/-- Four rows cut from a [64,256] block at row offset o: entry (a, j) of the slice is entry (o + a, j) of the block. -/
theorem slice4_apply (X : FVec Ideal S64x256 .f32) (o : ℕ) (ho : o + 4 ≤ 64) (h : S64x256.Slices ![o, 0] S4x256)
    (a : Fin 4) (j : Fin 256) :
    extractStridedSlice S4x256 ![o, 0] X h (ix2 a j) = X (ix2 (⟨o + a.val, by omega⟩ : Fin 64) j) :=
  slice2_axis0_apply o X h a j _ rfl

/-- Rows 0..3 of the graph block. -/
theorem pay6_apply (v98 : FVec Ideal S64x512 .f32) (v99 : Vec Ideal S128x512 .f32) (v101 : Vec Ideal S1x128 .f32)
    (v105 : Vec Ideal S256x128 .f32) (v107 : Vec Ideal S1x256 .f32) (a : Fin 4) (j : Fin 256) :
    k0_pay6 (F := Ideal) v98 v99 v101 v105 v107 (ix2 a j)
      = k0_pay5 (F := Ideal) v98 v99 v101 v105 v107 (ix2 (⟨0 + a.val, by omega⟩ : Fin 64) j) := by
  unfold k0_pay6; simp only [shapeCast_self]; exact slice4_apply _ 0 (by omega) _ a j

/-- Rows 4..7. -/
theorem pay7_apply (v98 : FVec Ideal S64x512 .f32) (v99 : Vec Ideal S128x512 .f32) (v101 : Vec Ideal S1x128 .f32)
    (v105 : Vec Ideal S256x128 .f32) (v107 : Vec Ideal S1x256 .f32) (a : Fin 4) (j : Fin 256) :
    k0_pay7 (F := Ideal) v98 v99 v101 v105 v107 (ix2 a j)
      = k0_pay5 (F := Ideal) v98 v99 v101 v105 v107 (ix2 (⟨4 + a.val, by omega⟩ : Fin 64) j) := by
  unfold k0_pay7; simp only [shapeCast_self]; exact slice4_apply _ 4 (by omega) _ a j

/-- Rows 8..11. -/
theorem pay8_apply (v98 : FVec Ideal S64x512 .f32) (v99 : Vec Ideal S128x512 .f32) (v101 : Vec Ideal S1x128 .f32)
    (v105 : Vec Ideal S256x128 .f32) (v107 : Vec Ideal S1x256 .f32) (a : Fin 4) (j : Fin 256) :
    k0_pay8 (F := Ideal) v98 v99 v101 v105 v107 (ix2 a j)
      = k0_pay5 (F := Ideal) v98 v99 v101 v105 v107 (ix2 (⟨8 + a.val, by omega⟩ : Fin 64) j) := by
  unfold k0_pay8; simp only [shapeCast_self]; exact slice4_apply _ 8 (by omega) _ a j

/-- Rows 12..15. -/
theorem pay9_apply (v98 : FVec Ideal S64x512 .f32) (v99 : Vec Ideal S128x512 .f32) (v101 : Vec Ideal S1x128 .f32)
    (v105 : Vec Ideal S256x128 .f32) (v107 : Vec Ideal S1x256 .f32) (a : Fin 4) (j : Fin 256) :
    k0_pay9 (F := Ideal) v98 v99 v101 v105 v107 (ix2 a j)
      = k0_pay5 (F := Ideal) v98 v99 v101 v105 v107 (ix2 (⟨12 + a.val, by omega⟩ : Fin 64) j) := by
  unfold k0_pay9; simp only [shapeCast_self]; exact slice4_apply _ 12 (by omega) _ a j

/-- Rows 16..19. -/
theorem pay10_apply (v98 : FVec Ideal S64x512 .f32) (v99 : Vec Ideal S128x512 .f32) (v101 : Vec Ideal S1x128 .f32)
    (v105 : Vec Ideal S256x128 .f32) (v107 : Vec Ideal S1x256 .f32) (a : Fin 4) (j : Fin 256) :
    k0_pay10 (F := Ideal) v98 v99 v101 v105 v107 (ix2 a j)
      = k0_pay5 (F := Ideal) v98 v99 v101 v105 v107 (ix2 (⟨16 + a.val, by omega⟩ : Fin 64) j) := by
  unfold k0_pay10; simp only [shapeCast_self]; exact slice4_apply _ 16 (by omega) _ a j

/-- Rows 20..23 (carried on, not yet cast). -/
theorem pay11_apply (v98 : FVec Ideal S64x512 .f32) (v99 : Vec Ideal S128x512 .f32) (v101 : Vec Ideal S1x128 .f32)
    (v105 : Vec Ideal S256x128 .f32) (v107 : Vec Ideal S1x256 .f32) (a : Fin 4) (j : Fin 256) :
    k0_pay11 (F := Ideal) v98 v99 v101 v105 v107 (ix2 a j)
      = k0_pay5 (F := Ideal) v98 v99 v101 v105 v107 (ix2 (⟨20 + a.val, by omega⟩ : Fin 64) j) := by
  unfold k0_pay11; exact slice4_apply _ 20 (by omega) _ a j

/-- The carried rows 20..23, cast to their own shape: unchanged. -/
theorem pay12_apply (v131 : FVec Ideal S4x256 .f32) (a : Fin 4) (j : Fin 256) :
    k0_pay12 (F := Ideal) v131 (ix2 a j) = v131 (ix2 a j) := by
  unfold k0_pay12; simp only [shapeCast_self]

/-- Rows 24..27. -/
theorem pay13_apply (v110 : FVec Ideal S64x256 .f32) (a : Fin 4) (j : Fin 256) :
    k0_pay13 (F := Ideal) v110 (ix2 a j) = v110 (ix2 (⟨24 + a.val, by omega⟩ : Fin 64) j) := by
  unfold k0_pay13; simp only [shapeCast_self]; exact slice4_apply _ 24 (by omega) _ a j

/-- Rows 28..31. -/
theorem pay14_apply (v110 : FVec Ideal S64x256 .f32) (a : Fin 4) (j : Fin 256) :
    k0_pay14 (F := Ideal) v110 (ix2 a j) = v110 (ix2 (⟨28 + a.val, by omega⟩ : Fin 64) j) := by
  unfold k0_pay14; simp only [shapeCast_self]; exact slice4_apply _ 28 (by omega) _ a j

/-- Rows 32..35. -/
theorem pay15_apply (v110 : FVec Ideal S64x256 .f32) (a : Fin 4) (j : Fin 256) :
    k0_pay15 (F := Ideal) v110 (ix2 a j) = v110 (ix2 (⟨32 + a.val, by omega⟩ : Fin 64) j) := by
  unfold k0_pay15; simp only [shapeCast_self]; exact slice4_apply _ 32 (by omega) _ a j

/-- Rows 36..39. -/
theorem pay16_apply (v110 : FVec Ideal S64x256 .f32) (a : Fin 4) (j : Fin 256) :
    k0_pay16 (F := Ideal) v110 (ix2 a j) = v110 (ix2 (⟨36 + a.val, by omega⟩ : Fin 64) j) := by
  unfold k0_pay16; simp only [shapeCast_self]; exact slice4_apply _ 36 (by omega) _ a j

/-- Rows 40..43. -/
theorem pay17_apply (v110 : FVec Ideal S64x256 .f32) (a : Fin 4) (j : Fin 256) :
    k0_pay17 (F := Ideal) v110 (ix2 a j) = v110 (ix2 (⟨40 + a.val, by omega⟩ : Fin 64) j) := by
  unfold k0_pay17; simp only [shapeCast_self]; exact slice4_apply _ 40 (by omega) _ a j

/-- Rows 44..47. -/
theorem pay18_apply (v110 : FVec Ideal S64x256 .f32) (a : Fin 4) (j : Fin 256) :
    k0_pay18 (F := Ideal) v110 (ix2 a j) = v110 (ix2 (⟨44 + a.val, by omega⟩ : Fin 64) j) := by
  unfold k0_pay18; simp only [shapeCast_self]; exact slice4_apply _ 44 (by omega) _ a j

/-- Rows 48..51. -/
theorem pay19_apply (v110 : FVec Ideal S64x256 .f32) (a : Fin 4) (j : Fin 256) :
    k0_pay19 (F := Ideal) v110 (ix2 a j) = v110 (ix2 (⟨48 + a.val, by omega⟩ : Fin 64) j) := by
  unfold k0_pay19; simp only [shapeCast_self]; exact slice4_apply _ 48 (by omega) _ a j

/-- Rows 52..55. -/
theorem pay20_apply (v110 : FVec Ideal S64x256 .f32) (a : Fin 4) (j : Fin 256) :
    k0_pay20 (F := Ideal) v110 (ix2 a j) = v110 (ix2 (⟨52 + a.val, by omega⟩ : Fin 64) j) := by
  unfold k0_pay20; simp only [shapeCast_self]; exact slice4_apply _ 52 (by omega) _ a j

/-- Rows 56..59 (carried on, not yet cast). -/
theorem pay21_apply (v110 : FVec Ideal S64x256 .f32) (a : Fin 4) (j : Fin 256) :
    k0_pay21 (F := Ideal) v110 (ix2 a j) = v110 (ix2 (⟨56 + a.val, by omega⟩ : Fin 64) j) := by
  unfold k0_pay21; exact slice4_apply _ 56 (by omega) _ a j

/-- The carried rows 56..59, cast to their own shape: unchanged. -/
theorem pay22_apply (v167 : FVec Ideal S4x256 .f32) (a : Fin 4) (j : Fin 256) :
    k0_pay22 (F := Ideal) v167 (ix2 a j) = v167 (ix2 a j) := by
  unfold k0_pay22; simp only [shapeCast_self]

/-- Rows 60..63. -/
theorem pay23_apply (v110 : FVec Ideal S64x256 .f32) (a : Fin 4) (j : Fin 256) :
    k0_pay23 (F := Ideal) v110 (ix2 a j) = v110 (ix2 (⟨60 + a.val, by omega⟩ : Fin 64) j) := by
  unfold k0_pay23; simp only [shapeCast_self]; exact slice4_apply _ 60 (by omega) _ a j

end Cert.Syndrome.Pay

end
-- ==== Proof.KMath.lean ====
/-
  The kernel body's payloads, fed with what the region finds, are the specification.

  At grid point t the body stores, for row q of its block and column j, the mixing step applied to the
  node's entry, the scaled mask bit, and the second layer of the normalised ramped first layer. The
  block's row q is row 6144 t + q of the arrays, whose graph is 4 t + q / 1536 (a block holds the 1536
  rows of each of four graphs); the first layer splits into the node's share, contracted against the
  transposed node columns of W1, and the graph's share, read from the table row of the row's graph.
  With every window's block read where the region finds it, the stored entry is the first spelling of
  the specification at row 6144 t + q. The two transposed weight copies and the graph shares the body
  prepares are likewise the transposes and the shares the specification names.
-/
import proofs.«141340_g42709154792033_cont_8to1c4_21_43_alg».proof.Proof.Payloads
import proofs.«141340_g42709154792033_cont_8to1c4_21_43_alg».proof.Proof.HostSide
import proofs.«141340_g42709154792033_cont_8to1c4_21_43_alg».proof.Proof.KTargets
import proofs.«141340_g42709154792033_cont_8to1c4_21_43_alg».proof.Proof.Spec

set_option maxRecDepth 16384

noncomputable section

open scoped BigOperators

namespace Cert.Syndrome.KM

open Cert.KernelIdeal Cert.KernelIdeal.Gen Idealize.ShloMosaic Idealize.ShloMosaic.ValueIdx
open Idealize.ShloMosaic.TcCoe Idealize.SL.Sem
open Cert.Syndrome Cert.Syndrome.K Cert.Syndrome.Host

variable (m : (ℓ : Loc nD τ sig) → Buf (Elt Ideal) ℓ) (c : Dev nD)

/-- Equal first terms give equal sums. -/
private theorem add_eq_of_left {a a' b : EReal} (h : a = a') : a + b = a' + b := by rw [h]

/-! ## The result block read at an index -/

/-- Entry (q, j) of point t's result block is entry (6144 t + q, j) of the result array. -/
theorem outBlock_apply (t : Fin cfg0.N) (q : Fin 6144) (j : Fin 256) :
    outBlock m c t (ix2 q j) = result m c (ix2 (row t q) j) := by
  obtain ⟨-, -, -, -, -, -, -, -, -, -, -, -, hw⟩ := idx_facts t
  unfold outBlock
  rw [View.read_apply]
  refine congrArg (result m c) ?_
  funext a
  apply Fin.ext
  match a with
  | ⟨0, _⟩ => show win0_12.index t (0 : Fin 2) * 6144 + 1 * q.val = 6144 * t.val + q.val; rw [hw.1]; omega
  | ⟨1, _⟩ => show win0_12.index t (1 : Fin 2) * 256 + 1 * j.val = j.val; rw [hw.2]; omega

/-! ## The two transposed weight copies -/

/-- The stored transpose of the first layer's node columns is the transpose the specification names. -/
theorem w1t_value (v64 : Vec Ideal S256x256 .f32)
    (hv : ∀ j k : Fin 256, v64 (ix2 j k) = aW1 m c (ix2 j (⟨k.val, by have := k.isLt; omega⟩ : Fin 384))) :
    (k0_pay2 (F := Ideal) v64 : S256x256.Idx → EReal) = w1t m c := by
  funext i
  obtain ⟨k, j, rfl⟩ : ∃ (k j : Fin 256), i = ix2 k j := ⟨i 0, i 1, eq_ix2 i⟩
  exact (Pay.pay2_apply v64 k j).trans (hv j k)

/-- The stored transpose of the second layer's matrix is the transpose the specification names. -/
theorem w2t_value (t : Fin cfg0.N) :
    (k0_pay3 (F := Ideal) (iblk m c 11 t) : S256x256.Idx → EReal) = w2t m c := by
  funext i
  obtain ⟨k, j, rfl⟩ : ∃ (k j : Fin 256), i = ix2 k j := ⟨i 0, i 1, eq_ix2 i⟩
  exact (Pay.pay3_apply (iblk m c 11 t) k j).trans (congrFun (iblk11_eq m c t) (ix2 j k))

/-! ## The stored block is the result array's block

  The two statements are first proved over arbitrary blocks that agree with the arrays at the entries the
  body reads, and then applied to the windows' blocks at point t. -/

/-- The pre-activation formed from a block whose row q is row 6144 t + q of the node features is the first
    spelling's pre-activation of that row: the node's share is contracted against the transposed node columns,
    and the graph's share is the table row of graph 4 t + q / 1536, the graph of row 6144 t + q. -/
theorem preAct_eq (t : Fin cfg0.N) (q : Fin 6144) (v3 : Vec Ideal S6144x256 .f32) (v8 : Vec Ideal S8x256 .f32)
    (h3 : ∀ k : Fin 256, v3 (ix2 q k) = aX m c (ix2 (row t q) k))
    (hv8 : ∀ (a : Fin 4) (j : Fin 256), v8 (ix2 (⟨a.val, by have := a.isLt; omega⟩ : Fin 8) j)
      = share m c (⟨4 * t.val + a.val, by have := t_lt t; have := a.isLt; omega⟩ : Fin 64) j) :
    Pay.preAct v3 (w1t m c) v8 q
      = hK (aX m c) (aP m c) (aH m c) (aWp m c) (aBp m c) (aW1 m c) (aB1 m c) (row t q) := by
  funext k
  have hq : q.val < 6144 := q.isLt
  have ht : t.val < 16 := t_lt t
  have h2 : v8 (ix2 (Pay.rowGraph q) k)
      = synK (aP m c) (aH m c) (aWp m c) (aBp m c) (aW1 m c) (aB1 m c) (graphOf (row t q)) k := by
    refine (hv8 (⟨q.val / 1536, by omega⟩ : Fin 4) k).trans ?_
    unfold share
    refine congrArg (fun b => synK (aP m c) (aH m c) (aWp m c) (aBp m c) (aW1 m c) (aB1 m c) b k) (Fin.ext ?_)
    show 4 * t.val + q.val / 1536 = (6144 * t.val + q.val) / 1536
    omega
  show (∑ k' : Fin 256, v3 (ix2 q k') * w1t m c (ix2 k' k)) + v8 (ix2 (Pay.rowGraph q) k) = _
  rw [h2]
  refine add_eq_of_left (Finset.sum_congr rfl fun k' _ => ?_)
  rw [h3]
  rfl

/-- The mixing step over blocks that agree with the arrays at the entries it reads. -/
theorem block_value_of (t : Fin cfg0.N) (q : Fin 6144) (j : Fin 256)
    (v3 : Vec Ideal S6144x256 .f32) (v41 v45 v53 : Vec Ideal S1x256 .f32) (v57 : Vec Ideal S6144x1 .f32)
    (v8 : Vec Ideal S8x256 .f32)
    (h3 : ∀ k : Fin 256, v3 (ix2 q k) = aX m c (ix2 (row t q) k))
    (h41 : ∀ k : Fin 256, v41 (ix2 (0 : Fin 1) k) = aGamma m c (ix1 k))
    (h45 : ∀ k : Fin 256, v45 (ix2 (0 : Fin 1) k) = aBeta m c (ix1 k))
    (h53 : ∀ k : Fin 256, v53 (ix2 (0 : Fin 1) k) = aB2 m c (ix1 k))
    (h57 : v57 (ix2 q (0 : Fin 1)) = bit (aMask m c (ix1 (row t q))) * aS m c)
    (hv8 : ∀ (a : Fin 4) (j : Fin 256), v8 (ix2 (⟨a.val, by have := a.isLt; omega⟩ : Fin 8) j)
      = share m c (⟨4 * t.val + a.val, by have := t_lt t; have := a.isLt; omega⟩ : Fin 64) j) :
    k0_pay1 (F := Ideal) v3 (k0_pay24 (F := Ideal) v3 (w1t m c) v8) v41 v45 (w2t m c) v53 v57 (ix2 q j)
      = result m c (ix2 (row t q) j) := by
  have h40 : ∀ k : Fin 256, k0_pay24 (F := Ideal) v3 (w1t m c) v8 (ix2 q k)
      = nrmK (dev sumK (hK (aX m c) (aP m c) (aH m c) (aWp m c) (aBp m c) (aW1 m c) (aB1 m c) (row t q)) k)
          (var sumK (hK (aX m c) (aP m c) (aH m c) (aWp m c) (aBp m c) (aW1 m c) (aB1 m c) (row t q)) + eps) :=
    fun k => by rw [Pay.pay24_apply, preAct_eq m c t q v3 v8 h3 hv8]
  have hs : (∑ k : Fin 256, max (k0_pay24 (F := Ideal) v3 (w1t m c) v8 (ix2 q k) * v41 (ix2 (0 : Fin 1) k)
        + v45 (ix2 (0 : Fin 1) k)) zero * w2t m c (ix2 k j))
      = ∑ k : Fin 256, act sumK nrmK (aGamma m c) (aBeta m c)
          (hK (aX m c) (aP m c) (aH m c) (aWp m c) (aBp m c) (aW1 m c) (aB1 m c) (row t q)) k * aW2 m c (ix2 j k) :=
    Finset.sum_congr rfl fun k _ => by rw [h40, h41, h45]; rfl
  rw [Pay.pay1_apply, hs, h3, h57, h53]
  rfl

/-- Entry (q, j) of what the body stores at point t is entry (6144 t + q, j) of the result array, provided
    the first four rows of the table block it reads hold the graph shares of graphs 4 t … 4 t + 3. -/
theorem block_value (t : Fin cfg0.N) (v8 : Vec Ideal S8x256 .f32)
    (hv8 : ∀ (a : Fin 4) (j : Fin 256), v8 (ix2 (⟨a.val, by have := a.isLt; omega⟩ : Fin 8) j)
      = share m c (⟨4 * t.val + a.val, by have := t_lt t; have := a.isLt; omega⟩ : Fin 64) j)
    (q : Fin 6144) (j : Fin 256) :
    k0_pay1 (F := Ideal) (iblk m c 6 t) (k0_pay24 (F := Ideal) (iblk m c 6 t) (w1t m c) v8) (iblk m c 8 t) (iblk m c 9 t)
        (w2t m c) (iblk m c 10 t) (iblk m c 7 t) (ix2 q j)
      = result m c (ix2 (row t q) j) :=
  block_value_of m c t q j (iblk m c 6 t) (iblk m c 8 t) (iblk m c 9 t) (iblk m c 10 t) (iblk m c 7 t) v8
    (fun k => iblk6_apply m c t q k)
    (fun k => (congrFun (iblk8_eq m c t) (ix2 (0 : Fin 1) k)).trans (v6_apply m c k))
    (fun k => (congrFun (iblk9_eq m c t) (ix2 (0 : Fin 1) k)).trans (v7_apply m c k))
    (fun k => (congrFun (iblk10_eq m c t) (ix2 (0 : Fin 1) k)).trans (v8_apply m c k))
    ((iblk7_apply m c t q).trans (v3_apply m c (row t q)))
    hv8

/-- The same, as an equality of blocks: what the body stores at point t is the result array's block. -/
theorem block_value_eq (t : Fin cfg0.N) (v8 : Vec Ideal S8x256 .f32)
    (hv8 : ∀ (a : Fin 4) (j : Fin 256), v8 (ix2 (⟨a.val, by have := a.isLt; omega⟩ : Fin 8) j)
      = share m c (⟨4 * t.val + a.val, by have := t_lt t; have := a.isLt; omega⟩ : Fin 64) j) :
    (k0_pay1 (F := Ideal) (iblk m c 6 t) (k0_pay24 (F := Ideal) (iblk m c 6 t) (w1t m c) v8) (iblk m c 8 t) (iblk m c 9 t)
        (w2t m c) (iblk m c 10 t) (iblk m c 7 t) : S6144x256.Idx → EReal)
      = outBlock m c t := by
  funext i
  obtain ⟨q, j, rfl⟩ : ∃ (q : Fin 6144) (j : Fin 256), i = ix2 q j := ⟨i 0, i 1, eq_ix2 i⟩
  rw [outBlock_apply]
  exact block_value m c t v8 hv8 q j

/-! ## The graph shares the body prepares -/

/-- The graph share over blocks that agree with the arrays at the entries it reads. -/
theorem share_value_of (b : Fin 64) (j : Fin 256)
    (v74 : Vec Ideal S64x1024 .f32) (v90 : Vec Ideal S512x1024 .f32) (v99 : Vec Ideal S128x512 .f32)
    (v101 : Vec Ideal S1x128 .f32) (v105 : Vec Ideal S256x128 .f32) (v107 : Vec Ideal S1x256 .f32)
    (h74 : (v74 : S64x1024.Idx → EReal) = aP m c) (h90 : (v90 : S512x1024.Idx → EReal) = aH m c)
    (h99 : ∀ (k : Fin 128) (c' : Fin 512), v99 (ix2 k c') = aWp m c (ix2 k c'))
    (h101 : ∀ k : Fin 128, v101 (ix2 (0 : Fin 1) k) = aBp m c (ix1 k))
    (h105 : ∀ (j : Fin 256) (k : Fin 128),
      v105 (ix2 j k) = aW1 m c (ix2 j (⟨256 + k.val, by have := k.isLt; omega⟩ : Fin 384)))
    (h107 : ∀ j : Fin 256, v107 (ix2 (0 : Fin 1) j) = aB1 m c (ix1 j)) :
    k0_pay5 (F := Ideal) (k0_pay4 (F := Ideal) v74 v90) v99 v101 v105 v107 (ix2 b j) = share m c b j := by
  have h98 : ∀ c' : Fin 512, k0_pay4 (F := Ideal) v74 v90 (ix2 b c') = prob (aP m c) (aH m c) b c' := fun c' =>
    (Pay.pay4_apply v74 v90 b c').trans
      (congrArg₂ (fun (p : Arr2 64 1024) (H : Arr2 512 1024) => prob p H b c') h74 h90)
  have hk : ∀ k : Fin 128,
      ((∑ c' : Fin 512, k0_pay4 (F := Ideal) v74 v90 (ix2 b c') * v99 (ix2 k c')) + v101 (ix2 (0 : Fin 1) k))
          * v105 (ix2 j k)
        = feat (aP m c) (aH m c) (aWp m c) (aBp m c) b k
          * aW1 m c (ix2 j (⟨256 + k.val, by have := k.isLt; omega⟩ : Fin 384)) := fun k => by
    have hs : (∑ c' : Fin 512, k0_pay4 (F := Ideal) v74 v90 (ix2 b c') * v99 (ix2 k c'))
        = ∑ c' : Fin 512, prob (aP m c) (aH m c) b c' * aWp m c (ix2 k c') :=
      Finset.sum_congr rfl fun c' _ => by rw [h98, h99]
    rw [hs, h101, h105]
    rfl
  rw [Pay.pay5_apply, h107]
  exact add_eq_of_left (Finset.sum_congr rfl fun k _ => hk k)

/-- Entry (b, j) of the graph shares the body computes from the whole-array windows (the same at every point)
    is the specification's graph share, provided the block of W1 it reads holds W1's last 128 columns. -/
theorem share_value (t : Fin cfg0.N) (v105 : Vec Ideal S256x128 .f32)
    (hv : ∀ (j : Fin 256) (k : Fin 128),
      v105 (ix2 j k) = aW1 m c (ix2 j (⟨256 + k.val, by have := k.isLt; omega⟩ : Fin 384)))
    (b : Fin 64) (j : Fin 256) :
    k0_pay5 (F := Ideal) (k0_pay4 (F := Ideal) (iblk m c 0 t) (iblk m c 1 t)) (iblk m c 2 t) (iblk m c 3 t) v105
        (iblk m c 5 t) (ix2 b j)
      = share m c b j :=
  share_value_of m c b j (iblk m c 0 t) (iblk m c 1 t) (iblk m c 2 t) (iblk m c 3 t) v105 (iblk m c 5 t)
    (iblk0_eq m c t) (iblk1_eq m c t)
    (fun k c' => congrFun (iblk2_eq m c t) (ix2 k c'))
    (fun k => (congrFun (iblk3_eq m c t) (ix2 (0 : Fin 1) k)).trans (v4_apply m c k))
    hv
    (fun j => (congrFun (iblk5_eq m c t) (ix2 (0 : Fin 1) j)).trans (v5_apply m c j))

end Cert.Syndrome.KM

end
-- ==== Proof.KValueRest.lean ====
/-
  At a grid point other than 0, the piece the body stores into the result block reads back as the
  specification's block.

  At such a point the body's branch is skipped: it loads the point's node rows, mask weights and layer
  parameters, the two kept transposes, and eight rows of the kept table starting at row 8·t, and stores one
  piece that covers the whole result block. Reading the block back therefore gives that piece's payload,
  whatever the block held before. Each whole-buffer load reads the buffer's contents; the table load reads
  rows 8·t … 8·t + 7 of the table, of which the first four are, by what is required of the table, the graph
  shares of graphs 4·t … 4·t + 3. With those rows in place the payload is the specification's block.
-/
import proofs.«141340_g42709154792033_cont_8to1c4_21_43_alg».proof.Proof.KAt
import proofs.«141340_g42709154792033_cont_8to1c4_21_43_alg».proof.Proof.KMath

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Cert.Syndrome.K Cert.Syndrome.Host

variable (m : (ℓ : Loc nD τ sig) → Buf (Elt Ideal) ℓ) (c : Dev nD)

/-- The two zero offsets, however spelt, are the zero function. -/
theorem hz : (![0, 0] : Fin 2 → Nat) = fun _ => 0 := funext fun a => by fin_cases a <;> rfl

/-! ## Reading the three kept buffers

  A kept buffer is a whole buffer, so what is read through it of the raw contents that read X is X. -/

theorem read_table (h : tableM.IsWhole) (X : Vec Ideal S128x256 .f32) :
    View.read (Elt Ideal) (View.whole cc0_scratch0) (h.unread X) = X := h.read_unread X
theorem read_w1t (h : w1tM.IsWhole) (X : Vec Ideal S256x256 .f32) :
    View.read (Elt Ideal) (View.whole cc0_scratch1) (h.unread X) = X := h.read_unread X
theorem read_w2t (h : w2tM.IsWhole) (X : Vec Ideal S256x256 .f32) :
    View.read (Elt Ideal) (View.whole cc0_scratch2) (h.unread X) = X := h.read_unread X

/-! ## The eight table rows a later point loads -/

/-- Over the 16 grid points, a point's one grid coordinate is the point's number. -/
theorem coord_eq : ∀ t : Fin cfg0.N, (grid0.coords t 0).val = t.val :=
  (by decide +kernel : ∀ t : Fin grid0.N, (grid0.coords t 0).val = t.val)

/-- The load of 8 rows of the table starting at row 8·(grid coordinate) reads, at (a, j), the table's
    entry (8·(grid coordinate) + a, j). -/
theorem table_rows (T : Vec Ideal S128x256 .f32) (i : grid0.Coords) (a : Fin 8) (j : Fin 256) :
    View.ld T (Rect.unit (s := S128x256) (k0_off1 i) S8x256.size (k0_off1_inb i)) (ix2 a j)
      = T (ix2 (⟨8 * (i 0).val + a.val, by have h16 : (i 0).val < 16 := (i 0).isLt; omega⟩ : Fin 128) j) := by
  show T _ = T _
  refine congrArg T (funext fun ax => Fin.ext ?_)
  match ax with
  | ⟨0, _⟩ =>
    show k0_off1 i 0 + 1 * a.val = 8 * (i 0).val + a.val
    rw [k0_off1_eq]
    show 8 * (i 0).val + 1 * a.val = 8 * (i 0).val + a.val
    omega
  | ⟨1, _⟩ =>
    show k0_off1 i 1 + 1 * j.val = j.val
    rw [k0_off1_eq]
    show 0 + 1 * j.val = j.val
    omega

/-! ## The stored block at a later point -/

/-- At a point other than 0 the body stores one piece, the whole result block, so what the staging buffer reads
    afterwards is that piece's payload, whatever lay beneath: the mixing step over the point's own blocks, the two kept
    transposes, and the eight table rows starting at row 8·t. Rows 8·t … 8·t + 3 of a table that meets its requirement
    are the graph shares of graphs 4·t … 4·t + 3, which is what makes the payload the specification's block. -/
theorem rest_out
    (t : Fin cfg0.N) (h0 : ¬t.val = 0) (T : Vec Ideal S128x256 .f32) (hT : TableOK m c T) (f) :
    (ms12 t).view.read (Elt Ideal) ((ms12 t).view.writes (Elt Ideal) f (restRun m c t h0 T).1) = outBlock m c t := by
  unfold restRun runRest
  dsimp only
  sl_unfold_run_names
  rw [View.read_writes_eq_canon _ _ _
    (fun y => ⟨_, List.mem_singleton_self _, View.mem_set_unit_zero hz inb_S6144x256_S6144x256_0_0 y⟩)]
  rw [View.canon_unit_zero hz]
  simp only [View.readAt_eq_ld, Memref.IsWhole.read_unread, read_table, read_w1t, read_w2t]
  simp only [View.ld_unit_zero (S := S6144x256) hz, View.ld_unit_zero (S := S256x256) hz,
    View.ld_unit_zero (S := S1x256) hz, View.ld_unit_zero (S := S6144x1) hz]
  refine Cert.Syndrome.KM.block_value_eq m c t _ fun a j => ?_
  refine (table_rows T (grid0.coords t) ⟨a.val, by have := a.isLt; omega⟩ j).trans ?_
  have hs := hT ⟨t.val, t_lt t⟩ a j
  refine Eq.trans (congrArg (fun r : Fin 128 => T (ix2 r j)) (Fin.ext ?_)) hs
  show 8 * (grid0.coords t 0).val + a.val = 8 * t.val + a.val
  rw [coord_eq]

end Cert.KernelIdeal.Hand

end
-- ==== Proof.KValueFirst.lean ====
/-
  The values of what the body stores at grid point 0.

  The two transposes are each stored as one whole piece: the transpose of a load of the first 256 columns
  of W1, resp. of W2. The table is stored as 16 pieces of 4 rows; the piece at rows 8s … 8s+3 is rows
  4s … 4s+3 of the 64 x 256 array of graph shares, so all pieces agree with ONE row function (row 8s + a,
  a < 4, is the share of graph 4s + a), and any row some piece covers reads that function whatever the table
  held before. The result block's piece is the row computation on the point's blocks, the two transposes just
  stored, and the 8 table rows 0 … 7 read back, of which the computation uses rows 0 … 3 only.
-/
import proofs.«141340_g42709154792033_cont_8to1c4_21_43_alg».proof.Proof.KAt
import proofs.«141340_g42709154792033_cont_8to1c4_21_43_alg».proof.Proof.KMath
import proofs.«141340_g42709154792033_cont_8to1c4_21_43_alg».proof.Proof.KValueRest
import Idealize.ShloMosaic.Lib.Writes

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.SL.Sem
open Cert.Syndrome Cert.Syndrome.K Cert.Syndrome.Host

variable (m : (ℓ : Loc nD τ sig) → Buf (Elt Ideal) ℓ) (c : Dev nD)

/-- The zero offsets of a rank-2 rectangle. -/
theorem zero2 : (![0, 0] : Fin 2 → ℕ) = fun _ => 0 := by funext a; fin_cases a <;> rfl

/-- A load of a whole buffer through the full rectangle returns what the buffer holds. -/
theorem load_whole {S : Shape} (M : Memref sig .tc .vmem S .f32) (hM : M.IsWhole) (x : Vec Ideal S .f32)
    {off : Fin S.rank → ℕ} (h : off = fun _ => 0) (inb : ∀ a, off a + S.size a ≤ S.size a) :
    View.readAt (Elt Ideal) M.view (Rect.unit off S.size inb).toLoadRect (hM.unread x) = x := by
  rw [View.readAt_eq_ld, hM.read_unread, View.ld_unit_zero h]

/-- One whole piece, read back, is its payload, whatever lay beneath. -/
theorem read_single {S : Shape} (v : View sig .tc .vmem S .f32) (f : v.ty.Contents (Elt Ideal)) {off : Fin S.rank → ℕ}
    (h : off = fun _ => 0) (inb : ∀ a, off a + S.size a ≤ S.size a) (w : S.Idx → EReal) :
    v.read (Elt Ideal) (v.writes (Elt Ideal) f [(⟨Rect.unit off S.size inb, w⟩ : View.Piece (Elt Ideal) S .f32)]) = w := by
  rw [View.read_writes_eq_canon _ _ _ (fun y => ⟨_, List.mem_singleton_self _, View.mem_set_unit_zero h inb y⟩),
    View.canon_unit_zero h]

/-- A load through a unit-stride rectangle of a rank-2 array, read at a position, is the array at offset plus position. -/
theorem ld_unit2 {d : Fin 2 → ℕ} (X : (⟨2, d⟩ : Shape).Idx → Elt Ideal .f32) {off size : Fin 2 → ℕ}
    (inb : ∀ a, off a + size a ≤ (⟨2, d⟩ : Shape).size a) (x : (Rect.unit (s := ⟨2, d⟩) off size inb).shape.Idx)
    (y : (⟨2, d⟩ : Shape).Idx) (h0 : (y 0).val = off 0 + (x 0).val) (h1 : (y 1).val = off 1 + (x 1).val) :
    View.ld (Val := Elt Ideal) X (Rect.unit (s := ⟨2, d⟩) off size inb) x = X y := by
  show X ((Rect.unit (s := ⟨2, d⟩) off size inb).idx x) = X y
  exact congrArg X (funext fun a => Fin.ext (by
    match a with
    | ⟨0, _⟩ => show off 0 + 1 * (x 0).val = (y 0).val; omega
    | ⟨1, _⟩ => show off 1 + 1 * (x 1).val = (y 1).val; omega))

/-- The load of the first 256 columns of the W1 block is W1 there. -/
theorem w1lo (t : Fin cfg0.N) (j k : Fin 256) :
    View.readAt (Elt Ideal) (ms4 t).view (Rect.unit (s := S256x384) ![0, 0] S256x256.size inb_S256x384_S256x256_0_0).toLoadRect ((hs4 t).unread (iblk m c 4 t)) (ix2 j k)
      = aW1 m c (ix2 j (⟨k.val, by have := k.isLt; omega⟩ : Fin 384)) := by
  rw [View.readAt_eq_ld, (hs4 t).read_unread, iblk4_eq m c t]
  exact ld_unit2 _ _ (ix2 j k) _ (by show j.val = 0 + j.val; omega) (by show k.val = 0 + k.val; omega)

/-- The load of the last 128 columns of the W1 block is W1 there. -/
theorem w1hi (t : Fin cfg0.N) (j : Fin 256) (k : Fin 128) :
    View.readAt (Elt Ideal) (ms4 t).view (Rect.unit (s := S256x384) ![0, 256] S256x128.size inb_S256x384_S256x128_0_256).toLoadRect ((hs4 t).unread (iblk m c 4 t)) (ix2 j k)
      = aW1 m c (ix2 j (⟨256 + k.val, by have := k.isLt; omega⟩ : Fin 384)) := by
  rw [View.readAt_eq_ld, (hs4 t).read_unread, iblk4_eq m c t]
  exact ld_unit2 _ _ (ix2 j k) _ (by show j.val = 0 + j.val; omega) rfl

/-! ## The loads of whole blocks, and the array of graph shares the body computes at point 0 -/

abbrev L0 (t : Fin cfg0.N) : Vec Ideal S64x1024 .f32 :=
  View.readAt (Elt Ideal) (ms0 t).view (Rect.unit (s := S64x1024) ![0, 0] S64x1024.size inb_S64x1024_S64x1024_0_0).toLoadRect ((hs0 t).unread (iblk m c 0 t))
theorem L0_eq (t : Fin cfg0.N) : L0 m c t = iblk m c 0 t := load_whole _ _ _ zero2 _
abbrev L1 (t : Fin cfg0.N) : Vec Ideal S512x1024 .f32 :=
  View.readAt (Elt Ideal) (ms1 t).view (Rect.unit (s := S512x1024) ![0, 0] S512x1024.size inb_S512x1024_S512x1024_0_0).toLoadRect ((hs1 t).unread (iblk m c 1 t))
theorem L1_eq (t : Fin cfg0.N) : L1 m c t = iblk m c 1 t := load_whole _ _ _ zero2 _
abbrev L2 (t : Fin cfg0.N) : Vec Ideal S128x512 .f32 :=
  View.readAt (Elt Ideal) (ms2 t).view (Rect.unit (s := S128x512) ![0, 0] S128x512.size inb_S128x512_S128x512_0_0).toLoadRect ((hs2 t).unread (iblk m c 2 t))
theorem L2_eq (t : Fin cfg0.N) : L2 m c t = iblk m c 2 t := load_whole _ _ _ zero2 _
abbrev L3 (t : Fin cfg0.N) : Vec Ideal S1x128 .f32 :=
  View.readAt (Elt Ideal) (ms3 t).view (Rect.unit (s := S1x128) ![0, 0] S1x128.size inb_S1x128_S1x128_0_0).toLoadRect ((hs3 t).unread (iblk m c 3 t))
theorem L3_eq (t : Fin cfg0.N) : L3 m c t = iblk m c 3 t := load_whole _ _ _ zero2 _
abbrev L5 (t : Fin cfg0.N) : Vec Ideal S1x256 .f32 :=
  View.readAt (Elt Ideal) (ms5 t).view (Rect.unit (s := S1x256) ![0, 0] S1x256.size inb_S1x256_S1x256_0_0).toLoadRect ((hs5 t).unread (iblk m c 5 t))
theorem L5_eq (t : Fin cfg0.N) : L5 m c t = iblk m c 5 t := load_whole _ _ _ zero2 _
abbrev L6 (t : Fin cfg0.N) : Vec Ideal S6144x256 .f32 :=
  View.readAt (Elt Ideal) (ms6 t).view (Rect.unit (s := S6144x256) ![0, 0] S6144x256.size inb_S6144x256_S6144x256_0_0).toLoadRect ((hs6 t).unread (iblk m c 6 t))
theorem L6_eq (t : Fin cfg0.N) : L6 m c t = iblk m c 6 t := load_whole _ _ _ zero2 _
abbrev L7 (t : Fin cfg0.N) : Vec Ideal S6144x1 .f32 :=
  View.readAt (Elt Ideal) (ms7 t).view (Rect.unit (s := S6144x1) ![0, 0] S6144x1.size inb_S6144x1_S6144x1_0_0).toLoadRect ((hs7 t).unread (iblk m c 7 t))
theorem L7_eq (t : Fin cfg0.N) : L7 m c t = iblk m c 7 t := load_whole _ _ _ zero2 _
abbrev L8 (t : Fin cfg0.N) : Vec Ideal S1x256 .f32 :=
  View.readAt (Elt Ideal) (ms8 t).view (Rect.unit (s := S1x256) ![0, 0] S1x256.size inb_S1x256_S1x256_0_0).toLoadRect ((hs8 t).unread (iblk m c 8 t))
theorem L8_eq (t : Fin cfg0.N) : L8 m c t = iblk m c 8 t := load_whole _ _ _ zero2 _
abbrev L9 (t : Fin cfg0.N) : Vec Ideal S1x256 .f32 :=
  View.readAt (Elt Ideal) (ms9 t).view (Rect.unit (s := S1x256) ![0, 0] S1x256.size inb_S1x256_S1x256_0_0).toLoadRect ((hs9 t).unread (iblk m c 9 t))
theorem L9_eq (t : Fin cfg0.N) : L9 m c t = iblk m c 9 t := load_whole _ _ _ zero2 _
abbrev L10 (t : Fin cfg0.N) : Vec Ideal S1x256 .f32 :=
  View.readAt (Elt Ideal) (ms10 t).view (Rect.unit (s := S1x256) ![0, 0] S1x256.size inb_S1x256_S1x256_0_0).toLoadRect ((hs10 t).unread (iblk m c 10 t))
theorem L10_eq (t : Fin cfg0.N) : L10 m c t = iblk m c 10 t := load_whole _ _ _ zero2 _
abbrev L11 (t : Fin cfg0.N) : Vec Ideal S256x256 .f32 :=
  View.readAt (Elt Ideal) (ms11 t).view (Rect.unit (s := S256x256) ![0, 0] S256x256.size inb_S256x256_S256x256_0_0).toLoadRect ((hs11 t).unread (iblk m c 11 t))
theorem L11_eq (t : Fin cfg0.N) : L11 m c t = iblk m c 11 t := load_whole _ _ _ zero2 _

/-- The load of the last 128 columns of the W1 block. -/
abbrev L4b (t : Fin cfg0.N) : Vec Ideal S256x128 .f32 :=
  View.readAt (Elt Ideal) (ms4 t).view (Rect.unit (s := S256x384) ![0, 256] S256x128.size inb_S256x384_S256x128_0_256).toLoadRect ((hs4 t).unread (iblk m c 4 t))

/-- The 64 x 256 array the body computes at point 0 from the loads. -/
abbrev V110 (t : Fin cfg0.N) : FVec Ideal S64x256 .f32 :=
  k0_pay5 (F := Ideal) (k0_pay4 (F := Ideal) (L0 m c t) (L1 m c t)) (L2 m c t) (L3 m c t) (L4b m c t) (L5 m c t)

/-- It is the array of graph shares. -/
theorem V110_apply (t : Fin cfg0.N) (b : Fin 64) (j : Fin 256) : V110 m c t (ix2 b j) = share m c b j := by
  show k0_pay5 (F := Ideal) (k0_pay4 (F := Ideal) (L0 m c t) (L1 m c t)) (L2 m c t) (L3 m c t) (L4b m c t) (L5 m c t) (ix2 b j) = _
  rw [L0_eq, L1_eq, L2_eq, L3_eq, L5_eq]
  exact KM.share_value m c t _ (w1hi m c t) b j

/-! ## The two transposes -/

/-- The load of the first 256 columns of the W1 block. -/
abbrev L4a (t : Fin cfg0.N) : Vec Ideal S256x256 .f32 :=
  View.readAt (Elt Ideal) (ms4 t).view (Rect.unit (s := S256x384) ![0, 0] S256x256.size inb_S256x384_S256x256_0_0).toLoadRect ((hs4 t).unread (iblk m c 4 t))

set_option maxHeartbeats 1600000 in
theorem firstRun_w1_eq (t : Fin cfg0.N) (h0 : t.val = 0) (d : Vec Ideal S128x256 .f32) :
    (firstRun m c t h0 d).2.2.1 = [(⟨Rect.unit (s := S256x256) ![0, 0] S256x256.size inb_S256x256_S256x256_0_0, k0_pay2 (F := Ideal) (L4a m c t)⟩ : View.Piece (Elt Ideal) S256x256 .f32)] := by
  unfold firstRun runFirst
  dsimp only
  sl_unfold_run_names
  rfl

set_option maxHeartbeats 1600000 in
theorem firstRun_w2_eq (t : Fin cfg0.N) (h0 : t.val = 0) (d : Vec Ideal S128x256 .f32) :
    (firstRun m c t h0 d).2.2.2.1 = [(⟨Rect.unit (s := S256x256) ![0, 0] S256x256.size inb_S256x256_S256x256_0_0, k0_pay3 (F := Ideal) (L11 m c t)⟩ : View.Piece (Elt Ideal) S256x256 .f32)] := by
  unfold firstRun runFirst
  dsimp only
  sl_unfold_run_names
  rfl

theorem first_w2t (t : Fin cfg0.N) (h0 : t.val = 0) (d : Vec Ideal S128x256 .f32) (f) :
    w2tM.view.read (Elt Ideal) (w2tM.view.writes (Elt Ideal) f (firstRun m c t h0 d).2.2.2.1) = w2t m c := by
  rw [firstRun_w2_eq m c t h0 d, read_single _ _ zero2, L11_eq]
  exact KM.w2t_value m c t

theorem first_w1t (t : Fin cfg0.N) (h0 : t.val = 0) (d : Vec Ideal S128x256 .f32) (f) :
    w1tM.view.read (Elt Ideal) (w1tM.view.writes (Elt Ideal) f (firstRun m c t h0 d).2.2.1) = w1t m c := by
  rw [firstRun_w1_eq m c t h0 d, read_single _ _ zero2]
  exact KM.w1t_value m c _ (w1lo m c t)

/-! ## The table -/

/-- The row function every stored piece of the table agrees with: row `8s + a` (`a < 4`) is the share of graph `4s + a`. -/
def tableG (i : S128x256.Idx) : EReal :=
  share m c (⟨(4 * ((i 0).val / 8) + (i 0).val % 8) % 64, Nat.mod_lt _ (by omega)⟩ : Fin 64) (i 1)

/-- A 4-row piece at rows `r = 2·o` whose payload is rows `o … o+3` of the shares agrees with the row function. -/
theorem piece_ok (o r : ℕ) (inb : ∀ a, (![r, 0] : Fin 2 → ℕ) a + S4x256.size a ≤ S128x256.size a) (w : S4x256.Idx → EReal)
    (ho : o + 4 ≤ 64)
    (hw : ∀ (a : Fin 4) (j : Fin 256), w (ix2 a j) = share m c (⟨o + a.val, by have := a.isLt; omega⟩ : Fin 64) j)
    (hro : r = 2 * o) (ho4 : o % 4 = 0) :
    ∀ x : (Rect.unit (s := S128x256) ![r, 0] S4x256.size inb).shape.Idx, w x = tableG m c ((Rect.unit (s := S128x256) ![r, 0] S4x256.size inb).emb x) := by
  intro x
  obtain ⟨a, j, rfl⟩ : ∃ (a : Fin 4) (j : Fin 256), x = ix2 a j := ⟨x 0, x 1, eq_ix2 x⟩
  rw [hw a j]
  unfold tableG
  have e0 : (((Rect.unit (s := S128x256) ![r, 0] S4x256.size inb).emb (ix2 a j)) 0).val = r + 1 * a.val := rfl
  have e1 : (((Rect.unit (s := S128x256) ![r, 0] S4x256.size inb).emb (ix2 a j)) 1) = j := Fin.ext (by show 0 + 1 * j.val = j.val; omega)
  rw [e1]
  refine congrArg (fun b => share m c b j) (Fin.ext ?_)
  show o + a.val = (4 * ((((Rect.unit (s := S128x256) ![r, 0] S4x256.size inb).emb (ix2 a j)) 0).val / 8) + (((Rect.unit (s := S128x256) ![r, 0] S4x256.size inb).emb (ix2 a j)) 0).val % 8) % 64
  rw [e0]
  have := a.isLt
  omega

set_option maxHeartbeats 1600000 in
/-- Every piece stored into the table at point 0 agrees with the row function. -/
theorem pieces_ok (t : Fin cfg0.N) (h0 : t.val = 0) (d : Vec Ideal S128x256 .f32) :
    ∀ p ∈ (firstRun m c t h0 d).2.1, ∀ x : p.1.shape.Idx, p.2 x = tableG m c (p.1.emb x) := by
  unfold firstRun runFirst
  dsimp only
  sl_unfold_words
  intro p hp
  simp only [List.mem_cons, List.mem_singleton, List.not_mem_nil, or_false] at hp
  rcases hp with rfl | rfl | rfl | rfl | rfl | rfl | rfl | rfl | rfl | rfl | rfl | rfl | rfl | rfl | rfl | rfl
  · refine piece_ok m c 60 120 inb_S128x256_S4x256_120_0 _ (by omega) ?_ rfl (by omega)
    intro a j
    exact (Pay.pay23_apply (V110 m c t) a j).trans (V110_apply m c t _ j)
  · refine piece_ok m c 56 112 inb_S128x256_S4x256_112_0 _ (by omega) ?_ rfl (by omega)
    intro a j
    dsimp only
    rw [Pay.pay22_apply, Pay.slice4_apply _ 56 (by omega)]
    exact V110_apply m c t _ j
  · refine piece_ok m c 52 104 inb_S128x256_S4x256_104_0 _ (by omega) ?_ rfl (by omega)
    intro a j
    exact (Pay.pay20_apply (V110 m c t) a j).trans (V110_apply m c t _ j)
  · refine piece_ok m c 48 96 inb_S128x256_S4x256_96_0 _ (by omega) ?_ rfl (by omega)
    intro a j
    exact (Pay.pay19_apply (V110 m c t) a j).trans (V110_apply m c t _ j)
  · refine piece_ok m c 44 88 inb_S128x256_S4x256_88_0 _ (by omega) ?_ rfl (by omega)
    intro a j
    exact (Pay.pay18_apply (V110 m c t) a j).trans (V110_apply m c t _ j)
  · refine piece_ok m c 40 80 inb_S128x256_S4x256_80_0 _ (by omega) ?_ rfl (by omega)
    intro a j
    exact (Pay.pay17_apply (V110 m c t) a j).trans (V110_apply m c t _ j)
  · refine piece_ok m c 36 72 inb_S128x256_S4x256_72_0 _ (by omega) ?_ rfl (by omega)
    intro a j
    exact (Pay.pay16_apply (V110 m c t) a j).trans (V110_apply m c t _ j)
  · refine piece_ok m c 32 64 inb_S128x256_S4x256_64_0 _ (by omega) ?_ rfl (by omega)
    intro a j
    exact (Pay.pay15_apply (V110 m c t) a j).trans (V110_apply m c t _ j)
  · refine piece_ok m c 28 56 inb_S128x256_S4x256_56_0 _ (by omega) ?_ rfl (by omega)
    intro a j
    exact (Pay.pay14_apply (V110 m c t) a j).trans (V110_apply m c t _ j)
  · refine piece_ok m c 24 48 inb_S128x256_S4x256_48_0 _ (by omega) ?_ rfl (by omega)
    intro a j
    exact (Pay.pay13_apply (V110 m c t) a j).trans (V110_apply m c t _ j)
  · refine piece_ok m c 20 40 inb_S128x256_S4x256_40_0 _ (by omega) ?_ rfl (by omega)
    intro a j
    exact (Pay.pay12_apply (k0_pay11 (k0_pay4 (L0 m c t) (L1 m c t)) (L2 m c t) (L3 m c t) (L4b m c t) (L5 m c t)) a j).trans ((Pay.pay11_apply (k0_pay4 (L0 m c t) (L1 m c t)) (L2 m c t) (L3 m c t) (L4b m c t) (L5 m c t) a j).trans (V110_apply m c t _ j))
  · refine piece_ok m c 16 32 inb_S128x256_S4x256_32_0 _ (by omega) ?_ rfl (by omega)
    intro a j
    exact (Pay.pay10_apply (k0_pay4 (L0 m c t) (L1 m c t)) (L2 m c t) (L3 m c t) (L4b m c t) (L5 m c t) a j).trans (V110_apply m c t _ j)
  · refine piece_ok m c 12 24 inb_S128x256_S4x256_24_0 _ (by omega) ?_ rfl (by omega)
    intro a j
    exact (Pay.pay9_apply (k0_pay4 (L0 m c t) (L1 m c t)) (L2 m c t) (L3 m c t) (L4b m c t) (L5 m c t) a j).trans (V110_apply m c t _ j)
  · refine piece_ok m c 8 16 inb_S128x256_S4x256_16_0 _ (by omega) ?_ rfl (by omega)
    intro a j
    exact (Pay.pay8_apply (k0_pay4 (L0 m c t) (L1 m c t)) (L2 m c t) (L3 m c t) (L4b m c t) (L5 m c t) a j).trans (V110_apply m c t _ j)
  · refine piece_ok m c 4 8 inb_S128x256_S4x256_8_0 _ (by omega) ?_ rfl (by omega)
    intro a j
    exact (Pay.pay7_apply (k0_pay4 (L0 m c t) (L1 m c t)) (L2 m c t) (L3 m c t) (L4b m c t) (L5 m c t) a j).trans (V110_apply m c t _ j)
  · refine piece_ok m c 0 0 inb_S128x256_S4x256_0_0 _ (by omega) ?_ rfl (by omega)
    intro a j
    exact (Pay.pay6_apply (k0_pay4 (L0 m c t) (L1 m c t)) (L2 m c t) (L3 m c t) (L4b m c t) (L5 m c t) a j).trans (V110_apply m c t _ j)

/-- A row inside a 4-row piece of the table lies in the piece's rectangle. -/
theorem mem_rows (r : ℕ) (inb : ∀ a, (![r, 0] : Fin 2 → ℕ) a + S4x256.size a ≤ S128x256.size a) (y0 : Fin 128) (j : Fin 256)
    (h : r ≤ y0.val ∧ y0.val < r + 4) :
    (ix2 y0 j : S128x256.Idx) ∈ (Rect.unit (s := S128x256) ![r, 0] S4x256.size inb).set := by
  rw [Rect.mem_set_unit]
  intro b
  match b with
  | ⟨0, _⟩ => exact ⟨h.1, h.2⟩
  | ⟨1, _⟩ => exact ⟨Nat.zero_le _, by show j.val < 0 + 256; have := j.isLt; omega⟩

set_option maxHeartbeats 1600000 in
/-- Row `8s + a` (`a < 4`) of the table is covered by one of the pieces stored at point 0. -/
theorem covered (t : Fin cfg0.N) (h0 : t.val = 0) (d : Vec Ideal S128x256 .f32) (s : Fin 16) (a : Fin 4) (j : Fin 256) :
    ∃ p ∈ (firstRun m c t h0 d).2.1, (ix2 (⟨8 * s.val + a.val, by have := s.isLt; have := a.isLt; omega⟩ : Fin 128) j : S128x256.Idx) ∈ p.1.set := by
  unfold firstRun runFirst
  dsimp only
  sl_unfold_words
  match s with
  | ⟨0, _⟩ => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), mem_rows 0 inb_S128x256_S4x256_0_0 _ j ⟨by show 0 ≤ 8 * 0 + a.val; omega, by show 8 * 0 + a.val < 0 + 4; have := a.isLt; omega⟩⟩
  | ⟨1, _⟩ => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_rows 8 inb_S128x256_S4x256_8_0 _ j ⟨by show 8 ≤ 8 * 1 + a.val; omega, by show 8 * 1 + a.val < 8 + 4; have := a.isLt; omega⟩⟩
  | ⟨2, _⟩ => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_rows 16 inb_S128x256_S4x256_16_0 _ j ⟨by show 16 ≤ 8 * 2 + a.val; omega, by show 8 * 2 + a.val < 16 + 4; have := a.isLt; omega⟩⟩
  | ⟨3, _⟩ => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_rows 24 inb_S128x256_S4x256_24_0 _ j ⟨by show 24 ≤ 8 * 3 + a.val; omega, by show 8 * 3 + a.val < 24 + 4; have := a.isLt; omega⟩⟩
  | ⟨4, _⟩ => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_rows 32 inb_S128x256_S4x256_32_0 _ j ⟨by show 32 ≤ 8 * 4 + a.val; omega, by show 8 * 4 + a.val < 32 + 4; have := a.isLt; omega⟩⟩
  | ⟨5, _⟩ => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_rows 40 inb_S128x256_S4x256_40_0 _ j ⟨by show 40 ≤ 8 * 5 + a.val; omega, by show 8 * 5 + a.val < 40 + 4; have := a.isLt; omega⟩⟩
  | ⟨6, _⟩ => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_rows 48 inb_S128x256_S4x256_48_0 _ j ⟨by show 48 ≤ 8 * 6 + a.val; omega, by show 8 * 6 + a.val < 48 + 4; have := a.isLt; omega⟩⟩
  | ⟨7, _⟩ => exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_rows 56 inb_S128x256_S4x256_56_0 _ j ⟨by show 56 ≤ 8 * 7 + a.val; omega, by show 8 * 7 + a.val < 56 + 4; have := a.isLt; omega⟩⟩
  | ⟨8, _⟩ => exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_rows 64 inb_S128x256_S4x256_64_0 _ j ⟨by show 64 ≤ 8 * 8 + a.val; omega, by show 8 * 8 + a.val < 64 + 4; have := a.isLt; omega⟩⟩
  | ⟨9, _⟩ => exact ⟨_, (List.mem_cons_of_mem _ (List.mem_cons_of_mem _ (List.mem_cons_of_mem _ (List.mem_cons_of_mem _ (List.mem_cons_of_mem _ (List.mem_cons_of_mem _ List.mem_cons_self)))))), mem_rows 72 inb_S128x256_S4x256_72_0 _ j ⟨by show 72 ≤ 8 * 9 + a.val; omega, by show 8 * 9 + a.val < 72 + 4; have := a.isLt; omega⟩⟩
  | ⟨10, _⟩ => exact ⟨_, (List.mem_cons_of_mem _ (List.mem_cons_of_mem _ (List.mem_cons_of_mem _ (List.mem_cons_of_mem _ (List.mem_cons_of_mem _ List.mem_cons_self))))), mem_rows 80 inb_S128x256_S4x256_80_0 _ j ⟨by show 80 ≤ 8 * 10 + a.val; omega, by show 8 * 10 + a.val < 80 + 4; have := a.isLt; omega⟩⟩
  | ⟨11, _⟩ => exact ⟨_, (List.mem_cons_of_mem _ (List.mem_cons_of_mem _ (List.mem_cons_of_mem _ (List.mem_cons_of_mem _ List.mem_cons_self)))), mem_rows 88 inb_S128x256_S4x256_88_0 _ j ⟨by show 88 ≤ 8 * 11 + a.val; omega, by show 8 * 11 + a.val < 88 + 4; have := a.isLt; omega⟩⟩
  | ⟨12, _⟩ => exact ⟨_, (List.mem_cons_of_mem _ (List.mem_cons_of_mem _ (List.mem_cons_of_mem _ List.mem_cons_self))), mem_rows 96 inb_S128x256_S4x256_96_0 _ j ⟨by show 96 ≤ 8 * 12 + a.val; omega, by show 8 * 12 + a.val < 96 + 4; have := a.isLt; omega⟩⟩
  | ⟨13, _⟩ => exact ⟨_, (List.mem_cons_of_mem _ (List.mem_cons_of_mem _ List.mem_cons_self)), mem_rows 104 inb_S128x256_S4x256_104_0 _ j ⟨by show 104 ≤ 8 * 13 + a.val; omega, by show 8 * 13 + a.val < 104 + 4; have := a.isLt; omega⟩⟩
  | ⟨14, _⟩ => exact ⟨_, (List.mem_cons_of_mem _ List.mem_cons_self), mem_rows 112 inb_S128x256_S4x256_112_0 _ j ⟨by show 112 ≤ 8 * 14 + a.val; omega, by show 8 * 14 + a.val < 112 + 4; have := a.isLt; omega⟩⟩
  | ⟨15, _⟩ => exact ⟨_, List.mem_cons_self, mem_rows 120 inb_S128x256_S4x256_120_0 _ j ⟨by show 120 ≤ 8 * 15 + a.val; omega, by show 8 * 15 + a.val < 120 + 4; have := a.isLt; omega⟩⟩
  | ⟨n + 16, h⟩ => exact absurd h (by omega)

/-- Row `8s + a` (`a < 4`) of the table after point 0 is the share of graph `4s + a`, whatever the table held. -/
theorem table_read (t : Fin cfg0.N) (h0 : t.val = 0) (d : Vec Ideal S128x256 .f32) (f) (s : Fin 16) (a : Fin 4) (j : Fin 256) :
    tableM.view.read (Elt Ideal) (tableM.view.writes (Elt Ideal) f (firstRun m c t h0 d).2.1)
        (ix2 (⟨8 * s.val + a.val, by have := s.isLt; have := a.isLt; omega⟩ : Fin 128) j)
      = share m c (⟨4 * s.val + a.val, by have := s.isLt; have := a.isLt; omega⟩ : Fin 64) j := by
  rw [View.read_writes_apply_of_pieces tableM.view f (tableG m c) _ (pieces_ok m c t h0 d) _ (covered m c t h0 d s a j)]
  unfold tableG
  refine congrArg (fun b => share m c b j) (Fin.ext ?_)
  show (4 * ((8 * s.val + a.val) / 8) + (8 * s.val + a.val) % 8) % 64 = 4 * s.val + a.val
  have := s.isLt
  have := a.isLt
  omega

theorem first_table (t : Fin cfg0.N) (h0 : t.val = 0) (d : Vec Ideal S128x256 .f32) (f) :
    TableOK m c (tableM.view.read (Elt Ideal) (tableM.view.writes (Elt Ideal) f (firstRun m c t h0 d).2.1)) :=
  fun s a j => table_read m c t h0 d f s a j

/-! ## The result block at point 0 -/

set_option maxHeartbeats 1600000 in
/-- The one piece stored into the result block at point 0: the row computation on the point's loads, the two
    transposes read back from what was just stored, and 8 rows of the table read back after its 16 stores. -/
theorem firstRun_out_eq (t : Fin cfg0.N) (h0 : t.val = 0) (d : Vec Ideal S128x256 .f32) :
    (firstRun m c t h0 d).1 = [(⟨Rect.unit (s := S6144x256) ![0, 0] S6144x256.size inb_S6144x256_S6144x256_0_0,
        k0_pay1 (F := Ideal) (L6 m c t)
          (k0_pay24 (F := Ideal) (L6 m c t)
            (w1tM.view.readCov (firstRun m c t h0 d).2.2.1 (Rect.unit (s := S256x256) ![0, 0] S256x256.size inb_S256x256_S256x256_0_0).toLoadRect)
            (View.readAt (Elt Ideal) tableM.view (Rect.unit (s := S128x256) (k0_off1 (grid0.coords t)) S8x256.size (k0_off1_inb (grid0.coords t))).toLoadRect
              (tableM.view.writes (Elt Ideal) ((Memref.isWhole_whole _ : tableM.IsWhole).unread d) (firstRun m c t h0 d).2.1)))
          (L8 m c t) (L9 m c t)
          (w2tM.view.readCov (firstRun m c t h0 d).2.2.2.1 (Rect.unit (s := S256x256) ![0, 0] S256x256.size inb_S256x256_S256x256_0_0).toLoadRect)
          (L10 m c t) (L7 m c t)⟩ : View.Piece (Elt Ideal) S6144x256 .f32)] := by
  unfold firstRun runFirst
  dsimp only
  sl_unfold_run_names
  rfl

/-- The row computation on blocks equal to the point's, the transposes, and table rows with the required first four. -/
theorem out_value (t : Fin cfg0.N) (X6 : Vec Ideal S6144x256 .f32) (X8 X9 X10 : Vec Ideal S1x256 .f32) (X7 : Vec Ideal S6144x1 .f32)
    (W1 W2 : Vec Ideal S256x256 .f32) (V8 : Vec Ideal S8x256 .f32)
    (h6 : X6 = iblk m c 6 t) (h8 : X8 = iblk m c 8 t) (h9 : X9 = iblk m c 9 t) (h10 : X10 = iblk m c 10 t) (h7 : X7 = iblk m c 7 t)
    (hW1 : W1 = w1t m c) (hW2 : W2 = w2t m c)
    (hv8 : ∀ (a : Fin 4) (j : Fin 256), V8 (ix2 (⟨a.val, by have := a.isLt; omega⟩ : Fin 8) j)
      = share m c (⟨4 * t.val + a.val, by have := t_lt t; have := a.isLt; omega⟩ : Fin 64) j) :
    (k0_pay1 (F := Ideal) X6 (k0_pay24 (F := Ideal) X6 W1 V8) X8 X9 W2 X10 X7 : S6144x256.Idx → EReal) = outBlock m c t := by
  subst h6 h8 h9 h10 h7 hW1 hW2
  exact KM.block_value_eq m c t V8 hv8

theorem first_out (t : Fin cfg0.N) (h0 : t.val = 0) (d : Vec Ideal S128x256 .f32) (f) :
    (ms12 t).view.read (Elt Ideal) ((ms12 t).view.writes (Elt Ideal) f (firstRun m c t h0 d).1) = outBlock m c t := by
  rw [firstRun_out_eq m c t h0 d, read_single _ _ zero2]
  refine out_value m c t _ _ _ _ _ _ _ _ (L6_eq m c t) (L8_eq m c t) (L9_eq m c t) (L10_eq m c t) (L7_eq m c t) ?_ ?_ ?_
  · rw [firstRun_w1_eq m c t h0 d, View.readCov_unit_zero _ zero2]
    exact KM.w1t_value m c _ (w1lo m c t)
  · rw [firstRun_w2_eq m c t h0 d, View.readCov_unit_zero _ zero2, L11_eq]
    exact KM.w2t_value m c t
  · intro a j
    rw [View.readAt_eq_ld, table_rows]
    refine (congrArg (tableM.view.read (Elt Ideal) (tableM.view.writes (Elt Ideal) _ (firstRun m c t h0 d).2.1))
      (show (ix2 (⟨8 * (grid0.coords t 0).val + a.val, by have := coord_eq t; have := a.isLt; omega⟩ : Fin 128) j : S128x256.Idx)
        = ix2 (⟨8 * (0 : Fin 16).val + a.val, by have := a.isLt; omega⟩ : Fin 128) j from by
          congr 1; exact Fin.ext (by show 8 * (grid0.coords t 0).val + a.val = 8 * 0 + a.val; rw [coord_eq t, h0]))).trans ?_
    refine (table_read m c t h0 d _ 0 a j).trans ?_
    exact congrArg (fun b => share m c b j) (Fin.ext (by show 4 * 0 + a.val = 4 * t.val + a.val; rw [h0]))

end Cert.KernelIdeal.Hand

end
-- ==== Proof.KFinal.lean ====
/-
  The idealized kernel's run, read at the arrays the claim names.

  What point t writes back is the result window's buffer after the body, which the proof data name as rows
  6144·t … 6144·t + 6143 of the specification's result; the 16 blocks cover the result array, so it ends
  equal to the specification's result. Every argument array either is an input window's array, which the
  pipeline never writes, or is no window's array and keeps what the region found, which is what the program
  was launched with.
-/
import proofs.«141340_g42709154792033_cont_8to1c4_21_43_alg».proof.Proof.KData
import proofs.«141340_g42709154792033_cont_8to1c4_21_43_alg».proof.Proof.KValueFirst
import proofs.«141340_g42709154792033_cont_8to1c4_21_43_alg».proof.Proof.KValueRest

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Syndrome.K

variable (m : (ℓ : Loc nD τ sig) → Buf (Elt Ideal) ℓ) (ρ : Dev nD → PrngReg)

/-- The stored pieces have the values the invariant and the proof data name. -/
theorem valueFacts (c : Dev nD) : ValueFacts m c :=
  ⟨first_out m c, first_table m c, first_w1t m c, first_w2t m c, rest_out m c⟩

/-- What point `t` writes back is the specification's block. -/
theorem flushed12 (c : Dev nD) (t : Fin cfg0.N) :
    (dats m 0 c).flushed 12 t = ((cfg0.win 12).blk t).view.read (Elt Ideal) (result m c) := by
  show (cfg0.win 12).cut (grid0.coords t) ((dats m 0 c).after 12 t) = _
  rw [after12]
  rfl

/-- The result array ends at the specification's result. -/
theorem final12 (c : Dev nD) : (dats m 0 c).arrAt 12 cfg0.N = result m c :=
  Cert.Syndrome.Host.final_of c (dats m 0 c) (result m c) (flushed12 m c)

/-- Every weakly fair execution terminates, the result array at the specification's result, the arguments unchanged. -/
theorem run_named : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 12).trans (final12 m c),
      ((h c).1 6).trans (((dats m 0 c).arrAt_in 6 rfl _).trans ((A_eq m c 6).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).1 4).trans (((dats m 0 c).arrAt_in 4 rfl _).trans ((A_eq m c 4).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 11).trans (((dats m 0 c).arrAt_in 11 rfl _).trans ((A_eq m c 11).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_main m ρ (valueFacts m))

/-- The frame of the idealized kernel: the same run with the result dropped. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_named m ρ)

end Cert.KernelIdeal.Hand

end
-- ==== Proof.RefIsGR.lean ====
/-
  The reference program's result is the second spelling of the specification.

  The reference is read one stage at a time. Each group of stages is identified, at explicit coordinates,
  with one function of the specification: the half-angle tanh of the clipped log-likelihood ratio, the
  soft violation probability of a check, the per-graph feature, the concatenated row, the first layer,
  the mean, deviation and variance of a row, the normalised ramp, the second layer, and the masked mix.
  The only places where coordinates are not copied are the reshape that sends node row r to graph
  r / 1536 and the concatenation, whose column k comes from the node's row for k < 256 and from the
  graph's feature at k - 256 otherwise.
-/
import proofs.«141340_g42709154792033_cont_8to1c4_21_43_alg».proof.Proof.Gen.ReferenceIdeal.Read
import proofs.«141340_g42709154792033_cont_8to1c4_21_43_alg».proof.Proof.Spec

noncomputable section

open scoped BigOperators

namespace Cert.Syndrome.Ref

open Idealize.ShloMosaic Idealize.ShloMosaic.ValueIdx Cert.ReferenceIdeal Cert.ReferenceIdeal.Read

variable (x0 : (⟨S98304x256, .f32⟩ : BufTy).Contents (Elt Ideal))
  (x1 : (⟨S64x1024, .f32⟩ : BufTy).Contents (Elt Ideal))
  (x2 : (⟨S512x1024, .f32⟩ : BufTy).Contents (Elt Ideal))
  (x3 : (⟨S98304, .i1⟩ : BufTy).Contents (Elt Ideal))
  (x4 : (⟨S128x512, .f32⟩ : BufTy).Contents (Elt Ideal))
  (x5 : (⟨S128, .f32⟩ : BufTy).Contents (Elt Ideal))
  (x6 : (⟨S256x384, .f32⟩ : BufTy).Contents (Elt Ideal))
  (x7 x8 x9 : (⟨S256, .f32⟩ : BufTy).Contents (Elt Ideal))
  (x10 : (⟨S256x256, .f32⟩ : BufTy).Contents (Elt Ideal))
  (x11 : (⟨S256, .f32⟩ : BufTy).Contents (Elt Ideal))
  (x12 : (⟨S_, .f32⟩ : BufTy).Contents (Elt Ideal))

/-- Equal first terms give equal sums. -/
private theorem add_eq_of_left {a a' b : EReal} (h : a = a') : a + b = a' + b := by rw [h]

/-- Equal second terms give equal sums. -/
private theorem add_eq_of_right {a b b' : EReal} (h : b = b') : a + b = a + b' := by rw [h]

/-! ## The per-graph feature -/

/-- Stages 0 to 11: the half-angle tanh of the clipped log-likelihood ratio. -/
theorem v11_eq (b : Fin 64) (n : Fin 1024) :
    val_main_v11 (F := Ideal) x1 (ix2 b n) = th x1 b n := by
  rw [val_main_v11_apply, val_main_v10_apply, val_main_v9_apply, val_main_cst_4_apply, val_main_v8_apply,
    val_main_call0_v4_apply, val_main_call0_v3_apply, val_main_cst_3_apply, val_main_call0_v2_apply,
    val_main_call0_v1_apply, val_main_call0_v0_apply, val_main_cst_2_apply, val_main_v7_apply,
    val_main_v6_apply, val_main_v1_apply, val_main_v0_apply, val_main_cst_apply, val_main_v5_apply,
    val_main_v3_apply, val_main_v2_apply, val_main_cst_0_apply, val_main_v4_apply, val_main_cst_1_apply]
  rfl

/-- Stages 12 and 13: the parity sums against H. -/
theorem v13_eq (b : Fin 64) (c : Fin 512) :
    val_main_v13 (F := Ideal) x1 x2 (ix2 b c) = ∑ n : Fin 1024, th x1 b n * x2 (ix2 c n) := by
  rw [val_main_v13_apply]
  refine Finset.sum_congr rfl fun k _ => ?_
  have el : lidx_main_v13 (ix2 b c) k = ix2 b k :=
    funext fun a => by match a with | ⟨0, _⟩ => rfl | ⟨1, _⟩ => rfl
  have er : idx_main_v12 (ridx_main_v13 (ix2 b c) k) = ix2 c k :=
    funext fun a => by match a with | ⟨0, _⟩ => rfl | ⟨1, _⟩ => rfl
  rw [val_main_v12_apply, el, er, v11_eq]

/-- Stages 14 to 20: the soft probability that a check is violated. -/
theorem v20_eq (b : Fin 64) (c : Fin 512) :
    val_main_v20 (F := Ideal) x1 x2 (ix2 b c) = prob x1 x2 b c := by
  rw [val_main_v20_apply, val_main_v19_apply, val_main_cst_7_apply, val_main_v18_apply, val_main_v17_apply,
    val_main_cst_6_apply, val_main_v16_apply, val_main_v15_apply, val_main_v14_apply, val_main_cst_5_apply,
    v13_eq]
  rfl

/-- Stages 21 to 25: the affine map by Wp and bp. -/
theorem v25_eq (b : Fin 64) (k : Fin 128) :
    val_main_v25 (F := Ideal) x1 x2 x4 x5 (ix2 b k) = feat x1 x2 x4 x5 b k := by
  have e5 : idx_main_v23 (idx_main_v24 (ix2 b k)) = ix1 k :=
    funext fun a => by match a with | ⟨0, _⟩ => rfl
  rw [val_main_v25_apply, val_main_v24_apply, val_main_v23_apply, e5, val_main_v22_apply]
  show (∑ c : Fin 512, _) + _ = (∑ c : Fin 512, _) + _
  refine add_eq_of_left (Finset.sum_congr rfl fun c _ => ?_)
  have el : lidx_main_v22 (ix2 b k) c = ix2 b c :=
    funext fun a => by match a with | ⟨0, _⟩ => rfl | ⟨1, _⟩ => rfl
  have er : idx_main_v21 (ridx_main_v22 (ix2 b k) c) = ix2 k c :=
    funext fun a => by match a with | ⟨0, _⟩ => rfl | ⟨1, _⟩ => rfl
  rw [val_main_v21_apply, el, er, v20_eq]

/-! ## The concatenated row and the first layer -/

/-- Stages 26 to 28: the feature expanded to the 1536 rows of each graph; row r reads graph r / 1536. -/
theorem v28_eq (r : Fin 98304) (k : Fin 128) :
    val_main_v28 (F := Ideal) x1 x2 x4 x5 (ix2 r k) = feat x1 x2 x4 x5 (graphOf r) k := by
  have e : idx_main_v26 (idx_main_v27 (idx_main_v28 (ix2 r k))) = ix2 (graphOf r) k :=
    funext fun a => Fin.ext (by
      have hr : r.val < 98304 := r.isLt
      have hk : k.val < 128 := k.isLt
      match a with
      | ⟨0, _⟩ =>
        show (r.val * 128 + k.val) / 196608 = r.val / 1536
        omega
      | ⟨1, _⟩ =>
        show (r.val * 128 + k.val) % 128 = k.val
        omega)
  rw [val_main_v28_apply, val_main_v27_apply, val_main_v26_apply, e, v25_eq]

/-- Stage 29: the concatenation of the node's row with its graph's feature. -/
theorem v29_eq (r : Fin 98304) (k : Fin 384) :
    val_main_v29 (F := Ideal) x0 x1 x2 x4 x5 (ix2 r k) = fused x0 x1 x2 x4 x5 r k := by
  unfold val_main_v29 fused
  by_cases h : k.val < 256
  · rw [dif_pos h]
    exact concatenate_pair_apply_left (t := S98304x384) (s₁ := S98304x256) (s₂ := S98304x128) 1 x0
      (val_main_v28 (F := Ideal) x1 x2 x4 x5) _ (ix2 r k) rfl
      (ix2 r (⟨k.val, h⟩ : Fin 256)) (fun b => by match b with | ⟨0, _⟩ => rfl | ⟨1, _⟩ => rfl)
  · rw [dif_neg h]
    have hk : k.val < 384 := k.isLt
    refine (concatenate_pair_apply_right (t := S98304x384) (s₁ := S98304x256) (s₂ := S98304x128) 1 x0
      (val_main_v28 (F := Ideal) x1 x2 x4 x5) _ (ix2 r k) rfl rfl
      (ix2 r (⟨k.val - 256, by omega⟩ : Fin 128)) (fun b hb => by
        match b with
        | ⟨0, _⟩ => rfl
        | ⟨1, _⟩ => exact absurd rfl hb) ?_).trans (v28_eq x1 x2 x4 x5 r _)
    show k.val - 256 + 256 = k.val
    omega

/-- Stages 30 to 34: the first layer, all 384 columns contracted at once, plus b1. -/
theorem v34_eq (r : Fin 98304) (j : Fin 256) :
    val_main_v34 (F := Ideal) x0 x1 x2 x4 x5 x6 x7 (ix2 r j) = hR x0 x1 x2 x4 x5 x6 x7 r j := by
  have e7 : idx_main_v32 (idx_main_v33 (ix2 r j)) = ix1 j :=
    funext fun a => by match a with | ⟨0, _⟩ => rfl
  rw [val_main_v34_apply, val_main_v33_apply, val_main_v32_apply, e7, val_main_v31_apply]
  show (∑ k : Fin 384, _) + _ = (∑ k : Fin 384, _) + _
  refine add_eq_of_left (Finset.sum_congr rfl fun k _ => ?_)
  have el : lidx_main_v31 (ix2 r j) k = ix2 r k :=
    funext fun a => by match a with | ⟨0, _⟩ => rfl | ⟨1, _⟩ => rfl
  have er : idx_main_v30 (ridx_main_v31 (ix2 r j) k) = ix2 j k :=
    funext fun a => by match a with | ⟨0, _⟩ => rfl | ⟨1, _⟩ => rfl
  rw [val_main_v30_apply, el, er, v29_eq]

/-! ## Layer normalisation, ramp and second layer of one row -/

/-- Stage 35: the sum of a row of the first layer, started from zero. -/
theorem v35_eq (r : Fin 98304) :
    val_main_v35 (F := Ideal) x0 x1 x2 x4 x5 x6 x7 (ix1 r) = sumR (hR x0 x1 x2 x4 x5 x6 x7 r) := by
  rw [val_main_v35_apply, val_main_cst_8_apply]
  show _ + (∑ k : Fin 256, _) = _ + (∑ k : Fin 256, _)
  refine add_eq_of_right (Finset.sum_congr rfl fun k _ => ?_)
  have e : idx_main_v35 (ix1 r) k = ix2 r k :=
    funext fun a => by match a with | ⟨0, _⟩ => rfl | ⟨1, _⟩ => rfl
  rw [e, v34_eq]

/-- Stages 36 to 38: the mean of the row. -/
theorem v38_eq (r : Fin 98304) :
    val_main_v38 (F := Ideal) x0 x1 x2 x4 x5 x6 x7 (ix2 r (⟨0, Nat.one_pos⟩ : Fin 1))
      = mean sumR (hR x0 x1 x2 x4 x5 x6 x7 r) := by
  have e : idx_main_v36 (ix2 r (⟨0, Nat.one_pos⟩ : Fin 1)) = ix1 r :=
    funext fun a => by match a with | ⟨0, _⟩ => rfl
  rw [val_main_v38_apply, val_main_v36_apply, e, v35_eq, val_main_v37_apply, val_main_cst_9_apply]
  rfl

/-- Stage 39: the mean repeated along the row. -/
theorem v39_eq (r : Fin 98304) (j : Fin 256) :
    val_main_v39 (F := Ideal) x0 x1 x2 x4 x5 x6 x7 (ix2 r j) = mean sumR (hR x0 x1 x2 x4 x5 x6 x7 r) := by
  have e : idx_main_v39 (ix2 r j) = ix2 r (⟨0, Nat.one_pos⟩ : Fin 1) :=
    funext fun a => by match a with | ⟨0, _⟩ => rfl | ⟨1, _⟩ => rfl
  rw [val_main_v39_apply, e, v38_eq]

/-- Stage 46: the same repetition of the mean, a second time. -/
theorem v46_eq (r : Fin 98304) (j : Fin 256) :
    val_main_v46 (F := Ideal) x0 x1 x2 x4 x5 x6 x7 (ix2 r j) = mean sumR (hR x0 x1 x2 x4 x5 x6 x7 r) := by
  have e : idx_main_v46 (ix2 r j) = ix2 r (⟨0, Nat.one_pos⟩ : Fin 1) :=
    funext fun a => by match a with | ⟨0, _⟩ => rfl | ⟨1, _⟩ => rfl
  rw [val_main_v46_apply, e, v38_eq]

/-- Stage 40: the deviation from the mean. -/
theorem v40_eq (r : Fin 98304) (j : Fin 256) :
    val_main_v40 (F := Ideal) x0 x1 x2 x4 x5 x6 x7 (ix2 r j) = dev sumR (hR x0 x1 x2 x4 x5 x6 x7 r) j := by
  rw [val_main_v40_apply, v34_eq, v39_eq]
  rfl

/-- Stage 47: the deviation again, from the second copy of the mean. -/
theorem v47_eq (r : Fin 98304) (j : Fin 256) :
    val_main_v47 (F := Ideal) x0 x1 x2 x4 x5 x6 x7 (ix2 r j) = dev sumR (hR x0 x1 x2 x4 x5 x6 x7 r) j := by
  rw [val_main_v47_apply, v34_eq, v46_eq]
  rfl

/-- Stages 41 and 42: the sum of the squared deviations, started from zero. -/
theorem v42_eq (r : Fin 98304) :
    val_main_v42 (F := Ideal) x0 x1 x2 x4 x5 x6 x7 (ix1 r)
      = sumR (fun k => dev sumR (hR x0 x1 x2 x4 x5 x6 x7 r) k * dev sumR (hR x0 x1 x2 x4 x5 x6 x7 r) k) := by
  rw [val_main_v42_apply, val_main_cst_10_apply]
  show _ + (∑ k : Fin 256, _) = _ + (∑ k : Fin 256, _)
  refine add_eq_of_right (Finset.sum_congr rfl fun k _ => ?_)
  have e : idx_main_v42 (ix1 r) k = ix2 r k :=
    funext fun a => by match a with | ⟨0, _⟩ => rfl | ⟨1, _⟩ => rfl
  rw [e, val_main_v41_apply, v40_eq]
  rfl

/-- Stages 43 to 45: the variance of the row. -/
theorem v45_eq (r : Fin 98304) :
    val_main_v45 (F := Ideal) x0 x1 x2 x4 x5 x6 x7 (ix2 r (⟨0, Nat.one_pos⟩ : Fin 1))
      = var sumR (hR x0 x1 x2 x4 x5 x6 x7 r) := by
  have e : idx_main_v43 (ix2 r (⟨0, Nat.one_pos⟩ : Fin 1)) = ix1 r :=
    funext fun a => by match a with | ⟨0, _⟩ => rfl
  rw [val_main_v45_apply, val_main_v43_apply, e, v42_eq, val_main_v44_apply, val_main_cst_11_apply]
  rfl

/-- Stages 48 to 51: the square root of the shifted variance, repeated along the row. -/
theorem v51_eq (r : Fin 98304) (j : Fin 256) :
    val_main_v51 (F := Ideal) x0 x1 x2 x4 x5 x6 x7 (ix2 r j)
      = Ideal.sqrt (var sumR (hR x0 x1 x2 x4 x5 x6 x7 r) + eps) := by
  have e : idx_main_v51 (ix2 r j) = ix2 r (⟨0, Nat.one_pos⟩ : Fin 1) :=
    funext fun a => by match a with | ⟨0, _⟩ => rfl | ⟨1, _⟩ => rfl
  rw [val_main_v51_apply, e, val_main_v50_apply, val_main_v49_apply, v45_eq, val_main_v48_apply,
    val_main_cst_12_apply]
  rfl

/-- Stages 52 to 59: the deviation divided by the square root, scaled by gamma, shifted by beta, ramped. -/
theorem v59_eq (r : Fin 98304) (j : Fin 256) :
    val_main_v59 (F := Ideal) x0 x1 x2 x4 x5 x6 x7 x8 x9 (ix2 r j)
      = act sumR nrmR x8 x9 (hR x0 x1 x2 x4 x5 x6 x7 r) j := by
  have e8 : idx_main_v53 (idx_main_v54 (ix2 r j)) = ix1 j :=
    funext fun a => by match a with | ⟨0, _⟩ => rfl
  have e9 : idx_main_v56 (idx_main_v57 (ix2 r j)) = ix1 j :=
    funext fun a => by match a with | ⟨0, _⟩ => rfl
  rw [val_main_v59_apply, val_main_call1_v0_apply, val_main_call1_cst_apply, val_main_v58_apply,
    val_main_v57_apply, val_main_v56_apply, e9, val_main_v55_apply, val_main_v54_apply, val_main_v53_apply, e8,
    val_main_v52_apply, v47_eq, v51_eq]
  rfl

/-- Stages 60 to 64: the second layer. -/
theorem v64_eq (r : Fin 98304) (j : Fin 256) :
    val_main_v64 (F := Ideal) x0 x1 x2 x4 x5 x6 x7 x8 x9 x10 x11 (ix2 r j)
      = enh sumR nrmR x8 x9 x11 x10 (hR x0 x1 x2 x4 x5 x6 x7 r) j := by
  have e11 : idx_main_v62 (idx_main_v63 (ix2 r j)) = ix1 j :=
    funext fun a => by match a with | ⟨0, _⟩ => rfl
  rw [val_main_v64_apply, val_main_v63_apply, val_main_v62_apply, e11, val_main_v61_apply]
  show (∑ k : Fin 256, _) + _ = (∑ k : Fin 256, _) + _
  refine add_eq_of_left (Finset.sum_congr rfl fun k _ => ?_)
  have el : lidx_main_v61 (ix2 r j) k = ix2 r k :=
    funext fun a => by match a with | ⟨0, _⟩ => rfl | ⟨1, _⟩ => rfl
  have er : idx_main_v60 (ridx_main_v61 (ix2 r j) k) = ix2 j k :=
    funext fun a => by match a with | ⟨0, _⟩ => rfl | ⟨1, _⟩ => rfl
  rw [val_main_v60_apply, el, er, v59_eq]

/-! ## The masked mix -/

/-- Stages 65 to 70: (1 - s) times the node's entry plus s times the second layer's. -/
theorem v70_eq (r : Fin 98304) (j : Fin 256) :
    val_main_v70 (F := Ideal) x0 x1 x2 x4 x5 x6 x7 x8 x9 x10 x11 x12 (ix2 r j)
      = (one - x12 ix0) * x0 (ix2 r j)
        + x12 ix0 * enh sumR nrmR x8 x9 x11 x10 (hR x0 x1 x2 x4 x5 x6 x7 r) j := by
  rw [val_main_v70_apply, val_main_v69_apply, val_main_v68_apply, v64_eq, val_main_v67_apply,
    val_main_v66_apply, val_main_v65_apply, val_main_cst_13_apply]
  rfl

/-- Stages 71 and 72: the mix on the rows the mask selects, the node's entry elsewhere. -/
theorem v72_eq (r : Fin 98304) (j : Fin 256) :
    val_main_v72 (F := Ideal) x0 x1 x2 x3 x4 x5 x6 x7 x8 x9 x10 x11 x12 (ix2 r j)
      = outR x0 x1 x2 x3 x4 x5 x6 x7 x8 x9 x10 x11 (x12 ix0) r j := by
  have e3 : idx_main_v71 (idx_main_call2_v0 (ix2 r j)) = ix1 r :=
    funext fun a => by match a with | ⟨0, _⟩ => rfl
  rw [val_main_v72_apply, val_main_call2_v0_apply, val_main_v71_apply, e3, v70_eq]
  rfl

/-- The reference program's result is the second spelling of the specification. -/
theorem ref_eq :
    val_main_v72 (F := Ideal) x0 x1 x2 x3 x4 x5 x6 x7 x8 x9 x10 x11 x12
      = GR x0 x1 x2 x3 x4 x5 x6 x7 x8 x9 x10 x11 (x12 ix0) := by
  funext i
  obtain ⟨r, j, rfl⟩ : ∃ (r : Fin 98304) (j : Fin 256), i = ix2 r j := ⟨i 0, i 1, eq_ix2 i⟩
  rw [v72_eq]
  rfl

end Cert.Syndrome.Ref

end
-- ==== Proof.Bridge.lean ====
/-
  The two spellings of the row function agree on the extended reals.

  Four independent facts, then the assembly:
   (1) contracting all 384 columns of the first layer against the concatenated row is the node's
       share (first 256 columns) plus the graph's share (last 128 columns): a finite sum over
       256 + 128 indices splits into its two ranges; addition on the extended reals is a commutative
       monoid, so no finiteness is needed;
   (2) a sum started from the literal zero is the sum;
   (3) dividing by the square root of v is multiplying by the reciprocal square root of v whenever
       0 < v (v may be the top element, where both sides are 0), and the shifted variance of any row is
       positive: a square is nonnegative on the extended reals (also at the infinities), a finite
       sum of nonnegatives is nonnegative, division by 256 keeps the sign, and the shift is a
       positive real;
   (4) for a finite x, a finite s and any extended real e,
         x + (m * s) * (e - x) = (1 - s) * x + s * e   when the mask bit m is 1, and = x when it is 0.
-/
import proofs.«141340_g42709154792033_cont_8to1c4_21_43_alg».proof.Proof.Spec
import Idealize.ShloMosaic.PureOps.Ideal.Laws

noncomputable section

open scoped BigOperators

namespace Cert.Syndrome

open Idealize.ShloMosaic Idealize.ShloMosaic.ValueIdx

namespace Bridge

/-! ## The literals -/

/-- The literal one is the number 1. -/
theorem one_eq : one = 1 := by
  simp [one, Ideal.ofBits, Ideal.ieee, -EReal.coe_mul]; norm_num

/-- The literal zero is the number 0. -/
theorem zero_eq : zero = 0 := Ideal.ofBits_zero_f32

/-- The literal 256. -/
theorem c256_eq : c256 = ((256 : ℝ) : EReal) := by
  simp [c256, Ideal.ofBits, Ideal.ieee, -EReal.coe_mul]; norm_num

/-- The variance shift is a positive real. -/
theorem eps_pos : ∃ e : ℝ, 0 < e ∧ eps = (e : EReal) := by
  refine ⟨((2 ^ 23 + 0x27C5AC : ℕ) : ℝ) * (2 : ℝ) ^ ((110 : ℤ) - 127 - 23), by positivity, ?_⟩
  simp [eps, Ideal.ofBits, Ideal.ieee, -EReal.coe_mul]

/-! ## (1) The first layer: 384 columns at once, or 256 and then 128 -/

section layer1
variable (x : Arr2 98304 256) (p : Arr2 64 1024) (H : Arr2 512 1024)
variable (Wp : Arr2 128 512) (bp : Arr1 128) (W1 : Arr2 256 384) (b1 : Arr1 256)

/-- The first 256 entries of the concatenated row are the node's. -/
theorem fused_lo (r : Fin 98304) (k : Fin 256) :
    fused x p H Wp bp r (Fin.castAdd 128 k) = x (ix2 r k) := by
  unfold fused
  rw [dif_pos (show (Fin.castAdd 128 k).val < 256 from k.isLt)]
  rfl

/-- The last 128 entries of the concatenated row are the graph's feature. -/
theorem fused_hi (r : Fin 98304) (k : Fin 128) :
    fused x p H Wp bp r (Fin.natAdd 256 k) = feat p H Wp bp (graphOf r) k := by
  unfold fused
  rw [dif_neg (show ¬ (Fin.natAdd 256 k).val < 256 from by simp)]
  congr 1
  exact Fin.ext (by simp)

/-- The two spellings of the pre-activation agree. -/
theorem hK_eq_hR (r : Fin 98304) (j : Fin 256) :
    hK x p H Wp bp W1 b1 r j = hR x p H Wp bp W1 b1 r j := by
  unfold hK hR synK
  have h := Fin.sum_univ_add (a := 256) (b := 128)
    (fun k : Fin 384 => fused x p H Wp bp r k * W1 (ix2 j k))
  rw [← add_assoc]
  refine congrArg (· + b1 (ix1 j)) ?_
  refine Eq.trans ?_ h.symm
  refine congrArg₂ (· + ·) (Finset.sum_congr rfl fun k _ => ?_) (Finset.sum_congr rfl fun k _ => ?_)
  · rw [fused_lo]; rfl
  · rw [fused_hi]; rfl

end layer1

/-! ## (2) A sum started from the literal zero -/

theorem sumR_eq_sumK : sumR = sumK := by
  funext f
  unfold sumR sumK
  rw [zero_eq, zero_add]

/-! ## (3) Division by the square root, and the sign of the shifted variance -/

/-- Dividing by the square root of a positive extended real is multiplying by its reciprocal
    square root. At the top element both sides are 0. -/
theorem nrmR_eq_nrmK (d v : EReal) (hv : 0 < v) : nrmR d v = nrmK d v := by
  unfold nrmR nrmK
  induction v using EReal.rec with
  | bot => exact absurd hv (by simp)
  | top =>
    rw [Ideal.sqrt_top, Ideal.rsqrt_top, Ideal.div, if_neg (by simp), EReal.inv_top]
  | coe r =>
    have hr : 0 < r := EReal.coe_pos.1 hv
    have hs : (Real.sqrt r : EReal) ≠ 0 := by
      exact_mod_cast (Real.sqrt_pos.2 hr).ne'
    rw [Ideal.sqrt_coe, Ideal.rsqrt_coe, if_neg (not_lt.2 hr.le), if_neg (not_lt.2 hr.le),
      if_neg hr.ne', Ideal.div, if_neg hs, EReal.coe_inv]

/-- A square is nonnegative on the extended reals: the infinities square to the top element. -/
theorem mul_self_nonneg_ereal (a : EReal) : 0 ≤ a * a := by
  induction a using EReal.rec with
  | bot => simp
  | top => simp
  | coe r => rw [← EReal.coe_mul]; exact EReal.coe_nonneg.2 (mul_self_nonneg r)

/-- Division by the literal 256 is multiplication by the real 1/256. -/
theorem div_c256 (a : EReal) : Ideal.div a c256 = a * ((1 / 256 : ℝ) : EReal) := by
  rw [c256_eq]; exact Ideal.div_coe (by norm_num) a

/-- The variance of any row of extended reals is nonnegative. -/
theorem var_nonneg (h : Fin 256 → EReal) : 0 ≤ var sumK h := by
  unfold var sumK
  rw [div_c256]
  exact mul_nonneg (Finset.sum_nonneg fun k _ => mul_self_nonneg_ereal _)
    (EReal.coe_nonneg.2 (by norm_num))

/-- The shifted variance of any row is positive. -/
theorem var_eps_pos (h : Fin 256 → EReal) : 0 < var sumK h + eps := by
  obtain ⟨e, he, hE⟩ := eps_pos
  rw [hE]
  calc (0 : EReal) < (e : EReal) := EReal.coe_pos.2 he
    _ = 0 + (e : EReal) := (zero_add _).symm
    _ ≤ var sumK h + (e : EReal) := add_le_add (var_nonneg h) le_rfl

/-- The normalised, ramped and re-mixed row is the same in both spellings. -/
theorem enhR_eq_enhK (gamma beta b2 : Arr1 256) (W2 : Arr2 256 256) (h : Fin 256 → EReal) (j : Fin 256) :
    enh sumR nrmR gamma beta b2 W2 h j = enh sumK nrmK gamma beta b2 W2 h j := by
  rw [sumR_eq_sumK]
  unfold enh act
  refine congrArg (· + b2 (ix1 j)) (Finset.sum_congr rfl fun k _ => ?_)
  rw [nrmR_eq_nrmK _ _ (var_eps_pos h)]

/-! ## (4) The mix -/

/-- A mask bit is the number 0 or 1. -/
theorem bit_zero : bit 0#1 = 0 := by simp [bit]
theorem bit_one : bit 1#1 = 1 := by simp [bit]

/-- On a selected row: x + s * (e - x) = (1 - s) * x + s * e for finite x and s and any e. -/
theorem mix_one (x s : ℝ) (e : EReal) :
    (x : EReal) + (s : EReal) * (e - x) = (1 - (s : EReal)) * x + s * e := by
  induction e using EReal.rec with
  | coe e =>
    rw [← EReal.coe_sub, ← EReal.coe_mul, ← EReal.coe_add, ← EReal.coe_one, ← EReal.coe_sub,
      ← EReal.coe_mul, ← EReal.coe_mul, ← EReal.coe_add]
    congr 1; ring
  | top =>
    rw [EReal.top_sub_coe, ← EReal.coe_one, ← EReal.coe_sub, ← EReal.coe_mul]
    rcases lt_trichotomy s 0 with hs | hs | hs
    · rw [EReal.coe_mul_top_of_neg hs, EReal.add_bot, EReal.add_bot]
    · subst hs; simp
    · rw [EReal.coe_mul_top_of_pos hs, EReal.coe_add_top, EReal.coe_add_top]
  | bot =>
    rw [EReal.bot_sub, ← EReal.coe_one, ← EReal.coe_sub, ← EReal.coe_mul]
    rcases lt_trichotomy s 0 with hs | hs | hs
    · rw [EReal.coe_mul_bot_of_neg hs, EReal.coe_add_top, EReal.coe_add_top]
    · subst hs; simp
    · rw [EReal.coe_mul_bot_of_pos hs, EReal.add_bot, EReal.add_bot]

/-- The mix in both spellings, for a finite x, a finite s and any e. -/
theorem mix_eq (m : BitVec 1) (x s : ℝ) (e : EReal) :
    (x : EReal) + (bit m * (s : EReal)) * (e - x)
      = if m = 1#1 then (one - (s : EReal)) * x + s * e else (x : EReal) := by
  rcases BitVec.eq_zero_or_eq_one m with hm | hm
  · subst hm
    rw [if_neg (by decide), bit_zero, zero_mul, zero_mul, add_zero]
  · subst hm
    rw [if_pos rfl, bit_one, one_mul, one_eq]
    exact mix_one x s e

/-! ## Assembly -/

section whole
variable (x : Arr2 98304 256) (p : Arr2 64 1024) (H : Arr2 512 1024)
variable (mask : (⟨1, ![98304]⟩ : Shape).Idx → BitVec 1) (Wp : Arr2 128 512) (bp : Arr1 128)
variable (W1 : Arr2 256 384) (b1 gamma beta : Arr1 256) (W2 : Arr2 256 256) (b2 : Arr1 256) (s : EReal)

/-- One entry of the result, in both spellings. -/
theorem outK_eq_outR (hx : ∀ i, x i ≠ ⊤ ∧ x i ≠ ⊥) (hs : s ≠ ⊤ ∧ s ≠ ⊥) (r : Fin 98304) (j : Fin 256) :
    outK x p H mask Wp bp W1 b1 gamma beta W2 b2 s r j
      = outR x p H mask Wp bp W1 b1 gamma beta W2 b2 s r j := by
  unfold outK outR
  have hh : hK x p H Wp bp W1 b1 r = hR x p H Wp bp W1 b1 r :=
    funext fun j => hK_eq_hR x p H Wp bp W1 b1 r j
  rw [hh, enhR_eq_enhK]
  obtain ⟨xr, hxr⟩ : ∃ xr : ℝ, x (ix2 r j) = (xr : EReal) :=
    ⟨_, (EReal.coe_toReal (hx _).1 (hx _).2).symm⟩
  obtain ⟨sr, hsr⟩ : ∃ sr : ℝ, s = (sr : EReal) := ⟨_, (EReal.coe_toReal hs.1 hs.2).symm⟩
  rw [hxr, hsr]
  exact mix_eq _ xr sr _

end whole

end Bridge

/-- The two spellings of the whole function agree on finite node rows and a finite mixing weight. -/
theorem GK_eq_GR (x : Arr2 98304 256) (p : Arr2 64 1024) (H : Arr2 512 1024)
    (mask : (⟨1, ![98304]⟩ : Shape).Idx → BitVec 1) (Wp : Arr2 128 512) (bp : Arr1 128)
    (W1 : Arr2 256 384) (b1 gamma beta : Arr1 256) (W2 : Arr2 256 256) (b2 : Arr1 256) (s : EReal)
    (hx : ∀ i, x i ≠ ⊤ ∧ x i ≠ ⊥) (hs : s ≠ ⊤ ∧ s ≠ ⊥) :
    GK x p H mask Wp bp W1 b1 gamma beta W2 b2 s = GR x p H mask Wp bp W1 b1 gamma beta W2 b2 s := by
  funext i
  exact Bridge.outK_eq_outR x p H mask Wp bp W1 b1 gamma beta W2 b2 s hx hs (i 0) (i 1)

end Cert.Syndrome

end
-- ==== Proof.Finite.lean ====
/-
  Under the precondition, node_features and syndrome_weight are real.

  The precondition is the conjunction, over the thirteen argument arrays, of "every entry x has |x| < +inf"
  (the boolean mask excepted), where |x| is max x (-x) on the extended reals and +inf is the number the
  single-precision pattern 0x7F800000 denotes. An extended real x with max x (-x) < +inf is neither +inf
  (then max x (-x) = +inf) nor -inf (then -x = +inf, so again max x (-x) = +inf): it is a real.
  Only the first conjunct (node_features) and the last (the scalar weight) are read here.
-/
import proofs.«141340_g42709154792033_cont_8to1c4_21_43_alg».proof.Pre_finite_inputs
import Idealize.ShloMosaic.Lib.ReduceAll
import Idealize.ShloMosaic.Lib.ValueIdx
import Idealize.ShloMosaic.PureOps.Ideal.Laws

noncomputable section

namespace Cert.Syndrome.Fin

open Idealize.ShloMosaic Idealize.ShloMosaic.ValueIdx Cert.Pre_finite_inputs

/-- The scalar shape has one index. -/
instance : Subsingleton S_.Idx := ⟨fun a b => funext fun d => d.elim0⟩

/-- The single-precision pattern 0x7F800000 denotes +inf. -/
theorem inf_eq_top : Ideal.ofBits .f32 0x7F800000#32 = (⊤ : EReal) := by
  simp [Ideal.ofBits, Ideal.ieee]

/-- A one-bit word made from a boolean is 1 exactly when the boolean is true. -/
theorem ofBool_eq_one (b : Bool) : BitVec.ofBool b = 1#1 ↔ b = true := by cases b <;> decide

/-- An extended real whose absolute value max x (-x) is strictly below +inf is a real. -/
theorem real_of_abs_lt_top (x : EReal) (h : max x (-x) < ⊤) : x ≠ ⊤ ∧ x ≠ ⊥ := by
  constructor
  · rintro rfl
    simp at h
  · rintro rfl
    simp at h

/-- The element fact of the precondition: the comparison "|x| < +inf" came out 1, so x is a real. -/
theorem real_of_bit (x : Ideal .f32)
    (h : FloatOps.cmpf (F := Ideal) .olt (FloatOps.hostAbsf x) (FloatOps.ofBits .f32 0x7F800000#32) = 1#1) :
    x ≠ ⊤ ∧ x ≠ ⊥ := by
  change Ideal.cmp .olt (max x (-x)) (Ideal.ofBits .f32 0x7F800000#32) = 1#1 at h
  rw [inf_eq_top] at h
  unfold Ideal.cmp at h
  rw [ofBool_eq_one] at h
  exact real_of_abs_lt_top x (of_decide_eq_true h)

/-- Under the precondition every entry of node_features, and the scalar weight, is a real. -/
theorem finite_of_pre [Cert.Pre_finite_inputs.Facts]
    (a0 : FVec Ideal S98304x256 .f32) (a1 : FVec Ideal S64x1024 .f32) (a2 : FVec Ideal S512x1024 .f32)
    (a3 : IVec S98304 1) (a4 : FVec Ideal S128x512 .f32) (a5 : FVec Ideal S128 .f32)
    (a6 : FVec Ideal S256x384 .f32) (a7 : FVec Ideal S256 .f32) (a8 : FVec Ideal S256 .f32)
    (a9 : FVec Ideal S256 .f32) (a10 : FVec Ideal S256x256 .f32) (a11 : FVec Ideal S256 .f32)
    (a12 : FVec Ideal S_ .f32)
    (h : Cert.Pre_finite_inputs.fn (F := Ideal) a0 a1 a2 a3 a4 a5 a6 a7 a8 a9 a10 a11 a12 = (fun _ => 1#1)) :
    (∀ i, a0 i ≠ ⊤ ∧ a0 i ≠ ⊥) ∧ (a12 ValueIdx.ix0 ≠ ⊤ ∧ a12 ValueIdx.ix0 ≠ ⊥) := by
  have e := congrFun h ValueIdx.ix0
  simp only [fn, fn_part1, fn_part2, fn_part3, andi, IntOp.andi_eq_one] at e
  obtain ⟨⟨⟨⟨⟨⟨⟨⟨⟨⟨⟨h0, -⟩, -⟩, -⟩, -⟩, -⟩, -⟩, -⟩, -⟩, -⟩, -⟩, h12⟩ := e
  refine ⟨fun i => ?_, ?_⟩
  · exact real_of_bit (a0 i) (Host.reduce_andi_all _ _ _ _ _ h0 i)
  · exact real_of_bit (a12 ValueIdx.ix0) (Host.reduce_andi_all _ _ _ _ _ h12 ValueIdx.ix0)

end Cert.Syndrome.Fin

end
-- ==== Proof.lean ====
/-
  The five claims of this certificate.

  The kernel and the reference compute one function of the thirteen arguments on the extended reals. Per
  graph: the log-likelihood ratios of the bit probabilities, clipped, through two half-angle tanh's and an
  affine map, give a syndrome feature. Per node row: one affine layer on [row, feature of the row's graph], a
  layer normalisation, a ramp, a second affine layer, and a mix with the row on the rows the mask selects.
  The kernel splits the first layer into the node's share and the graph's share (computed once, at grid
  point 0, and kept in a table), multiplies by the reciprocal square root where the reference divides by the
  square root (equal because a variance plus a positive number is positive), and mixes as x + (mask·s)(e - x)
  where the reference selects between (1 - s)x + s·e and x (equal because x and s are finite under the
  precondition). The frames of the two kernel programs come from running the body at every grid point; the
  reference's frame is its run with the result dropped; no operation was rewritten for the idealization.
-/
import proofs.«141340_g42709154792033_cont_8to1c4_21_43_alg».proof.Defs
import proofs.«141340_g42709154792033_cont_8to1c4_21_43_alg».proof.Proof.Gen.Kernel
import proofs.«141340_g42709154792033_cont_8to1c4_21_43_alg».proof.Proof.Gen.KernelIdeal
import proofs.«141340_g42709154792033_cont_8to1c4_21_43_alg».proof.Proof.Gen.ReferenceIdeal
import proofs.«141340_g42709154792033_cont_8to1c4_21_43_alg».proof.Proof.Gen.ReferenceIdeal.Run
import proofs.«141340_g42709154792033_cont_8to1c4_21_43_alg».proof.Proof.Gen.ReferenceIdeal.Read
import proofs.«141340_g42709154792033_cont_8to1c4_21_43_alg».proof.Proof.Gen.Pre_finite_inputs
import proofs.«141340_g42709154792033_cont_8to1c4_21_43_alg».proof.Proof.KFrame
import proofs.«141340_g42709154792033_cont_8to1c4_21_43_alg».proof.Proof.KFinal
import proofs.«141340_g42709154792033_cont_8to1c4_21_43_alg».proof.Proof.RefIsGR
import proofs.«141340_g42709154792033_cont_8to1c4_21_43_alg».proof.Proof.Bridge
import proofs.«141340_g42709154792033_cont_8to1c4_21_43_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end at the specification's result: the kernel at its first spelling, the reference at the
    second, and the two agree where node_features and syndrome_weight are finite, which the precondition gives. -/
theorem algebraic : Cert.algebraic_KernelIdeal_ReferenceIdeal := by
  intro m ρ m' ρ' hpre hagree
  refine ⟨fun c => Cert.Syndrome.K.result m c, Cert.KernelIdeal.Hand.run_named m ρ, ?_⟩
  refine (θ_run Cert.ReferenceIdeal.defs _ _).mono (fun _ h c => ⟨(h c).1.trans ?_, (h c).2⟩)
    (Cert.ReferenceIdeal.Value.run (F := Ideal) m' ρ')
  obtain ⟨hx, hs⟩ := Cert.Syndrome.Fin.finite_of_pre _ _ _ _ _ _ _ _ _ _ _ _ _ (hpre c)
  obtain ⟨e0, e1, e2, e3, e4, e5, e6, e7, e8, e9, e10, e11, e12⟩ := hagree c
  rw [Cert.ReferenceIdeal.Read.val_main_v72_eq, Cert.Syndrome.Ref.ref_eq, e0, e1, e2, e3, e4, e5, e6, e7, e8, e9, e10, e11, e12]
  exact (Cert.Syndrome.GK_eq_GR _ _ _ _ _ _ _ _ _ _ _ _ _ hx hs).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
